-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S512x128 : Shape := ⟨2, ![512, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x512 .f32) (main_arg1 : IVec S2x131072 32) (main_arg2 : FVec F S512x128 .f32) (main_arg3 : FVec F S128 .f32) (main_arg4 : FVec F S512x128 .f32) (main_arg5 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S8192x512 : Shape := ⟨2, ![8192, 512]⟩
abbrev S2x131072 : Shape := ⟨2, ![2, 131072]⟩
abbrev S512x128 : Shape := ⟨2, ![512, 128]⟩
abbrev S128 : Shape := ⟨1, ![128]⟩
abbrev S1x131072 : Shape := ⟨2, ![1, 131072]⟩
abbrev S131072 : Shape := ⟨1, ![131072]⟩
abbrev S8192x128 : Shape := ⟨2, ![8192, 128]⟩
abbrev S_ : Shape := ⟨0, ![]⟩
abbrev S8192 : Shape := ⟨1, ![8192]⟩
abbrev S131072x1 : Shape := ⟨2, ![131072, 1]⟩
abbrev S131072x128 : Shape := ⟨2, ![131072, 128]⟩
abbrev S8192x1 : Shape := ⟨2, ![8192, 1]⟩
abbrev S1x128 : Shape := ⟨2, ![1, 128]⟩
abbrev S8192x8192 : Shape := ⟨2, ![8192, 8192]⟩
abbrev S131072x2 : Shape := ⟨2, ![131072, 2]⟩
abbrev S512x4096 : Shape := ⟨2, ![512, 4096]⟩
abbrev S4096x512 : Shape := ⟨2, ![4096, 512]⟩
abbrev S512x512 : Shape := ⟨2, ![512, 512]⟩
abbrev S4096x1024 : Shape := ⟨2, ![4096, 1024]⟩
abbrev S4096x128 : Shape := ⟨2, ![4096, 128]⟩
abbrev S1024x1 : Shape := ⟨2, ![1024, 1]⟩
abbrev S1024x128 : Shape := ⟨2, ![1024, 128]⟩
abbrev S8192x256 : Shape := ⟨2, ![8192, 256]⟩

abbrev nBuf : Space → Nat
  | .hbm => 141
  | .vmem => 17
  | .smem => 0
  | _ => 0

abbrev hbmTy0_0 (i : Nat) : BufTy := match i % 128 with
  | 0 => ⟨S8192x512, .f32⟩
  | 1 => ⟨S2x131072, .i32⟩
  | 2 => ⟨S512x128, .f32⟩
  | 3 => ⟨S128, .f32⟩
  | 4 => ⟨S512x128, .f32⟩
  | 5 => ⟨S128, .f32⟩
  | 6 => ⟨S1x131072, .i32⟩
  | 7 => ⟨S131072, .i32⟩
  | 8 => ⟨S1x131072, .i32⟩
  | 9 => ⟨S131072, .i32⟩
  | 10 => ⟨S8192x128, .f32⟩
  | 11 => ⟨S_, .f32⟩
  | 12 => ⟨S8192, .f32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S131072x1, .i32⟩
  | 21 => ⟨S_, .f32⟩
  | 22 => ⟨S131072, .f32⟩
  | 23 => ⟨S8192, .f32⟩
  | 24 => ⟨S_, .f32⟩
  | 25 => ⟨S8192, .f32⟩
  | 26 => ⟨S8192, .f32⟩
  | 27 => ⟨S_, .f32⟩
  | 28 => ⟨S8192, .f32⟩
  | 29 => ⟨S8192, .i1⟩
  | 30 => ⟨S8192, .f32⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072, .f32⟩
  | 56 => ⟨S131072, .f32⟩
  | 57 => ⟨S_, .f32⟩
  | 58 => ⟨S8192x128, .f32⟩
  | 59 => ⟨S131072x1, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x128, .f32⟩
  | 69 => ⟨S131072x128, .f32⟩
  | 70 => ⟨S131072x128, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S8192x128, .f32⟩
  | 80 => ⟨S8192, .f32⟩
  | 81 => ⟨S8192x1, .f32⟩
  | 82 => ⟨S8192x128, .f32⟩
  | 83 => ⟨S8192x128, .f32⟩
  | 84 => ⟨S8192x128, .f32⟩
  | 85 => ⟨S1x128, .f32⟩
  | 86 => ⟨S8192x128, .f32⟩
  | 87 => ⟨S8192x128, .f32⟩
  | 88 => ⟨S_, .f32⟩
  | 89 => ⟨S8192x8192, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x1, .i32⟩
  | 106 => ⟨S131072x2, .i32⟩
  | 107 => ⟨S_, .f32⟩
  | 108 => ⟨S131072, .f32⟩
  | 109 => ⟨S8192x8192, .f32⟩
  | 110 => ⟨S8192x8192, .bf16⟩
  | 111 => ⟨S8192x8192, .bf16⟩
  | 112 => ⟨S8192x8192, .f32⟩
  | 113 => ⟨S_, .f32⟩
  | 114 => ⟨S8192, .f32⟩
  | 115 => ⟨S_, .f32⟩
  | 116 => ⟨S8192, .f32⟩
  | 117 => ⟨S8192, .i1⟩
  | 118 => ⟨S8192, .f32⟩
  | 119 => ⟨S_, .f32⟩
  | 120 => ⟨S8192, .f32⟩
  | 121 => ⟨S8192, .f32⟩
  | 122 => ⟨S_, .f32⟩
  | 123 => ⟨S_, .f32⟩
  | 124 => ⟨S8192, .f32⟩
  | 125 => ⟨S8192, .f32⟩
  | 126 => ⟨S8192x128, .f32⟩
  | 127 => ⟨S8192x1, .f32⟩
  | _ => ⟨S8192x512, .f32⟩

abbrev hbmTy0_1 (i : Nat) : BufTy := match i % 128 with
  | 0 => ⟨S8192x128, .f32⟩
  | 1 => ⟨S8192x128, .f32⟩
  | 2 => ⟨S8192x128, .bf16⟩
  | 3 => ⟨S8192x1, .f32⟩
  | 4 => ⟨S1x128, .f32⟩
  | 5 => ⟨S8192x128, .f32⟩
  | 6 => ⟨S_, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S8192x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S4096x1024, .bf16⟩
  | .local _ .vmem, ⟨8, _⟩ => ⟨S4096x1024, .bf16⟩
  | .local _ .vmem, ⟨9, _⟩ => ⟨S4096x128, .bf16⟩
  | .local _ .vmem, ⟨10, _⟩ => ⟨S4096x128, .bf16⟩
  | .local _ .vmem, ⟨11, _⟩ => ⟨S1024x1, .f32⟩
  | .local _ .vmem, ⟨12, _⟩ => ⟨S1024x1, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_c_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_18 : Ref sig .tc := ⟨.hbm, 97, rfl⟩
abbrev main_v69 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_v82 : Ref sig .tc := ⟨.hbm, 114, rfl⟩
abbrev main_cst_22 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_23 : Ref sig .tc := ⟨.hbm, 119, rfl⟩
abbrev main_v86 : Ref sig .tc := ⟨.hbm, 120, rfl⟩
abbrev main_v87 : Ref sig .tc := ⟨.hbm, 121, rfl⟩
abbrev main_cst_24 : Ref sig .tc := ⟨.hbm, 122, rfl⟩
abbrev main_call1_v0 : Ref sig .tc := ⟨.hbm, 123, rfl⟩
abbrev main_call1_v1 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_25 : Ref sig .tc := ⟨.hbm, 134, rfl⟩
abbrev main_v97 : Ref sig .tc := ⟨.hbm, 135, rfl⟩
abbrev main_v98 : Ref sig .tc := ⟨.hbm, 136, rfl⟩
abbrev main_cst_26 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨3, ![16, 16, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192 : S_.BroadcastsInDim S8192 (![] : Fin 0 → Fin S8192.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  bcast_S131072x1_S131072x128_0_1 : S131072x1.BroadcastsInDim S131072x128 (![0, 1] : Fin 2 → Fin S131072x128.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x8192 : S_.BroadcastsInDim S8192x8192 (![] : Fin 0 → Fin S8192x8192.rank)
  concatenates_S131072x1_S131072x1_S131072x2_d1 : Shape.Concatenates [S131072x1, S131072x1] S131072x2 1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  iota_S512x512_d0_w32 : S512x512.Iotas .tc 32 [0]
  iota_S512x512_d1_w32 : S512x512.Iotas .tc 32 [1]
  natLt_1_32 : 1 < 32
  packedbf16_S512x512_S512x512_0_0 : (Rect.unit (s := S512x512) ![0, 0] S512x512.size inb_S512x512_S512x512_0_0).PackedRows (EltTy.packing .bf16)
  reducesTo_S8192x8192_S8192_d0 : S8192x8192.ReducesTo [0] S8192
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  concatenates_S8192x128_S8192x128_S8192x256_d1 : Shape.Concatenates [S8192x128, S8192x128] S8192x256 1
  dot_S8192x512_S512x128_S8192x128_1_0_0_1_n_n_wf : DotDims.WF S8192x512 S512x128 S8192x128 [1] [0] [0] [1] [] []
  scatter_S8192_S131072x1_S131072_n_0_0_1_wf : ScatterDims.WF S8192 S131072x1 S131072 [] [0] [0] 1
  gather_S8192_S131072x1_S131072_n_0_n_n_0_1_1_wf : GatherDims.WF S8192 S131072x1 S131072 [] [0] [] [0] [] 1 ![1]
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  scatter_S8192x8192_S131072x2_S131072_n_01_01_1_wf : ScatterDims.WF S8192x8192 S131072x2 S131072 [] [0, 1] [0, 1] 1
  dot_S512x4096_S4096x512_S512x512_1_0_0_1_n_n_wf : DotDims.WF S512x4096 S4096x512 S512x512 [1] [0] [0] [1] [] []
  dot_S4096x1024_S4096x128_S1024x128_0_0_1_1_n_n_wf : DotDims.WF S4096x1024 S4096x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .bf16 = 32 ∨ (Rect.block (s := S8192x8192) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S8192x8192.size a
  hwx0_1 : ∀ i : grid0.Coords, EltTy.bits .bf16 = 32 ∨ (Rect.block (s := S8192x8192) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .bf16 = 32 ∨ (Rect.block (s := S8192x8192) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S8192x8192.size a
  hwx1_0 : ∀ i : grid1.Coords, EltTy.bits .bf16 = 32 ∨ (Rect.block (s := S8192x8192) S4096x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .bf16 = 32 ∨ (Rect.block (s := S8192x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S4096x1024_S4096x128_S1024x128_0_0_1_1_n_n : DotDims S4096x1024 S4096x128 S1024x128 where
  lhsContracting := [0]
  rhsContracting := [0]
  lhsNonContracting := [1]
  rhsNonContracting := [1]
  lhsBatch := []
  rhsBatch := []
  wf := dot_S4096x1024_S4096x128_S1024x128_0_0_1_1_n_n_wf

abbrev win0_0 : Pipeline.Window sig grid0 :=
  Pipeline.Window.ofSpec (Memref.whole main_v79) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v80) S4096x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v95) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v96) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S2x131072 : Shape := ⟨2, ![2, 131072]⟩
abbrev S512x128 : Shape := ⟨2, ![512, 128]⟩
abbrev S128 : Shape := ⟨1, ![128]⟩
abbrev S1x131072 : Shape := ⟨2, ![1, 131072]⟩
abbrev S131072 : Shape := ⟨1, ![131072]⟩
abbrev S8192x128 : Shape := ⟨2, ![8192, 128]⟩
abbrev S_ : Shape := ⟨0, ![]⟩
abbrev S8192 : Shape := ⟨1, ![8192]⟩
abbrev S131072x1 : Shape := ⟨2, ![131072, 1]⟩
abbrev S131072x128 : Shape := ⟨2, ![131072, 128]⟩
abbrev S8192x1 : Shape := ⟨2, ![8192, 1]⟩
abbrev S1x128 : Shape := ⟨2, ![1, 128]⟩
abbrev S8192x8192 : Shape := ⟨2, ![8192, 8192]⟩
abbrev S131072x2 : Shape := ⟨2, ![131072, 2]⟩
abbrev S8192x2 : Shape := ⟨2, ![8192, 2]⟩
abbrev S8192x256 : Shape := ⟨2, ![8192, 256]⟩

abbrev nBuf : Space → Nat
  | .hbm => 168
  | .vmem => 0
  | .smem => 0
  | _ => 0

abbrev hbmTy0_0 (i : Nat) : BufTy := match i % 128 with
  | 0 => ⟨S8192x512, .f32⟩
  | 1 => ⟨S2x131072, .i32⟩
  | 2 => ⟨S512x128, .f32⟩
  | 3 => ⟨S128, .f32⟩
  | 4 => ⟨S512x128, .f32⟩
  | 5 => ⟨S128, .f32⟩
  | 6 => ⟨S1x131072, .i32⟩
  | 7 => ⟨S131072, .i32⟩
  | 8 => ⟨S1x131072, .i32⟩
  | 9 => ⟨S131072, .i32⟩
  | 10 => ⟨S8192x128, .f32⟩
  | 11 => ⟨S_, .f32⟩
  | 12 => ⟨S8192, .f32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S131072x1, .i32⟩
  | 21 => ⟨S_, .f32⟩
  | 22 => ⟨S131072, .f32⟩
  | 23 => ⟨S8192, .f32⟩
  | 24 => ⟨S_, .f32⟩
  | 25 => ⟨S8192, .f32⟩
  | 26 => ⟨S8192, .f32⟩
  | 27 => ⟨S_, .f32⟩
  | 28 => ⟨S8192, .f32⟩
  | 29 => ⟨S8192, .i1⟩
  | 30 => ⟨S8192, .f32⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072, .f32⟩
  | 56 => ⟨S131072, .f32⟩
  | 57 => ⟨S_, .f32⟩
  | 58 => ⟨S8192x128, .f32⟩
  | 59 => ⟨S131072x1, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x128, .f32⟩
  | 69 => ⟨S131072x128, .f32⟩
  | 70 => ⟨S131072x128, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S8192x128, .f32⟩
  | 80 => ⟨S8192, .f32⟩
  | 81 => ⟨S8192x1, .f32⟩
  | 82 => ⟨S8192x128, .f32⟩
  | 83 => ⟨S8192x128, .f32⟩
  | 84 => ⟨S8192x128, .f32⟩
  | 85 => ⟨S1x128, .f32⟩
  | 86 => ⟨S8192x128, .f32⟩
  | 87 => ⟨S8192x128, .f32⟩
  | 88 => ⟨S_, .f32⟩
  | 89 => ⟨S8192x8192, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x1, .i32⟩
  | 106 => ⟨S131072x2, .i32⟩
  | 107 => ⟨S_, .f32⟩
  | 108 => ⟨S131072, .f32⟩
  | 109 => ⟨S8192x8192, .f32⟩
  | 110 => ⟨S8192x8192, .f32⟩
  | 111 => ⟨S_, .f32⟩
  | 112 => ⟨S8192x8192, .f32⟩
  | 113 => ⟨S8192x8192, .i1⟩
  | 114 => ⟨S8192x8192, .f32⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8192x512, .f32⟩

abbrev hbmTy0_1 (i : Nat) : BufTy := match i % 128 with
  | 0 => ⟨S8192, .i32⟩
  | 1 => ⟨S8192, .i32⟩
  | 2 => ⟨S8192x1, .i32⟩
  | 3 => ⟨S8192x1, .i32⟩
  | 4 => ⟨S8192x2, .i32⟩
  | 5 => ⟨S_, .f32⟩
  | 6 => ⟨S8192, .f32⟩
  | 7 => ⟨S8192x8192, .f32⟩
  | 8 => ⟨S_, .f32⟩
  | 9 => ⟨S8192, .f32⟩
  | 10 => ⟨S_, .f32⟩
  | 11 => ⟨S8192, .f32⟩
  | 12 => ⟨S8192, .i1⟩
  | 13 => ⟨S8192, .f32⟩
  | 14 => ⟨S_, .f32⟩
  | 15 => ⟨S8192, .f32⟩
  | 16 => ⟨S8192, .f32⟩
  | 17 => ⟨S_, .f32⟩
  | 18 => ⟨S_, .f32⟩
  | 19 => ⟨S8192, .f32⟩
  | 20 => ⟨S8192, .f32⟩
  | 21 => ⟨S8192x128, .f32⟩
  | 22 => ⟨S8192x1, .f32⟩
  | 23 => ⟨S8192x8192, .f32⟩
  | 24 => ⟨S8192x1, .f32⟩
  | 25 => ⟨S8192x128, .f32⟩
  | 26 => ⟨S8192x128, .f32⟩
  | 27 => ⟨S8192x128, .f32⟩
  | 28 => ⟨S8192x128, .f32⟩
  | 29 => ⟨S8192x128, .f32⟩
  | 30 => ⟨S1x128, .f32⟩
  | 31 => ⟨S8192x128, .f32⟩
  | 32 => ⟨S8192x128, .f32⟩
  | 33 => ⟨S_, .f32⟩
  | 34 => ⟨S8192x128, .f32⟩
  | 35 => ⟨S8192x128, .f32⟩
  | 36 => ⟨S_, .f32⟩
  | 37 => ⟨S8192x128, .f32⟩
  | 38 => ⟨S8192x128, .f32⟩
  | 39 => ⟨S8192x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_c_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_18 : Ref sig .tc := ⟨.hbm, 97, rfl⟩
abbrev main_v69 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_22 : Ref sig .tc := ⟨.hbm, 116, rfl⟩
abbrev main_v84 : Ref sig .tc := ⟨.hbm, 117, rfl⟩
abbrev main_v85 : Ref sig .tc := ⟨.hbm, 118, rfl⟩
abbrev main_c_23 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_24 : Ref sig .tc := ⟨.hbm, 123, rfl⟩
abbrev main_v89 : Ref sig .tc := ⟨.hbm, 124, rfl⟩
abbrev main_v90 : Ref sig .tc := ⟨.hbm, 125, rfl⟩
abbrev main_c_25 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_26 : Ref sig .tc := ⟨.hbm, 133, rfl⟩
abbrev main_v97 : Ref sig .tc := ⟨.hbm, 134, rfl⟩
abbrev main_v98 : Ref sig .tc := ⟨.hbm, 135, rfl⟩
abbrev main_cst_27 : Ref sig .tc := ⟨.hbm, 136, rfl⟩
abbrev main_v99 : Ref sig .tc := ⟨.hbm, 137, rfl⟩
abbrev main_cst_28 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_29 : Ref sig .tc := ⟨.hbm, 142, rfl⟩
abbrev main_v103 : Ref sig .tc := ⟨.hbm, 143, rfl⟩
abbrev main_v104 : Ref sig .tc := ⟨.hbm, 144, rfl⟩
abbrev main_cst_30 : Ref sig .tc := ⟨.hbm, 145, rfl⟩
abbrev main_call1_v0 : Ref sig .tc := ⟨.hbm, 146, rfl⟩
abbrev main_call1_v1 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_31 : Ref sig .tc := ⟨.hbm, 161, rfl⟩
abbrev main_v118 : Ref sig .tc := ⟨.hbm, 162, rfl⟩
abbrev main_v119 : Ref sig .tc := ⟨.hbm, 163, rfl⟩
abbrev main_cst_32 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192 : S_.BroadcastsInDim S8192 (![] : Fin 0 → Fin S8192.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  bcast_S131072x1_S131072x128_0_1 : S131072x1.BroadcastsInDim S131072x128 (![0, 1] : Fin 2 → Fin S131072x128.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x8192 : S_.BroadcastsInDim S8192x8192 (![] : Fin 0 → Fin S8192x8192.rank)
  concatenates_S131072x1_S131072x1_S131072x2_d1 : Shape.Concatenates [S131072x1, S131072x1] S131072x2 1
  concatenates_S8192x1_S8192x1_S8192x2_d1 : Shape.Concatenates [S8192x1, S8192x1] S8192x2 1
  reducesTo_S8192x8192_S8192_d0 : S8192x8192.ReducesTo [0] S8192
  h_S_ : 0 < S_.numel
  transposes_S8192x8192_S8192x8192_1_0 : S8192x8192.Transposes [1, 0] S8192x8192
  concatenates_S8192x128_S8192x128_S8192x256_d1 : Shape.Concatenates [S8192x128, S8192x128] S8192x256 1
  dot_S8192x512_S512x128_S8192x128_1_0_0_1_n_n_wf : DotDims.WF S8192x512 S512x128 S8192x128 [1] [0] [0] [1] [] []
  scatter_S8192_S131072x1_S131072_n_0_0_1_wf : ScatterDims.WF S8192 S131072x1 S131072 [] [0] [0] 1
  gather_S8192_S131072x1_S131072_n_0_n_n_0_1_1_wf : GatherDims.WF S8192 S131072x1 S131072 [] [0] [] [0] [] 1 ![1]
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  scatter_S8192x8192_S131072x2_S131072_n_01_01_1_wf : ScatterDims.WF S8192x8192 S131072x2 S131072 [] [0, 1] [0, 1] 1
  dot_S8192x8192_S8192x8192_S8192x8192_1_0_0_1_n_n_wf : DotDims.WF S8192x8192 S8192x8192 S8192x8192 [1] [0] [0] [1] [] []
  scatter_S8192x8192_S8192x2_S8192_n_01_01_1_wf : ScatterDims.WF S8192x8192 S8192x2 S8192 [] [0, 1] [0, 1] 1
  dot_S8192x8192_S8192x128_S8192x128_1_0_0_1_n_n_wf : DotDims.WF S8192x8192 S8192x128 S8192x128 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RefRunBase.lean ====
/-
  The reference program's run, first half. The program is a straight line of 162 host operations, each computing one tensor
  from tensors computed before it; so every fair execution ends with every buffer holding the fold of the operations, in
  order, over the contents at launch. The six argument buffers are the result of no operation (each operation writes its one
  result, and the 162 results are listed), so the fold leaves each of them as it finds it, whatever the contents it starts from.
-/
import proofs.«124652_j14353780703440_1_alg».proof.Proof.RefTerm
import proofs.«124652_j14353780703440_1_alg».proof.Proof.RefOpsW
import Idealize.ShloMosaic.Lib.StableHlo.Run

noncomputable section

namespace Cert.ReferenceIdeal.Run2

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The program is the sequence of its operations -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., nullary_bufs_sub .., unary_bufs_sub .., binary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., binary_bufs_sub .., unary_bufs_sub .., unary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub ..⟩

/-! ## The run: every buffer ends at the fold of the operations over the launch contents -/

set_option maxRecDepth 8192 in
set_option maxHeartbeats 64800000 in
/-- On every device, for any float values, from any memory with zero counters: every weakly fair execution of the program
    terminates with every buffer at the operations' fold over the contents at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The six arguments are kept -/

/-- A reference of a list is, as a device buffer, in the list's set of device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 64800000 in
/-- Every operation writes its one result, and the results are the listed references. -/
theorem ops_writes : (ops : List (HloOp τ sig (Elt F))).Forall fun op => op.writes ⊆ (ops_W.map (Proc.devRef (τ := τ) .tc)).toFinset := by
  repeat (refine ⟨writes_sub_of_mem (by decide +kernel), ?_⟩)
  exact writes_sub_of_mem (by decide +kernel)

theorem ops_arg0 (V : Valuation τ sig (Elt F)) :
    after (ops (F := F)) V (Proc.devRef .tc main_arg0) = V (Proc.devRef .tc main_arg0) :=
  after_of_writes_sub ops V ops_writes (by decide)
theorem ops_arg1 (V : Valuation τ sig (Elt F)) :
    after (ops (F := F)) V (Proc.devRef .tc main_arg1) = V (Proc.devRef .tc main_arg1) :=
  after_of_writes_sub ops V ops_writes (by decide)
theorem ops_arg2 (V : Valuation τ sig (Elt F)) :
    after (ops (F := F)) V (Proc.devRef .tc main_arg2) = V (Proc.devRef .tc main_arg2) :=
  after_of_writes_sub ops V ops_writes (by decide)
theorem ops_arg3 (V : Valuation τ sig (Elt F)) :
    after (ops (F := F)) V (Proc.devRef .tc main_arg3) = V (Proc.devRef .tc main_arg3) :=
  after_of_writes_sub ops V ops_writes (by decide)
theorem ops_arg4 (V : Valuation τ sig (Elt F)) :
    after (ops (F := F)) V (Proc.devRef .tc main_arg4) = V (Proc.devRef .tc main_arg4) :=
  after_of_writes_sub ops V ops_writes (by decide)
theorem ops_arg5 (V : Valuation τ sig (Elt F)) :
    after (ops (F := F)) V (Proc.devRef .tc main_arg5) = V (Proc.devRef .tc main_arg5) :=
  after_of_writes_sub ops V ops_writes (by decide)

end Cert.ReferenceIdeal.Run2

end
-- ==== Proof.RefPieces.lean ====
/-
  The reference's result, cut into the pieces the comparison with the kernel program goes through: the sparse convolution x1 of
  the arguments, the edge-count matrix A of the edge list, Â = [A·A > 0] with ones scattered onto the diagonal, dinv of Â's column
  sums, the dense convolution x2 of Â, and the scaled concatenation. Each piece is the corresponding part of the reference run's
  term, word for word; the run's term is their composition.
-/
import proofs.«124652_j14353780703440_1_alg».proof.Proof.RefTerm

noncomputable section

namespace Cert.ReferenceIdeal.Pieces

open Cert.ReferenceIdeal Cert.ReferenceIdeal.Gen Idealize.ShloMosaic Idealize.ShloMosaic.TcCoe Idealize.SL.Sem Idealize.ShloMosaic.StableHlo

variable {F : FTy → Type} [FloatOps F]

/-- The sparse convolution x1 (with its bias), of x, the edge list, W1 and b1. -/
def X1R (a0 : (⟨S8192x512, .f32⟩ : BufTy).Contents (Elt F)) (a1 : (⟨S2x131072, .i32⟩ : BufTy).Contents (Elt F)) (a2 : (⟨S512x128, .f32⟩ : BufTy).Contents (Elt F)) (a3 : (⟨S128, .f32⟩ : BufTy).Contents (Elt F)) :
    (⟨S8192x128, .f32⟩ : BufTy).Contents (Elt F) :=
  (addf (addf (Host.scatterAdd scatter_S8192x128_S131072x1_S131072x128_1_0_0_1 (broadcastInDim S8192x128 ![] bcast_S_S8192x128 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (mulf (broadcastInDim S131072x128 ![0, 1] bcast_S131072x1_S131072x128_0_1 (broadcastInDim S131072x1 ![0] bcast_S131072_S131072x1_0 (mulf (Host.gather gather_S8192_S131072x1_S131072_n_0_n_n_0_1_1 (select (cmpf (F := F) .ogt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))) (broadcastInDim S8192 ![] bcast_S_S8192 (constant S_ .f32 0x00000000#32))) (Host.divf (broadcastInDim S8192 ![] bcast_S_S8192 (constant S_ .f32 0x3F800000#32)) (Host.sqrt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))))) (broadcastInDim S8192 ![] bcast_S_S8192 (id (constant S_ .f32 0x00000000#32)))) (broadcastInDim S131072x1 ![0] bcast_S131072_S131072x1_0 (select (cmpi .slt (shapeCast _ (extractStridedSlice S1x131072 ![0, 0] a1 slices_S2x131072_S1x131072_0_0) shapeCasts_S1x131072_S131072) (broadcastInDim S131072 ![] bcast_S_S131072 (constantI S_ 32 0#32))) (addi (shapeCast _ (extractStridedSlice S1x131072 ![0, 0] a1 slices_S2x131072_S1x131072_0_0) shapeCasts_S1x131072_S131072) (broadcastInDim S131072 ![] bcast_S_S131072 (constantI S_ 32 8192#32))) (shapeCast _ (extractStridedSlice S1x131072 ![0, 0] a1 slices_S2x131072_S1x131072_0_0) shapeCasts_S1x131072_S131072)))) (Host.gather gather_S8192_S131072x1_S131072_n_0_n_n_0_1_1 (select (cmpf (F := F) .ogt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))) (broadcastInDim S8192 ![] bcast_S_S8192 (constant S_ .f32 0x00000000#32))) (Host.divf (broadcastInDim S8192 ![] bcast_S_S8192 (constant S_ .f32 0x3F800000#32)) (Host.sqrt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))))) (broadcastInDim S8192 ![] bcast_S_S8192 (id (constant S_ .f32 0x00000000#32)))) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))))))) (Host.gather gather_S8192x128_S131072x1_S131072x128_1_0_n_n_0_1_1128 (Host.dotGeneral dot_S8192x512_S512x128_S8192x128_1_0_0_1_n_n none a0 a2) (broadcastInDim S131072x1 ![0] bcast_S131072_S131072x1_0 (select (cmpi .slt (shapeCast _ (extractStridedSlice S1x131072 ![0, 0] a1 slices_S2x131072_S1x131072_0_0) shapeCasts_S1x131072_S131072) (broadcastInDim S131072 ![] bcast_S_S131072 (constantI S_ 32 0#32))) (addi (shapeCast _ (extractStridedSlice S1x131072 ![0, 0] a1 slices_S2x131072_S1x131072_0_0) shapeCasts_S1x131072_S131072) (broadcastInDim S131072 ![] bcast_S_S131072 (constantI S_ 32 8192#32))) (shapeCast _ (extractStridedSlice S1x131072 ![0, 0] a1 slices_S2x131072_S1x131072_0_0) shapeCasts_S1x131072_S131072)))))) (mulf (broadcastInDim S8192x128 ![0, 1] bcast_S8192x1_S8192x128_0_1 (broadcastInDim S8192x1 ![0] bcast_S8192_S8192x1_0 (mulf (select (cmpf (F := F) .ogt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))) (broadcastInDim S8192 ![] bcast_S_S8192 (constant S_ .f32 0x00000000#32))) (Host.divf (broadcastInDim S8192 ![] bcast_S_S8192 (constant S_ .f32 0x3F800000#32)) (Host.sqrt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))))) (broadcastInDim S8192 ![] bcast_S_S8192 (id (constant S_ .f32 0x00000000#32)))) (select (cmpf (F := F) .ogt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))) (broadcastInDim S8192 ![] bcast_S_S8192 (constant S_ .f32 0x00000000#32))) (Host.divf (broadcastInDim S8192 ![] bcast_S_S8192 (constant S_ .f32 0x3F800000#32)) (Host.sqrt (addf (Host.scatterAdd scatter_S8192_S131072x1_S131072_n_0_0_1 (broadcastInDim S8192 ![] bcast_S_S8192 (constant S_ .f32 0x00000000#32)) (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072))) (broadcastInDim S131072 ![] bcast_S_S131072 (constant S_ .f32 0x3F800000#32))) (broadcastInDim S8192 ![] bcast_S_S8192 (constant S_ .f32 0x3F800000#32))))) (broadcastInDim S8192 ![] bcast_S_S8192 (id (constant S_ .f32 0x00000000#32))))))) (Host.dotGeneral dot_S8192x512_S512x128_S8192x128_1_0_0_1_n_n none a0 a2))) (broadcastInDim S8192x128 ![0, 1] bcast_S1x128_S8192x128_0_1 (broadcastInDim S1x128 ![1] bcast_S128_S1x128_1 a3)))

/-- The edge-count matrix A: ones scattered, with addition, at the pairs (source, target). -/
def AR (a1 : (⟨S2x131072, .i32⟩ : BufTy).Contents (Elt F)) : (⟨S8192x8192, .f32⟩ : BufTy).Contents (Elt F) :=
  (Host.scatterAdd scatter_S8192x8192_S131072x2_S131072_n_01_01_1 (broadcastInDim S8192x8192 ![] bcast_S_S8192x8192 (constant S_ .f32 0x00000000#32)) (concatenate S131072x2 1 [⟨S131072x1, (broadcastInDim S131072x1 ![0] bcast_S131072_S131072x1_0 (select (cmpi .slt (shapeCast _ (extractStridedSlice S1x131072 ![0, 0] a1 slices_S2x131072_S1x131072_0_0) shapeCasts_S1x131072_S131072) (broadcastInDim S131072 ![] bcast_S_S131072 (constantI S_ 32 0#32))) (addi (shapeCast _ (extractStridedSlice S1x131072 ![0, 0] a1 slices_S2x131072_S1x131072_0_0) shapeCasts_S1x131072_S131072) (broadcastInDim S131072 ![] bcast_S_S131072 (constantI S_ 32 8192#32))) (shapeCast _ (extractStridedSlice S1x131072 ![0, 0] a1 slices_S2x131072_S1x131072_0_0) shapeCasts_S1x131072_S131072)))⟩, ⟨S131072x1, (broadcastInDim S131072x1 ![0] bcast_S131072_S131072x1_0 (select (cmpi .slt (shapeCast _ (extractStridedSlice S1x131072 ![1, 0] a1 slices_S2x131072_S1x131072_1_0) shapeCasts_S1x131072_S131072) (broadcastInDim S131072 ![] bcast_S_S131072 (constantI S_ 32 0#32))) (addi (shapeCast _ (extractStridedSlice S1x131072 ![1, 0] a1 slices_S2x131072_S1x131072_1_0) shapeCasts_S1x131072_S131072) (broadcastInDim S131072 ![] bcast_S_S131072 (constantI S_ 32 8192#32))) (shapeCast _ (extractStridedSlice S1x131072 ![1, 0] a1 slices_S2x131072_S1x131072_1_0) shapeCasts_S1x131072_S131072)))⟩] concatenates_S131072x1_S131072x1_S131072x2_d1) (broadcastInDim S131072 ![] bcast_S_S131072 (constant S_ .f32 0x3F800000#32)))

/-- Â of A: one where A·A is positive, zero elsewhere, and ones scattered, with addition, at the pairs (i, i). -/
def AhatR (A : (⟨S8192x8192, .f32⟩ : BufTy).Contents (Elt F)) : (⟨S8192x8192, .f32⟩ : BufTy).Contents (Elt F) :=
  (Host.scatterAdd scatter_S8192x8192_S8192x2_S8192_n_01_01_1 (uitofp .f32 (cmpf (F := F) .ogt (Host.dotGeneral dot_S8192x8192_S8192x8192_S8192x8192_1_0_0_1_n_n none A A) (broadcastInDim S8192x8192 ![] bcast_S_S8192x8192 (constant S_ .f32 0x00000000#32)))) (concatenate S8192x2 1 [⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩, ⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩] concatenates_S8192x1_S8192x1_S8192x2_d1) (broadcastInDim S8192 ![] bcast_S_S8192 (constant S_ .f32 0x3F800000#32)))

/-- dinv of Â: the reciprocal square root of the column sum where that is positive, zero elsewhere. -/
def DinvR (Ahat : (⟨S8192x8192, .f32⟩ : BufTy).Contents (Elt F)) : (⟨S8192, .f32⟩ : BufTy).Contents (Elt F) :=
  (select (cmpf (F := F) .ogt (Host.reduceAdd Ahat (constant S_ .f32 0x00000000#32) reducesTo_S8192x8192_S8192_d0 h_S_) (broadcastInDim S8192 ![] bcast_S_S8192 (constant S_ .f32 0x00000000#32))) (Host.divf (broadcastInDim S8192 ![] bcast_S_S8192 (constant S_ .f32 0x3F800000#32)) (Host.sqrt (Host.reduceAdd Ahat (constant S_ .f32 0x00000000#32) reducesTo_S8192x8192_S8192_d0 h_S_))) (broadcastInDim S8192 ![] bcast_S_S8192 (id (constant S_ .f32 0x00000000#32))))

/-- The dense convolution x2 of Â, x, W2 and b2. -/
def X2R (Ahat : (⟨S8192x8192, .f32⟩ : BufTy).Contents (Elt F)) (a0 : (⟨S8192x512, .f32⟩ : BufTy).Contents (Elt F)) (a4 : (⟨S512x128, .f32⟩ : BufTy).Contents (Elt F)) (a5 : (⟨S128, .f32⟩ : BufTy).Contents (Elt F)) :
    (⟨S8192x128, .f32⟩ : BufTy).Contents (Elt F) :=
  (addf (mulf (broadcastInDim S8192x128 ![0, 1] bcast_S8192x1_S8192x128_0_1 (broadcastInDim S8192x1 ![0] bcast_S8192_S8192x1_0 (DinvR Ahat))) (Host.dotGeneral dot_S8192x8192_S8192x128_S8192x128_1_0_0_1_n_n none (transpose S8192x8192 [1, 0] Ahat transposes_S8192x8192_S8192x8192_1_0) (mulf (broadcastInDim S8192x128 ![0, 1] bcast_S8192x1_S8192x128_0_1 (broadcastInDim S8192x1 ![0] bcast_S8192_S8192x1_0 (DinvR Ahat))) (Host.dotGeneral dot_S8192x512_S512x128_S8192x128_1_0_0_1_n_n none a0 a4)))) (broadcastInDim S8192x128 ![0, 1] bcast_S1x128_S8192x128_0_1 (broadcastInDim S1x128 ![1] bcast_S128_S1x128_1 a5)))

/-- The result: 0.99 · x1 beside 0.01 · x2. -/
def ResR (x1 x2 : (⟨S8192x128, .f32⟩ : BufTy).Contents (Elt F)) : (⟨S8192x256, .f32⟩ : BufTy).Contents (Elt F) :=
  concatenate S8192x256 1 [⟨S8192x128, (mulf (broadcastInDim S8192x128 ![] bcast_S_S8192x128 (constant S_ .f32 0x3F7D70A4#32)) x1)⟩, ⟨S8192x128, (mulf (broadcastInDim S8192x128 ![] bcast_S_S8192x128 (constant S_ .f32 0x3C23D70A#32)) x2)⟩] concatenates_S8192x128_S8192x128_S8192x256_d1

set_option maxRecDepth 16384 in
/-- The reference run's term is the composition of the pieces. -/
theorem res_eq (m : (ℓ : Loc nD τ sig) → Buf (Elt F) ℓ) (c : Dev nD) :
    ValueP.res_main_v122 m c
      = ResR (X1R (m ((c.tc : Thread nD τ).loc main_arg0)) (m ((c.tc : Thread nD τ).loc main_arg1)) (m ((c.tc : Thread nD τ).loc main_arg2)) (m ((c.tc : Thread nD τ).loc main_arg3)))
          (X2R (AhatR (AR (m ((c.tc : Thread nD τ).loc main_arg1)))) (m ((c.tc : Thread nD τ).loc main_arg0)) (m ((c.tc : Thread nD τ).loc main_arg4)) (m ((c.tc : Thread nD τ).loc main_arg5))) := by
  unfold ValueP.res_main_v122 ResR X1R X2R DinvR AhatR AR
  rfl

end Cert.ReferenceIdeal.Pieces

end
-- ==== Proof.RefRes.lean ====
/- The reference's result, read back from its line of 162 host operations in three slices.

   The reference function is a straight line of host operations; what a buffer holds after the line
   is the fold of one function per operation over the contents it started from.  Read back whole, the
   result's term repeats its shared intermediate values many times over (the edge list's two rows
   alone occur 96 times), so the line is cut where few values cross:

   * the first 104 operations compute the sparse convolution x1 and the edge-count matrix A from the
     arguments;
   * the next 26 compute Â = [A·A > 0] with ones added on the diagonal, from A alone;
   * the last 32 compute dinv from Â's column sums, the dense convolution x2 from Â, x, W2 and b2,
     and the scaled concatenation of x1 and x2.

   Each slice is read back from ARBITRARY contents, as one of the named pieces of the reference's
   result applied to the few buffers the slice reads; the slices before it are then just some
   contents, and the three readings compose. -/
import proofs.«124652_j14353780703440_1_alg».proof.Proof.RefPieces
import Idealize.ShloMosaic.Lib.StableHlo.Run

noncomputable section

namespace Cert.ReferenceIdeal.Run2

open Cert.ReferenceIdeal Cert.ReferenceIdeal.Gen Idealize.ShloMosaic Idealize.ShloMosaic.TcCoe Idealize.SL.Sem Idealize.ShloMosaic.StableHlo

variable {F : FTy → Type} [FloatOps F]

/-! ## The line in three slices -/

/-- The buffers after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first 104 operations: the sparse convolution x1 and the edge-count matrix A. -/
abbrev ops1 : List (HloOp τ sig (Elt F)) := ValueP.ops.take 104
/-- The operations after them. -/
abbrev rest1 : List (HloOp τ sig (Elt F)) := ValueP.ops.drop 104
/-- The next 26: Â from A. -/
abbrev ops2 : List (HloOp τ sig (Elt F)) := (rest1 (F := F)).take 26
/-- The last 32: dinv, the dense convolution x2, the scaling and the concatenation. -/
abbrev ops3 : List (HloOp τ sig (Elt F)) := (rest1 (F := F)).drop 26

theorem ops_split : (ValueP.ops : List (HloOp τ sig (Elt F))) = ops1 ++ (ops2 ++ ops3) :=
  ((List.take_append_drop 104 _).symm.trans (congrArg (ValueP.ops.take 104 ++ ·) (List.take_append_drop 26 _).symm))

theorem after_ops (V : Valuation τ sig (Elt F)) :
    after ValueP.ops V = after ops3 (after ops2 (after ops1 V)) :=
  (congrArg (fun l => after l V) ops_split).trans (by rw [after_app, after_app])

/-- Evaluates a slice of the operation list to its literal list. -/
macro "slice_list" : tactic =>
  `(tactic| simp only [ops1, ops2, ops3, rest1, ValueP.ops, List.take_succ_cons, List.take_zero, List.drop_succ_cons, List.drop_zero])

/-! ## The three slices read back, each from arbitrary contents -/

set_option maxRecDepth 65536 in
set_option maxHeartbeats 4000000 in
/-- After the first slice the sparse convolution's buffer holds x1 of the four arguments. -/
theorem ops1_v62 (W : Valuation τ sig (Elt F)) :
    after ops1 W (Proc.devRef .tc main_v62)
      = Pieces.X1R (F := F) (W (Proc.devRef .tc main_arg0)) (W (Proc.devRef .tc main_arg1))
          (W (Proc.devRef .tc main_arg2)) (W (Proc.devRef .tc main_arg3)) := by
  slice_list
  after_results_simp
  unfold Pieces.X1R
  rfl

set_option maxRecDepth 65536 in
set_option maxHeartbeats 4000000 in
/-- … and the edge-count matrix's buffer holds A of the edge list. -/
theorem ops1_v78 (W : Valuation τ sig (Elt F)) :
    after ops1 W (Proc.devRef .tc main_v78) = Pieces.AR (F := F) (W (Proc.devRef .tc main_arg1)) := by
  slice_list
  after_results_simp
  unfold Pieces.AR
  rfl

/-- After the second slice Â's buffer holds Â of what the edge-count matrix's buffer held. -/
theorem ops2_v98 (W : Valuation τ sig (Elt F)) :
    after ops2 W (Proc.devRef .tc main_v98) = Pieces.AhatR (F := F) (W (Proc.devRef .tc main_v78)) := by
  slice_list
  after_results_simp
  unfold Pieces.AhatR
  rfl

/-- After the third slice the result's buffer holds the scaled concatenation of what x1's buffer
   held and x2 of what Â's buffer and the arguments held. -/
theorem ops3_v122 (W : Valuation τ sig (Elt F)) :
    after ops3 W (Proc.devRef .tc main_v122)
      = Pieces.ResR (F := F) (W (Proc.devRef .tc main_v62))
          (Pieces.X2R (W (Proc.devRef .tc main_v98)) (W (Proc.devRef .tc main_arg0))
            (W (Proc.devRef .tc main_arg4)) (W (Proc.devRef .tc main_arg5))) := by
  slice_list
  after_results_simp
  unfold Pieces.ResR Pieces.X2R Pieces.DinvR
  rfl

/-! ## What the slices leave alone -/

theorem ops1_arg0 (W : Valuation τ sig (Elt F)) :
    after ops1 W (Proc.devRef .tc main_arg0) = W (Proc.devRef .tc main_arg0) := by
  slice_list; after_results_simp <;> rfl
theorem ops1_arg4 (W : Valuation τ sig (Elt F)) :
    after ops1 W (Proc.devRef .tc main_arg4) = W (Proc.devRef .tc main_arg4) := by
  slice_list; after_results_simp <;> rfl
theorem ops1_arg5 (W : Valuation τ sig (Elt F)) :
    after ops1 W (Proc.devRef .tc main_arg5) = W (Proc.devRef .tc main_arg5) := by
  slice_list; after_results_simp <;> rfl
theorem ops2_v62 (W : Valuation τ sig (Elt F)) :
    after ops2 W (Proc.devRef .tc main_v62) = W (Proc.devRef .tc main_v62) := by
  slice_list; after_results_simp <;> rfl
theorem ops2_arg0 (W : Valuation τ sig (Elt F)) :
    after ops2 W (Proc.devRef .tc main_arg0) = W (Proc.devRef .tc main_arg0) := by
  slice_list; after_results_simp <;> rfl
theorem ops2_arg4 (W : Valuation τ sig (Elt F)) :
    after ops2 W (Proc.devRef .tc main_arg4) = W (Proc.devRef .tc main_arg4) := by
  slice_list; after_results_simp <;> rfl
theorem ops2_arg5 (W : Valuation τ sig (Elt F)) :
    after ops2 W (Proc.devRef .tc main_arg5) = W (Proc.devRef .tc main_arg5) := by
  slice_list; after_results_simp <;> rfl

/-! ## The result of the whole line -/

/-- From any contents `V`, the 162 operations leave in the result's buffer the reference's
   composition of the pieces, of the six arguments' contents in `V`. -/
theorem ops_v122 (V : Valuation τ sig (Elt F)) :
    after ValueP.ops V (Proc.devRef .tc main_v122)
      = Pieces.ResR (F := F)
          (Pieces.X1R (V (Proc.devRef .tc main_arg0)) (V (Proc.devRef .tc main_arg1))
            (V (Proc.devRef .tc main_arg2)) (V (Proc.devRef .tc main_arg3)))
          (Pieces.X2R (Pieces.AhatR (Pieces.AR (V (Proc.devRef .tc main_arg1))))
            (V (Proc.devRef .tc main_arg0)) (V (Proc.devRef .tc main_arg4)) (V (Proc.devRef .tc main_arg5))) := by
  rw [after_ops, ops3_v122, ops2_v62, ops2_v98, ops2_arg0, ops2_arg4, ops2_arg5,
    ops1_v62, ops1_v78, ops1_arg0, ops1_arg4, ops1_arg5]

end Cert.ReferenceIdeal.Run2
-- ==== Proof.RefRun2.lean ====
/- The reference's run: on every device, from any memory with zero counters, every weakly fair
   execution of the reference function terminates; the result's buffer then holds the composition
   of the named pieces (the sparse convolution x1, and the dense convolution x2 of Â of the
   edge-count matrix A, scaled and laid side by side) of the six arguments as launched, and the
   six arguments are as launched.  The termination and the fold over the operations are the
   straight-line run's; the result's term is the line read back in slices; no operation writes an
   argument. -/
import proofs.«124652_j14353780703440_1_alg».proof.Proof.RefRunBase
import proofs.«124652_j14353780703440_1_alg».proof.Proof.RefRes

noncomputable section

namespace Cert.ReferenceIdeal.Run2

open Cert.ReferenceIdeal Cert.ReferenceIdeal.Gen Idealize.ShloMosaic Idealize.ShloMosaic.TcCoe Idealize.SL.Sem Idealize.ShloMosaic.StableHlo

variable {F : FTy → Type} [FloatOps F]

/-- The run, stated over the pieces. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122)
        = Pieces.ResR (F := F)
            (Pieces.X1R (m ((c.tc : Thread nD τ).loc main_arg0)) (m ((c.tc : Thread nD τ).loc main_arg1))
              (m ((c.tc : Thread nD τ).loc main_arg2)) (m ((c.tc : Thread nD τ).loc main_arg3)))
            (Pieces.X2R (Pieces.AhatR (Pieces.AR (m ((c.tc : Thread nD τ).loc main_arg1))))
              (m ((c.tc : Thread nD τ).loc main_arg0)) (m ((c.tc : Thread nD τ).loc main_arg4))
              (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v122).trans (ops_v122 (launchContents m c)),
       (h c main_arg0).trans (ops_arg0 (launchContents m c)),
       (h c main_arg1).trans (ops_arg1 (launchContents m c)),
       (h c main_arg2).trans (ops_arg2 (launchContents m c)),
       (h c main_arg3).trans (ops_arg3 (launchContents m c)),
       (h c main_arg4).trans (ops_arg4 (launchContents m c)),
       (h c main_arg5).trans (ops_arg5 (launchContents m c))⟩)
    (run_fold m ρ)

end Cert.ReferenceIdeal.Run2

end
-- ==== Proof.RefFrame.lean ====
/-
  The reference program is a straight line of host operations: its run ends, faults nowhere and writes only
  buffers of its own, so the six argument arrays are found as they were given.
-/
import proofs.«124652_j14353780703440_1_alg».proof.Defs
import proofs.«124652_j14353780703440_1_alg».proof.Proof.RefRun2

noncomputable section

open Idealize.ShloMosaic Idealize.ShloMosaic.TcCoe Idealize.SL.Sem

namespace Cert.Proof.Claims

/-- Every weakly fair execution of the reference ends with its arguments unchanged: the run of its host
    operations, with what it says about the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Run2.run (F := Ideal) m ρ)

end Cert.Proof.Claims

end
-- ==== Proof.KBody0.lean ====
/-
  The body of the first kernel (the thresholded square of the edge-count matrix plus the identity, block by block) at
  a grid point, in its two control cases over the contraction coordinate k: at k = 0 the accumulator is zeroed and
  takes the first partial product; at k = 1 it takes the second partial product and the output block is written from
  it. Each case is a triple over whole memrefs; what the accumulator and the output block end holding is named by the
  payload functions of the kernel's skeleton. Generic in the float instance.
-/
import proofs.«124652_j14353780703440_1_alg».proof.Proof.Gen.Kernel.Skeleton
import proofs.«124652_j14353780703440_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The zero offsets of a rank-2 rectangle, as the constant function. -/
theorem zeros2 : (![0, 0] : Fin 2 → ℕ) = fun _ => 0 := by
  funext a; fin_cases a <;> rfl

/-- A load of the whole of a whole memref (the whole-shape rectangle at zero offsets) reads the contents. -/
theorem readAt_whole {S : Shape} {e : EltTy} (m : Memref sig .tc .vmem S e) (h : m.IsWhole)
    {off : Fin S.rank → ℕ} (hoff : off = fun _ => 0) (inb : ∀ a, off a + S.size a ≤ S.size a) (X : S.Idx → Elt F e) :
    m.view.readAt (Elt F) (Rect.unit off S.size inb).toLoadRect (h.unread X) = X := by
  rw [View.readAt_eq_ld, h.read_unread]; exact View.ld_unit_zero hoff inb X

/-- After a store through the whole-shape rectangle, LAST, the buffer reads as that store's payload, whatever was
    there before and whatever the earlier stores were. -/
theorem read_writes_whole {S : Shape} {e : EltTy} (v : View sig .tc .vmem S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩)]
  exact View.canon_cons_unit_zero hoff inb w L

/-! ## Kernel 0: the two control cases of the contraction axis -/

/-- The first conditional of kernel 0 is taken exactly at the first step of the contraction axis. -/
theorem k0_cond1_iff (i : grid0.Coords) :
    (Scalar.cmpi .ne (Scalar.extui (Scalar.cmpi .eq (BitVec.ofNat 32 (i 2).val) 0#32)) 0#32 = 1#1) ↔ (i 2).val = 0 := by
  have h : ∀ k : Fin 2, (Scalar.cmpi .ne (Scalar.extui (Scalar.cmpi .eq (BitVec.ofNat 32 k.val) 0#32)) 0#32 = 1#1) ↔ k.val = 0 := by decide
  exact h (i 2)

/-- The last conditional of kernel 0 is taken exactly at the last step of the contraction axis. -/
theorem k0_cond2_iff (i : grid0.Coords) : k0_cond2 i = 1#1 ↔ (i 2).val = 1 := by
  have h : ∀ k : Fin 2, (Scalar.cmpi .ne (Scalar.extui (Scalar.cmpi .eq (BitVec.ofNat 32 k.val) 1#32)) 0#32 = 1#1) ↔ k.val = 1 := by decide
  exact h (i 2)

/-- What the accumulator holds after the first step: zeros plus the first partial product. -/
def acc0_first (x3 : Vec F S512x4096 .bf16) (x4 : Vec F S4096x512 .bf16) : Vec F S512x512 .f32 :=
  Gen.k0_pay2 (Gen.k0_pay1 (F := F)) x3 x4
/-- What the accumulator holds after a later step: the carried contents plus that step's partial product. -/
def acc0_step (s : Vec F S512x512 .f32) (x3 : Vec F S512x4096 .bf16) (x4 : Vec F S4096x512 .bf16) : Vec F S512x512 .f32 :=
  Gen.k0_pay2 s x3 x4
/-- What the last step writes to the output block: the indicator of a positive accumulated count plus the diagonal. -/
def out0_last (i : grid0.Coords) (s : Vec F S512x512 .f32) (x3 : Vec F S512x4096 .bf16) (x4 : Vec F S4096x512 .bf16) : Vec F S512x512 .bf16 :=
  Gen.k0_pay3 i (Gen.k0_pay2 s x3 x4)

theorem acc0_first_eq (x3 : Vec F S512x4096 .bf16) (x4 : Vec F S4096x512 .bf16) :
    acc0_first x3 x4 = Gen.k0_pay2 (Gen.k0_pay1 (F := F)) x3 x4 := rfl
theorem acc0_step_eq (s : Vec F S512x512 .f32) (x3 : Vec F S512x4096 .bf16) (x4 : Vec F S4096x512 .bf16) :
    acc0_step s x3 x4 = Gen.k0_pay2 s x3 x4 := rfl
theorem out0_last_eq (i : grid0.Coords) (s : Vec F S512x512 .f32) (x3 : Vec F S512x4096 .bf16) (x4 : Vec F S4096x512 .bf16) :
    out0_last i s x3 x4 = Gen.k0_pay3 i (Gen.k0_pay2 s x3 x4) := rfl

set_option maxHeartbeats 1000000 in
/-- The body at the first step of the contraction axis (k = 0): the accumulator, found at anything, is zeroed and
    then holds zeros plus the first partial product; the inputs and the output block are left as found. -/
theorem k0_first (c : Dev nD) (E : Set ℕ) (i : grid0.Coords) (hk : (i 2).val = 0)
    (arg3 : Memref sig .tc .vmem S512x4096 .bf16) (harg3 : arg3.IsWhole)
    (arg4 : Memref sig .tc .vmem S4096x512 .bf16) (harg4 : arg4.IsWhole)
    (arg5 : Memref sig .tc .vmem S512x512 .bf16) (harg5 : arg5.IsWhole)
    (arg6 : Memref sig .tc .vmem S512x512 .f32) (harg6 : arg6.IsWhole)
    (x3 : Vec F S512x4096 .bf16) (x4 : Vec F S4096x512 .bf16) (d5 : Vec F S512x512 .bf16) (K : PUnit → sProp 𝕄) :
    iprop(owns (c : Thread nD τ) arg3 fullShare x3 ∗ owns (c : Thread nD τ) arg4 fullShare x4 ∗ owns (c : Thread nD τ) arg5 fullShare d5
        ∗ (∃ d, owns (c : Thread nD τ) arg6 fullShare d)
        ∗ (iprop(owns (c : Thread nD τ) arg3 fullShare x3 ∗ owns (c : Thread nD τ) arg4 fullShare x4 ∗ owns (c : Thread nD τ) arg5 fullShare d5
                 ∗ owns (c : Thread nD τ) arg6 fullShare (acc0_first x3 x4)) -∗ K ⟨⟩))
      ⊢ wp frame (wpE (defs₀ (F := F)) Variants.none c none) E (cc0__a2hat_kernel i arg3 harg3 arg4 harg4 arg5 harg5 arg6 harg6) K := by
  have hc0 : (Scalar.cmpi .ne (Scalar.extui (Scalar.cmpi .eq (BitVec.ofNat 32 (i 2).val) 0#32)) 0#32 = 1#1) := (k0_cond1_iff i).mpr hk
  have hc1 : ¬ (k0_cond2 i = 1#1) := fun h => by have := (k0_cond2_iff i).mp h; omega
  simp only [cc0__a2hat_kernel_eq_skeleton]; unfold cc0__a2hat_kernel_skel
  unfold owns acc0_first
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_run_names
  refine (read_writes_whole _ _ zeros2 _ _ _).trans ?_
  rw [View.readCov_cons_toLoadRect, readAt_whole arg3 harg3 zeros2, readAt_whole arg4 harg4 zeros2]

set_option maxHeartbeats 1000000 in
/-- The body at the last step of the contraction axis (k = 1): the accumulator, carried at `s`, takes the last partial
    product, and the output block, found at anything, is written from the new accumulator; the inputs are left as found. -/
theorem k0_last (c : Dev nD) (E : Set ℕ) (i : grid0.Coords) (hk : (i 2).val = 1)
    (arg3 : Memref sig .tc .vmem S512x4096 .bf16) (harg3 : arg3.IsWhole)
    (arg4 : Memref sig .tc .vmem S4096x512 .bf16) (harg4 : arg4.IsWhole)
    (arg5 : Memref sig .tc .vmem S512x512 .bf16) (harg5 : arg5.IsWhole)
    (arg6 : Memref sig .tc .vmem S512x512 .f32) (harg6 : arg6.IsWhole)
    (x3 : Vec F S512x4096 .bf16) (x4 : Vec F S4096x512 .bf16) (s : Vec F S512x512 .f32) (K : PUnit → sProp 𝕄) :
    iprop(owns (c : Thread nD τ) arg3 fullShare x3 ∗ owns (c : Thread nD τ) arg4 fullShare x4 ∗ (∃ d, owns (c : Thread nD τ) arg5 fullShare d)
        ∗ owns (c : Thread nD τ) arg6 fullShare s
        ∗ (iprop(owns (c : Thread nD τ) arg3 fullShare x3 ∗ owns (c : Thread nD τ) arg4 fullShare x4
                 ∗ owns (c : Thread nD τ) arg5 fullShare (out0_last i s x3 x4)
                 ∗ owns (c : Thread nD τ) arg6 fullShare (acc0_step s x3 x4)) -∗ K ⟨⟩))
      ⊢ wp frame (wpE (defs₀ (F := F)) Variants.none c none) E (cc0__a2hat_kernel i arg3 harg3 arg4 harg4 arg5 harg5 arg6 harg6) K := by
  have hc0 : ¬ (Scalar.cmpi .ne (Scalar.extui (Scalar.cmpi .eq (BitVec.ofNat 32 (i 2).val) 0#32)) 0#32 = 1#1) :=
    fun h => by have := (k0_cond1_iff i).mp h; omega
  have hc1 : k0_cond2 i = 1#1 := (k0_cond2_iff i).mpr hk
  simp only [cc0__a2hat_kernel_eq_skeleton]; unfold cc0__a2hat_kernel_skel
  unfold owns out0_last acc0_step
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ zeros2 _ _ _).trans ?_
    rw [View.readCov_cons_toLoadRect, readAt_whole arg6 harg6 zeros2, readAt_whole arg3 harg3 zeros2, readAt_whole arg4 harg4 zeros2]
  iexists _; isplitr
  swap; · iexact H6
  ipureintro
  sl_unfold_run_names
  refine (read_writes_whole _ _ zeros2 _ _ _).trans ?_
  rw [readAt_whole arg6 harg6 zeros2, readAt_whole arg3 harg3 zeros2, readAt_whole arg4 harg4 zeros2]

end Cert.Kernel.Body

end
-- ==== Proof.KDat0.lean ====
/-
  The first grid (16 × 16 × 2 points): the block (i, j) of Â. What the accumulator holds after each point, what the output block
  holds after the second point of a pair, the invariant that carries the accumulator from a point to the next, and the body's
  obligation at every point from the two control cases of the body (the first point of a pair resets and accumulates, the second
  accumulates, compares with zero and adds the diagonal).
-/
import proofs.«124652_j14353780703440_1_alg».proof.Proof.Gen.Kernel.Launch
import proofs.«124652_j14353780703440_1_alg».proof.Proof.Gen.Kernel.Skeleton
import proofs.«124652_j14353780703440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124652_j14353780703440_1_alg».proof.Proof.KBody0

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t` of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The point before `t` (itself at the first point). -/
def prev0 (t : Fin cfg0.N) : Fin cfg0.N := ⟨t.val - 1, lt_of_le_of_lt (Nat.sub_le _ _) t.isLt⟩

/-- What the accumulator holds after point `t`: at an even point (the first of a pair) zero plus the point's product of blocks,
    at an odd point that of the point before plus the point's own. -/
def acc0 (c : Dev nD) (t : Fin cfg0.N) : Vec F S512x512 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

/-- What the output block holds after an odd point: the comparison of the accumulator with zero plus the diagonal of the block's position. -/
def out0 (c : Dev nD) (t : Fin cfg0.N) : Vec F S512x512 .bf16 := k0_pay3 (grid0.coords t) (acc0 V c t)

end Region0

section Region0b

variable (V : (c : Dev nD) → (b : Ref sig .tc) → Buf (Elt F) ((c : Thread nD τ).loc b))

/-! ## The body's two control cases over the grid -/

/-- The third coordinate of a point of the first grid is its parity. -/
theorem k_of0 : ∀ t : Fin cfg0.N, ((grid0.coords t) 2).val = t.val % 2 :=
  (by decide +kernel : ∀ t : Fin grid0.N, ((grid0.coords t) 2).val = t.val % 2)
/-- The output window is idle, and not written back, at the even points; live at the odd ones. -/
theorem idle0_2_even : ∀ t : Fin cfg0.N, t.val % 2 = 0 → cfg0.idle 2 (grid0.coords t) = true :=
  (by decide +kernel : ∀ t : Fin grid0.N, t.val % 2 = 0 → cfg0.idle 2 (grid0.coords t) = true)
theorem noFlush0_2_even : ∀ t : Fin cfg0.N, t.val % 2 = 0 → (cfg0.win 2).flush t = false :=
  (by decide +kernel : ∀ t : Fin grid0.N, t.val % 2 = 0 → win0_2.flush t = false)
theorem live0_2_odd : ∀ t : Fin cfg0.N, ¬ t.val % 2 = 0 → cfg0.idle 2 (grid0.coords t) = false :=
  (by decide +kernel : ∀ t : Fin grid0.N, ¬ t.val % 2 = 0 → cfg0.idle 2 (grid0.coords t) = false)
theorem live0_0 : ∀ t : Fin cfg0.N, cfg0.idle 0 (grid0.coords t) = false := by decide +kernel
theorem live0_1 : ∀ t : Fin cfg0.N, cfg0.idle 1 (grid0.coords t) = false := by decide +kernel

/-! ## The invariant: the accumulator's contents carried from point to point -/

/-- The accumulator, a whole scoped buffer of the kernel's own. -/
abbrev scM0 : Memref sig .tc .vmem S512x512 .f32 := Memref.whole cc0_scratch0

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers the first grid never touches: the second grid's staging buffers and accumulator. -/
abbrev rest0 (c : Dev nD) : sProp 𝕄 :=
  iprop(anyBuf (F := F) c cc1_stg0_0 ∗ anyBuf (F := F) c cc1_stg0_1 ∗ anyBuf (F := F) c cc1_stg1_0 ∗ anyBuf (F := F) c cc1_stg1_1 ∗ anyBuf (F := F) c cc1_stg2_0
    ∗ anyBuf (F := F) c cc1_stg2_1 ∗ anyBuf (F := F) c cc1_stg3_0 ∗ anyBuf (F := F) c cc1_stg4_0 ∗ anyBuf (F := F) c cc1_stg4_1 ∗ anyBuf (F := F) c cc1_scratch0)

theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; simp only [scM0, owns_whole]; try rfl

/-- The invariant before position `n`: before the first point every scoped buffer at anything; afterwards the accumulator at what
    the point before left in it. -/
def Phi0 (c : Dev nD) : (n : ℕ) → n ≤ cfg0.N → sProp 𝕄
  | 0, _ => Pipeline.ΦA spec0 c
  | n + 1, hn => iprop(iprop(owns (c : Thread nD τ) scM0 fullShare (acc0 V c ⟨n, hn⟩) ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c ⟨n, hn⟩) ∗ rest0 (F := F) c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c ⟨n - 1, by omega⟩) ∗ rest0 (F := F) c) ∗ (∃ r, prngReg c r)) := by
  cases n with
  | zero => exact absurd rfl hz
  | succ n => rfl

/-! ## The proof data -/

/-- The first grid's proof data on core `c`: the arrays as the region finds them; each input's buffer left at its block, the
    output's at `out0`; the invariant `Phi0`; the array A read through two windows, half a share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem acc0_even (c : Dev nD) (t : Fin cfg0.N) (h : t.val % 2 = 0) :
    acc0 V c t = k0_pay2 (k0_pay1 (F := F)) (iblk0 V c 0 t) (iblk0 V c 1 t) := by
  unfold acc0; rw [if_pos h]
theorem acc0_odd (c : Dev nD) (t : Fin cfg0.N) (h : ¬ t.val % 2 = 0) :
    acc0 V c t = k0_pay2 (acc0 V c (prev0 t)) (iblk0 V c 0 t) (iblk0 V c 1 t) := by
  have hp : (prev0 t).val % 2 = 0 := by show (t.val - 1) % 2 = 0; omega
  rw [acc0_even V c (prev0 t) hp]; unfold acc0; rw [if_neg h]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h0 : t.val % 2 = 0
  · rw [Dat.leavesExact_idle (dat0 V c) 2 t (idle0_2_even t h0) (noFlush0_2_even t h0)]
    rw [acc0_even V c t h0]
    have hk : ((grid0.coords t) 2).val = 0 := (k_of0 t).trans h0
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (Body.k0_first c Set.univ (grid0.coords t) hk _ _ _ _ _ _ _ _ (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HR⟩, Hg⟩, Ho, ⟨%d0, H0⟩, ⟨%d1, H1⟩, ⟨%d2, H2⟩⟩
      iapply (Body.k0_first c Set.univ (grid0.coords t) hk _ _ _ _ _ _ _ _ (iblk0 V c 0 t) (iblk0 V c 1 t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · rw [show (dat0 V c).leavesExact 2 t = owns (c : Thread nD τ) (st0_2 t) fullShare ((dat0 V c).after 2 t) from by
      unfold Dat.leavesExact; rw [live0_2_odd t h0], after0_2]
    unfold out0
    rw [acc0_odd V c t h0]
    have hk : ((grid0.coords t) 2).val = 1 := (k_of0 t).trans (by omega)
    have hz : t.val ≠ 0 := fun h => h0 (by rw [h])
    rw [Phi0_castSucc V c t, Phi0_pos V c _ _ hz]
    iintro ⟨⟨⟨HS, HR⟩, Hg⟩, Ho, ⟨%d0, H0⟩, ⟨%d1, H1⟩, ⟨%d2, H2⟩⟩
    iapply (Body.k0_last c Set.univ (grid0.coords t) hk _ _ _ _ _ _ _ _ (iblk0 V c 0 t) (iblk0 V c 1 t) (acc0 V c (prev0 t)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

theorem hout0 (c : Dev nD) : (dat0 V c).Φ (Fin.last cfg0.N) ⊢ Pipeline.ΦA spec0 c := by
  have hN : cfg0.N = 512 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨⟨HS, HR⟩, Hg⟩
  isplitl [HS HR]
  · isplitl [HS]; · iexists _; iexact HS
    iexact HR
  iexact Hg

end Region0b

end Cert.Kernel.Run

end
-- ==== Proof.KBody1.lean ====
/-
  The body of the second kernel (the normalised aggregation over the thresholded adjacency, a row block at a time) at
  a grid point, in its two control cases over the reduction coordinate p: at p = 0 the accumulator is zeroed and takes
  the first half's partial aggregation; at p = 1 it takes the second half's and the output block is written as the
  normalising column times the accumulated sum plus the bias row. Each case is a triple over whole memrefs; what the
  accumulator and the output block end holding is named by the payload functions of the kernel's skeleton. Generic in
  the float instance.
-/
import proofs.«124652_j14353780703440_1_alg».proof.Proof.Gen.Kernel.Skeleton
import proofs.«124652_j14353780703440_1_alg».proof.Proof.Gen.Kernel.Points
import proofs.«124652_j14353780703440_1_alg».proof.Proof.KBody0
import Idealize.ShloMosaic.Lib.Pipeline.FrameBody
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## Kernel 1: the two control cases of the reduction axis -/

/-- The first conditional of kernel 1 is taken exactly at the first half of the reduction axis. -/
theorem k1_cond1_iff (i : grid1.Coords) :
    (Scalar.cmpi .ne (Scalar.extui (Scalar.cmpi .eq (BitVec.ofNat 32 (i 1).val) 0#32)) 0#32 = 1#1) ↔ (i 1).val = 0 := by
  have h : ∀ k : Fin 2, (Scalar.cmpi .ne (Scalar.extui (Scalar.cmpi .eq (BitVec.ofNat 32 k.val) 0#32)) 0#32 = 1#1) ↔ k.val = 0 := by decide
  exact h (i 1)

/-- The last conditional of kernel 1 is taken exactly at the last half of the reduction axis. -/
theorem k1_cond2_iff (i : grid1.Coords) : k1_cond2 i = 1#1 ↔ (i 1).val = 1 := by
  have h : ∀ k : Fin 2, (Scalar.cmpi .ne (Scalar.extui (Scalar.cmpi .eq (BitVec.ofNat 32 k.val) 1#32)) 0#32 = 1#1) ↔ k.val = 1 := by decide
  exact h (i 1)

/-- What the accumulator holds after the first half: zeros plus the first partial aggregation. -/
def acc1_first (x2 : Vec F S4096x1024 .bf16) (x3 : Vec F S4096x128 .bf16) : Vec F S1024x128 .f32 :=
  Gen.k1_pay2 (Gen.k1_pay1 (F := F)) x2 x3
/-- What the accumulator holds after a later half: the carried contents plus that half's partial aggregation. -/
def acc1_step (s : Vec F S1024x128 .f32) (x2 : Vec F S4096x1024 .bf16) (x3 : Vec F S4096x128 .bf16) : Vec F S1024x128 .f32 :=
  Gen.k1_pay2 s x2 x3
/-- What the last half writes to the output block: the normalising column times the accumulated sum, plus the bias row. -/
def out1_last (s : Vec F S1024x128 .f32) (x2 : Vec F S4096x1024 .bf16) (x3 : Vec F S4096x128 .bf16)
    (x4 : Vec F S1024x1 .f32) (x5 : Vec F S1x128 .f32) : Vec F S1024x128 .f32 :=
  Gen.k1_pay3 x4 (Gen.k1_pay2 s x2 x3) x5

theorem acc1_first_eq (x2 : Vec F S4096x1024 .bf16) (x3 : Vec F S4096x128 .bf16) :
    acc1_first x2 x3 = Gen.k1_pay2 (Gen.k1_pay1 (F := F)) x2 x3 := rfl
theorem acc1_step_eq (s : Vec F S1024x128 .f32) (x2 : Vec F S4096x1024 .bf16) (x3 : Vec F S4096x128 .bf16) :
    acc1_step s x2 x3 = Gen.k1_pay2 s x2 x3 := rfl
theorem out1_last_eq (s : Vec F S1024x128 .f32) (x2 : Vec F S4096x1024 .bf16) (x3 : Vec F S4096x128 .bf16)
    (x4 : Vec F S1024x1 .f32) (x5 : Vec F S1x128 .f32) :
    out1_last s x2 x3 x4 x5 = Gen.k1_pay3 x4 (Gen.k1_pay2 s x2 x3) x5 := rfl

set_option maxHeartbeats 1000000 in
/-- The body at the first half of the reduction axis (p = 0): the accumulator, found at anything, is zeroed and then
    holds zeros plus the first partial aggregation; the inputs and the output block are left as found. -/
theorem k1_first (c : Dev nD) (E : Set ℕ) (i : grid1.Coords) (hp : (i 1).val = 0)
    (arg2 : Memref sig .tc .vmem S4096x1024 .bf16) (harg2 : arg2.IsWhole)
    (arg3 : Memref sig .tc .vmem S4096x128 .bf16) (harg3 : arg3.IsWhole)
    (arg4 : Memref sig .tc .vmem S1024x1 .f32) (harg4 : arg4.IsWhole)
    (arg5 : Memref sig .tc .vmem S1x128 .f32) (harg5 : arg5.IsWhole)
    (arg6 : Memref sig .tc .vmem S1024x128 .f32) (harg6 : arg6.IsWhole)
    (arg7 : Memref sig .tc .vmem S1024x128 .f32) (harg7 : arg7.IsWhole)
    (x2 : Vec F S4096x1024 .bf16) (x3 : Vec F S4096x128 .bf16) (x4 : Vec F S1024x1 .f32) (x5 : Vec F S1x128 .f32)
    (d6 : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare d6
        ∗ (∃ d, owns (c : Thread nD τ) arg7 fullShare d)
        ∗ (iprop(owns (c : Thread nD τ) arg2 fullShare x2 ∗ owns (c : Thread nD τ) arg3 fullShare x3 ∗ owns (c : Thread nD τ) arg4 fullShare x4
                 ∗ owns (c : Thread nD τ) arg5 fullShare x5 ∗ owns (c : Thread nD τ) arg6 fullShare d6
                 ∗ owns (c : Thread nD τ) arg7 fullShare (acc1_first x2 x3)) -∗ K ⟨⟩))
      ⊢ wp frame (wpE (defs₀ (F := F)) Variants.none c none) E
          (cc1__agg_kernel i arg2 harg2 arg3 harg3 arg4 harg4 arg5 harg5 arg6 harg6 arg7 harg7) K := by
  have hc0 : (Scalar.cmpi .ne (Scalar.extui (Scalar.cmpi .eq (BitVec.ofNat 32 (i 1).val) 0#32)) 0#32 = 1#1) := (k1_cond1_iff i).mpr hp
  have hc1 : ¬ (k1_cond2 i = 1#1) := fun h => by have := (k1_cond2_iff i).mp h; omega
  simp only [cc1__agg_kernel_eq_skeleton]; unfold cc1__agg_kernel_skel
  unfold owns acc1_first
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  refine (read_writes_whole _ _ zeros2 _ _ _).trans ?_
  rw [View.readCov_cons_toLoadRect, readAt_whole arg2 harg2 zeros2, readAt_whole arg3 harg3 zeros2]

set_option maxHeartbeats 1000000 in
/-- The body at the last half of the reduction axis (p = 1): the accumulator, carried at `s`, takes the last partial
    aggregation, and the output block, found at anything, is written from the new accumulator, the normalising column
    and the bias row; the inputs are left as found. -/
theorem k1_last (c : Dev nD) (E : Set ℕ) (i : grid1.Coords) (hp : (i 1).val = 1)
    (arg2 : Memref sig .tc .vmem S4096x1024 .bf16) (harg2 : arg2.IsWhole)
    (arg3 : Memref sig .tc .vmem S4096x128 .bf16) (harg3 : arg3.IsWhole)
    (arg4 : Memref sig .tc .vmem S1024x1 .f32) (harg4 : arg4.IsWhole)
    (arg5 : Memref sig .tc .vmem S1x128 .f32) (harg5 : arg5.IsWhole)
    (arg6 : Memref sig .tc .vmem S1024x128 .f32) (harg6 : arg6.IsWhole)
    (arg7 : Memref sig .tc .vmem S1024x128 .f32) (harg7 : arg7.IsWhole)
    (x2 : Vec F S4096x1024 .bf16) (x3 : Vec F S4096x128 .bf16) (x4 : Vec F S1024x1 .f32) (x5 : Vec F S1x128 .f32)
    (s : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ owns (c : Thread nD τ) arg7 fullShare s
        ∗ (iprop(owns (c : Thread nD τ) arg2 fullShare x2 ∗ owns (c : Thread nD τ) arg3 fullShare x3 ∗ owns (c : Thread nD τ) arg4 fullShare x4
                 ∗ owns (c : Thread nD τ) arg5 fullShare x5 ∗ owns (c : Thread nD τ) arg6 fullShare (out1_last s x2 x3 x4 x5)
                 ∗ owns (c : Thread nD τ) arg7 fullShare (acc1_step s x2 x3)) -∗ K ⟨⟩))
      ⊢ wp frame (wpE (defs₀ (F := F)) Variants.none c none) E
          (cc1__agg_kernel i arg2 harg2 arg3 harg3 arg4 harg4 arg5 harg5 arg6 harg6 arg7 harg7) K := by
  have hc0 : ¬ (Scalar.cmpi .ne (Scalar.extui (Scalar.cmpi .eq (BitVec.ofNat 32 (i 1).val) 0#32)) 0#32 = 1#1) :=
    fun h => by have := (k1_cond1_iff i).mp h; omega
  have hc1 : k1_cond2 i = 1#1 := (k1_cond2_iff i).mpr hp
  simp only [cc1__agg_kernel_eq_skeleton]; unfold cc1__agg_kernel_skel
  unfold owns out1_last acc1_step
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    refine (read_writes_whole _ _ zeros2 _ _ _).trans ?_
    rw [View.readCov_cons_toLoadRect, readAt_whole arg7 harg7 zeros2, readAt_whole arg2 harg2 zeros2, readAt_whole arg3 harg3 zeros2,
      readAt_whole arg4 harg4 zeros2, readAt_whole arg5 harg5 zeros2]
  iexists _; isplitr
  swap; · iexact H7
  ipureintro
  sl_unfold_run_names
  refine (read_writes_whole _ _ zeros2 _ _ _).trans ?_
  rw [readAt_whole arg7 harg7 zeros2, readAt_whole arg2 harg2 zeros2, readAt_whole arg3 harg3 zeros2]

end Cert.Kernel.Body

end
-- ==== Proof.KDat1.lean ====
/-
  The second grid (8 × 2 points): the block q of x2. What the accumulator holds after each point (the contraction of Â's block
  with v's block along Â's first axis, the second point of a pair on top of the first), what the output block holds after the
  second point of a pair (the accumulator scaled by the block's column of dinv, plus the bias row), the invariant that carries
  the accumulator, and the body's obligation at every point from the body's two control cases.
-/
import proofs.«124652_j14353780703440_1_alg».proof.Proof.Gen.Kernel.Launch
import proofs.«124652_j14353780703440_1_alg».proof.Proof.Gen.Kernel.Skeleton
import proofs.«124652_j14353780703440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124652_j14353780703440_1_alg».proof.Proof.KBody1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t` of the second grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The point before `t` (itself at the first point). -/
def prev1 (t : Fin cfg1.N) : Fin cfg1.N := ⟨t.val - 1, lt_of_le_of_lt (Nat.sub_le _ _) t.isLt⟩

/-- What the accumulator holds after point `t`: at an even point zero plus the point's contraction of blocks, at an odd point that of
    the point before plus the point's own. -/
def acc1 (c : Dev nD) (t : Fin cfg1.N) : Vec F S1024x128 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-- What the output block holds after an odd point: the accumulator scaled row by row and shifted by the bias row. -/
def out1 (c : Dev nD) (t : Fin cfg1.N) : Vec F S1024x128 .f32 := k1_pay3 (iblk1 V c 2 t) (acc1 V c t) (iblk1 V c 3 t)

theorem p_of1 : ∀ t : Fin cfg1.N, ((grid1.coords t) 1).val = t.val % 2 :=
  (by decide +kernel : ∀ t : Fin grid1.N, ((grid1.coords t) 1).val = t.val % 2)
theorem idle1_4_even : ∀ t : Fin cfg1.N, t.val % 2 = 0 → cfg1.idle 4 (grid1.coords t) = true :=
  (by decide +kernel : ∀ t : Fin grid1.N, t.val % 2 = 0 → cfg1.idle 4 (grid1.coords t) = true)
theorem noFlush1_4_even : ∀ t : Fin cfg1.N, t.val % 2 = 0 → (cfg1.win 4).flush t = false :=
  (by decide +kernel : ∀ t : Fin grid1.N, t.val % 2 = 0 → win1_4.flush t = false)
theorem live1_4_odd : ∀ t : Fin cfg1.N, ¬ t.val % 2 = 0 → cfg1.idle 4 (grid1.coords t) = false :=
  (by decide +kernel : ∀ t : Fin grid1.N, ¬ t.val % 2 = 0 → cfg1.idle 4 (grid1.coords t) = false)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

abbrev scM1 : Memref sig .tc .vmem S1024x128 .f32 := Memref.whole cc1_scratch0

abbrev anyBuf1 (c : Dev nD) (b : Ref sig .tc) : sProp 𝕄 :=
  iprop(∃ f : Buf (Elt F) ((c : Thread nD τ).loc b), ((c : Thread nD τ).loc b) ↦{fullShare} f)

/-- The scoped buffers the second grid never touches (the first grid's staging buffers and accumulator), then `X`. -/
abbrev with1 (c : Dev nD) (X : sProp 𝕄) : sProp 𝕄 :=
  iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0
    ∗ anyBuf1 (F := F) c cc0_stg2_1 ∗ anyBuf1 (F := F) c cc0_scratch0 ∗ X)

theorem PhiA1_eq (c : Dev nD) :
    (Pipeline.ΦA spec1 c : sProp 𝕄)
      = iprop(with1 (F := F) c iprop(∃ d, owns (c : Thread nD τ) scM1 fullShare d) ∗ (∃ r, prngReg c r)) := by
  unfold Pipeline.ΦA; rw [scopedRest1_eq]; simp only [scM1, owns_whole]; try rfl

def Phi1 (c : Dev nD) : (n : ℕ) → n ≤ cfg1.N → sProp 𝕄
  | 0, _ => Pipeline.ΦA spec1 c
  | n + 1, hn => iprop(with1 (F := F) c (owns (c : Thread nD τ) scM1 fullShare (acc1 V c ⟨n, hn⟩)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(with1 (F := F) c (owns (c : Thread nD τ) scM1 fullShare (acc1 V c ⟨n, hn⟩)) ∗ (∃ r, prngReg c r)) := rfl
theorem Phi1_pos (c : Dev nD) (n : ℕ) (h : n ≤ cfg1.N) (hz : n ≠ 0) :
    Phi1 V c n h = iprop(with1 (F := F) c (owns (c : Thread nD τ) scM1 fullShare (acc1 V c ⟨n - 1, by omega⟩)) ∗ (∃ r, prngReg c r)) := by
  cases n with
  | zero => exact absurd rfl hz
  | succ n => rfl

/-- The second grid's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem acc1_even (c : Dev nD) (t : Fin cfg1.N) (h : t.val % 2 = 0) :
    acc1 V c t = k1_pay2 (k1_pay1 (F := F)) (iblk1 V c 0 t) (iblk1 V c 1 t) := by
  unfold acc1; rw [if_pos h]
theorem acc1_odd (c : Dev nD) (t : Fin cfg1.N) (h : ¬ t.val % 2 = 0) :
    acc1 V c t = k1_pay2 (acc1 V c (prev1 t)) (iblk1 V c 0 t) (iblk1 V c 1 t) := by
  have hp : (prev1 t).val % 2 = 0 := by show (t.val - 1) % 2 = 0; omega
  rw [acc1_even V c (prev1 t) hp]; unfold acc1; rw [if_neg h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  by_cases h0 : t.val % 2 = 0
  · rw [Dat.leavesExact_idle (dat1 V c) 4 t (idle1_4_even t h0) (noFlush1_4_even t h0)]
    rw [acc1_even V c t h0]
    have hp : ((grid1.coords t) 1).val = 0 := (p_of1 t).trans h0
    by_cases hz : t.val = 0
    · rw [Phi1_castSucc V c t, Phi1_zero V c _ _ hz, PhiA1_eq]
      iintro ⟨⟨⟨R1, R2, R3, R4, R5, R6, R7, HS⟩, Hg⟩, Ho, ⟨%d0, H0⟩, ⟨%d1, H1⟩, ⟨%d2, H2⟩, ⟨%d3, H3⟩, ⟨%d4, H4⟩⟩
      iapply (Body.k1_first c Set.univ (grid1.coords t) hp _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩⟩
      iapply (Body.k1_first c Set.univ (grid1.coords t) hp _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (st1_4 t) fullShare ((dat1 V c).after 4 t) from by
      unfold Dat.leavesExact; rw [live1_4_odd t h0], after1_4]
    unfold out1
    rw [acc1_odd V c t h0]
    have hp : ((grid1.coords t) 1).val = 1 := (p_of1 t).trans (by omega)
    have hz : t.val ≠ 0 := fun h => h0 (by rw [h])
    rw [Phi1_castSucc V c t, Phi1_pos V c _ _ hz]
    iintro ⟨⟨⟨R1, R2, R3, R4, R5, R6, R7, HS⟩, Hg⟩, Ho, ⟨%d0, H0⟩, ⟨%d1, H1⟩, ⟨%d2, H2⟩, ⟨%d3, H3⟩, ⟨%d4, H4⟩⟩
    iapply (Body.k1_last c Set.univ (grid1.coords t) hp _ _ _ _ _ _ _ _ _ _ _ _ (iblk1 V c 0 t) (iblk1 V c 1 t) (iblk1 V c 2 t) (iblk1 V c 3 t) (acc1 V c (prev1 t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [R1 R2 R3 R4 R5 R6 R7 HS Hg]
    · isplitl [R1 R2 R3 R4 R5 R6 R7 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ Pipeline.ΦA spec1 c := by
  have hN : cfg1.N = 16 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  iintro ⟨⟨R1, R2, R3, R4, R5, R6, R7, HS⟩, Hg⟩
  isplitl [R1 R2 R3 R4 R5 R6 R7 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Region1

end Cert.Kernel.Run

end
-- ==== Proof.KRun.lean ====
/-
  The kernel program's run, whole: @main is nine segments — three stretches of host operations (the edge lists, the sparse
  convolution x1, the edge-count matrix A), the first grid (Â from A, read through two windows of the one array), three stretches
  (the degrees, dinv, v), the second grid (x2), and the last stretch (the scaling and the concatenation). The contents of every
  unscoped buffer at each of the ten boundaries are a fold from the launch memory; a grid changes only its output array, to what
  its write-backs leave. Every weakly fair execution terminates with every unscoped buffer at the last boundary's contents; no
  stretch and no grid writes an argument, so the arguments end as launched.
-/
import proofs.«124652_j14353780703440_1_alg».proof.Proof.KDat0
import proofs.«124652_j14353780703440_1_alg».proof.Proof.KDat1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The first grid's entry contents, read at the TensorCore's references. -/
abbrev V3 : (c : Dev nD) → (b : Ref sig .tc) → Buf (Elt F) ((c : Thread nD τ).loc b) := fun c b => W3 m ρ c b
/-- At the first grid's exit: Â's array at what the write-backs leave, every other buffer as entered. -/
def W4 (c : Dev nD) : Valuation τ sig (Elt F) :=
  Function.update (W3 m ρ c) (Proc.devRef .tc main_v80) ((dat0 (V3 m ρ) c).arrAt 2 cfg0.N)
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
/-- The second grid's entry contents. -/
abbrev V7 : (c : Dev nD) → (b : Ref sig .tc) → Buf (Elt F) ((c : Thread nD τ).loc b) := fun c b => W7 m ρ c b
/-- At the second grid's exit. -/
def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
abbrev W9 : Dev nD → Valuation τ sig (Elt F) := fun c => StableHlo.after hostOps2 (W8 m ρ c)

theorem W4_v80 (c : Dev nD) : W4 m ρ c (Proc.devRef .tc main_v80) = (dat0 (V3 m ρ) c).arrAt 2 cfg0.N := by
  unfold W4; exact Function.update_self ..
theorem W4_of_ne (c : Dev nD) (b : Ref sig .tc) (hb : b ≠ main_v80) : W4 m ρ c (Proc.devRef .tc b) = W3 m ρ c (Proc.devRef .tc b) := by
  unfold W4; exact Function.update_of_ne (StableHlo.devRef_ne_of_ne hb) ..
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references `hostOps0`'s operations write. -/
abbrev hostOps0_W : List (Ref sig .tc) := [main_v0, main_v1, main_v2, main_v3, main_v4, main_cst, main_v5, main_c, main_v6, main_v7, main_c_0, main_v8, main_v9, main_v10, main_v11, main_cst_1, main_v12, main_v13, main_cst_2, main_v14, main_v15, main_cst_3, main_v16, main_v17, main_v18, main_cst_4, main_v19, main_v20, main_cst_5]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_1`'s operations write. -/
abbrev hostOps0_1_W : List (Ref sig .tc) := [main_call0_v0, main_call0_v1, main_v21]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_2`'s operations write. -/
abbrev hostOps0_2_W : List (Ref sig .tc) := [main_c_6, main_v22, main_v23, main_c_7, main_v24, main_v25, main_v26, main_v27, main_v28, main_c_8, main_v29, main_v30, main_c_9, main_v31, main_v32, main_v33, main_v34, main_v35, main_v36, main_cst_10, main_v37, main_v38, main_c_11, main_v39, main_v40, main_c_12, main_v41, main_v42, main_v43, main_v44, main_v45, main_v46, main_v47, main_c_13, main_v48, main_v49, main_c_14, main_v50, main_v51, main_v52, main_v53, main_v54, main_v55, main_v56, main_v57, main_v58, main_v59, main_v60, main_v61, main_v62, main_cst_15, main_v63, main_c_16, main_v64, main_v65, main_c_17, main_v66, main_v67, main_v68, main_c_18, main_v69, main_v70, main_c_19, main_v71, main_v72, main_v73, main_v74, main_v75, main_v76, main_cst_20, main_v77, main_v78, main_v79]
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1`'s operations write. -/
abbrev hostOps1_W : List (Ref sig .tc) := [main_v81, main_cst_21, main_v82, main_cst_22, main_v83, main_v84, main_v85, main_cst_23, main_v86, main_v87, main_cst_24]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_1`'s operations write. -/
abbrev hostOps1_1_W : List (Ref sig .tc) := [main_call1_v0, main_call1_v1, main_v88]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_2`'s operations write. -/
abbrev hostOps1_2_W : List (Ref sig .tc) := [main_v89, main_v90, main_v91, main_v92, main_v93, main_v94, main_v95]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps2`'s operations write. -/
abbrev hostOps2_W : List (Ref sig .tc) := [main_cst_25, main_v97, main_v98, main_cst_26, main_v99, main_v100, main_v101]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What no stretch and no grid writes ends as launched -/

theorem W9_of_kept (c : Dev nD) (r : Ref sig .tc) (h0 : r ∉ hostOps0_W) (h01 : r ∉ hostOps0_1_W) (h02 : r ∉ hostOps0_2_W)
    (h80 : r ≠ main_v80) (h1 : r ∉ hostOps1_W) (h11 : r ∉ hostOps1_1_W) (h12 : r ∉ hostOps1_2_W)
    (harr : ∀ w, Pipeline.arrRef spec1 w ≠ r) (h2 : r ∉ hostOps2_W) :
    W9 m ρ c (Proc.devRef .tc r) = m ((c : Thread nD τ).loc r) :=
  calc W9 m ρ c (Proc.devRef .tc r)
    _ = W8 m ρ c (Proc.devRef .tc r) := StableHlo.after_of_writes_sub hostOps2 _ hostOps2_writes h2
    _ = W7 m ρ c (Proc.devRef .tc r) := W8_of_ne m ρ c r harr
    _ = W6 m ρ c (Proc.devRef .tc r) := StableHlo.after_of_writes_sub hostOps1_2 _ hostOps1_2_writes h12
    _ = W5 m ρ c (Proc.devRef .tc r) := StableHlo.after_of_writes_sub hostOps1_1 _ hostOps1_1_writes h11
    _ = W4 m ρ c (Proc.devRef .tc r) := StableHlo.after_of_writes_sub hostOps1 _ hostOps1_writes h1
    _ = W3 m ρ c (Proc.devRef .tc r) := W4_of_ne m ρ c r h80
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

theorem W9_main_arg0 (c : Dev nD) : W9 m ρ c (Proc.devRef .tc main_arg0) = m ((c : Thread nD τ).loc main_arg0) :=
  W9_of_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_of_kept m ρ c main_arg5 (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The first grid's arrays in and out of the unscoped buffers: A is read through two windows, half a share each -/

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v79) ↦{fullShare} V' main_v79) ∗ (((c : Thread nD τ).loc main_v80) ↦{fullShare} V' main_v80)) := by
  unfold Pipeline.arrBufs
  rw [bigSep_eq_bigSepL_of_eq [main_v79, main_v80] (by decide) (by decide)]
  rfl

theorem arrays0_eq (c : Dev nD) (V : (c : Dev nD) → (b : Ref sig .tc) → Buf (Elt F) ((c : Thread nD τ).loc b))
    (Fa : (w : Fin cfg0.W) → Buf (Elt F) ((cfg0.win w).arr.view.loc (c : Thread nD τ))) :
    ((dat0 V c).arrays Fa : sProp 𝕄)
      = iprop((((c : Thread nD τ).loc main_v79) ↦{fullShare.left} Fa 0) ∗ (((c : Thread nD τ).loc main_v79) ↦{fullShare.right} Fa 1)
          ∗ (((c : Thread nD τ).loc main_v80) ↦{fullShare} Fa 2)) := by
  unfold Dat.arrays
  rw [bigSep_W0, (arr_whole0 0).set_eq_univ]
  rw [(arr_whole0 2).set_eq_univ]
  rfl

theorem hrest0 (c : Dev nD) : ∀ b, b ∉ Finset.univ.image (Pipeline.arrRef spec0) → V4 m ρ c b = V3 m ρ c b :=
  fun b hb => W4_of_ne m ρ c b fun e => hb (Finset.mem_image.mpr ⟨2, Finset.mem_univ _, e.symm⟩)

theorem entry0 (c : Dev nD) :
    (unscopedBufs (Ix := Unit) (Name := ℕ) (U := UR sig nD τ) (Lvl := ℕ) c (V3 m ρ c) : sProp 𝕄)
      ⊢ iprop((dat0 (V3 m ρ) c).arrays ((dat0 (V3 m ρ) c).arrAt · 0) ∗ Pipeline.unscopedRest spec0 c (V3 m ρ c)) := by
  rw [Pipeline.unscopedBufs_split₀ cfgs 0 winFacts₀0.arr_unscoped c (V3 m ρ c)]
  show iprop((Pipeline.arrBufs (Ix := Unit) (Name := ℕ) (U := UR sig nD τ) (Lvl := ℕ) spec0 c (V3 m ρ c) : sProp 𝕄) ∗ Pipeline.unscopedRest spec0 c (V3 m ρ c)) ⊢ _
  rw [arrBufs0_eq, arrays0_eq]
  iintro ⟨⟨H79, H80⟩, Hrest⟩
  ihave H := (pointsTo_share (PosShare.mem_left_op_right fullShare)).1 $$ H79
  icases H with ⟨Hl, Hr⟩
  isplitr [Hrest]
  · isplitl [Hl]; · iexact Hl
    isplitl [Hr]; · iexact Hr
    iexact H80
  iexact Hrest

theorem exit0 (c : Dev nD) :
    iprop((dat0 (V3 m ρ) c).arrays ((dat0 (V3 m ρ) c).arrAt · cfg0.N) ∗ Pipeline.unscopedRest spec0 c (V3 m ρ c))
      ⊢ (unscopedBufs (Ix := Unit) (Name := ℕ) (U := UR sig nD τ) (Lvl := ℕ) c (V4 m ρ c) : sProp 𝕄) := by
  have e0 : (dat0 (V3 m ρ) c).arrAt 0 cfg0.N = V4 m ρ c main_v79 :=
    ((dat0 (V3 m ρ) c).arrAt_in 0 rfl _).trans ((A_eq0 (V3 m ρ) c 0).trans (W4_of_ne m ρ c main_v79 (by decide)).symm)
  have e1 : (dat0 (V3 m ρ) c).arrAt 1 cfg0.N = V4 m ρ c main_v79 :=
    ((dat0 (V3 m ρ) c).arrAt_in 1 rfl _).trans ((A_eq0 (V3 m ρ) c 1).trans (W4_of_ne m ρ c main_v79 (by decide)).symm)
  have e2 : (dat0 (V3 m ρ) c).arrAt 2 cfg0.N = V4 m ρ c main_v80 := (W4_v80 m ρ c).symm
  rw [Pipeline.unscopedBufs_split₀ cfgs 0 winFacts₀0.arr_unscoped c (V4 m ρ c)]
  show _ ⊢ iprop((Pipeline.arrBufs (Ix := Unit) (Name := ℕ) (U := UR sig nD τ) (Lvl := ℕ) spec0 c (V4 m ρ c) : sProp 𝕄) ∗ Pipeline.unscopedRest spec0 c (V4 m ρ c))
  rw [arrBufs0_eq, arrays0_eq]
  rw [show (Pipeline.unscopedRest (Ix := Unit) (Name := ℕ) (U := UR sig nD τ) (Lvl := ℕ) spec0 c (V4 m ρ c) : sProp 𝕄)
      = Pipeline.unscopedRest spec0 c (V3 m ρ c) from by
    unfold Pipeline.unscopedRest
    exact bigSep_congr fun b hb => by rw [hrest0 m ρ c b (Finset.mem_sdiff.mp hb).2]]
  dsimp only
  rw [e0, e1, e2]
  iintro ⟨⟨Hl, Hr, H80⟩, Hrest⟩
  isplitr [Hrest]
  · isplitr [H80]
    · iapply (pointsTo_share (PosShare.mem_left_op_right fullShare)).2
      isplitl [Hl]; · iexact Hl
      iexact Hr
    iexact H80
  iexact Hrest

/-! ## The grids as segments -/

set_option backward.isDefEq.respectTransparency.types false in
/-- Grid 0 as a segment over the thread state: entered from every unscoped buffer at its entry contents, left at its exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := exit0 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Grid 1 as a segment over the thread state: entered from every unscoped buffer at its entry contents, left at its exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V7 m ρ) c)
    unfold Pipeline.ΦA
    iintro ⟨Hp, -, Hr⟩
    isplitl [Hr]; · iexact Hr
    iexact Hp
  hout c := by
    rw [Pipeline.ownSems0_none]
    refine BIBase.Entails.trans (hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)) ]

set_option maxHeartbeats 40000000 in
theorem main_run (c : Dev nD) : main (F := F) c = Pipeline.Seg.run (segs m ρ) := (main_chain c).trans (by chain_rfl)

set_option backward.isDefEq.respectTransparency.types false in
set_option maxHeartbeats 40000000 in
/-- THE RUN: from any memory with zero counters every weakly fair execution of @main terminates, and every unscoped buffer of
    every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl, fun c => ?_⟩
      show iprop(StableHlo.held (c : Thread nD τ) (Pipeline.ucRefs τ sig) (W9 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The frame, and the result's buffer -/

/-- The frame: every weakly fair execution of @main terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

/-- The run with the result named: the result's buffer ends at the last boundary's contents, the arguments as launched. -/
theorem run_result : θ_run defs (onTc (τ := τ) (main (F := F))) ⟨m, fun _ => 0, ρ⟩ (fun r => ∀ c : Dev nD,
      r.2.mem ((c.tc : Thread nD τ).loc main_v101) = W9 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v101 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

end Cert.Kernel.Run

end
-- ==== Proof.KIBody0.lean ====
/-
  The body of the first kernel (the thresholded square of the edge-count matrix plus the identity, block by block) at
  a grid point, in its two control cases over the contraction coordinate k: at k = 0 the accumulator is zeroed and
  takes the first partial product; at k = 1 it takes the second partial product and the output block is written from
  it. Each case is a triple over whole memrefs; what the accumulator and the output block end holding is named by the
  payload functions of the kernel's skeleton. Generic in the float instance.
-/
import proofs.«124652_j14353780703440_1_alg».proof.Proof.Gen.KernelIdeal.Skeleton
import proofs.«124652_j14353780703440_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
theorem zeros2 : (![0, 0] : Fin 2 → ℕ) = fun _ => 0 := by
  funext a; fin_cases a <;> rfl

/-- A load of the whole of a whole memref (the whole-shape rectangle at zero offsets) reads the contents. -/
theorem readAt_whole {S : Shape} {e : EltTy} (m : Memref sig .tc .vmem S e) (h : m.IsWhole)
    {off : Fin S.rank → ℕ} (hoff : off = fun _ => 0) (inb : ∀ a, off a + S.size a ≤ S.size a) (X : S.Idx → Elt F e) :
    m.view.readAt (Elt F) (Rect.unit off S.size inb).toLoadRect (h.unread X) = X := by
  rw [View.readAt_eq_ld, h.read_unread]; exact View.ld_unit_zero hoff inb X

/-- After a store through the whole-shape rectangle, LAST, the buffer reads as that store's payload, whatever was
    there before and whatever the earlier stores were. -/
theorem read_writes_whole {S : Shape} {e : EltTy} (v : View sig .tc .vmem S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩)]
  exact View.canon_cons_unit_zero hoff inb w L

/-! ## Kernel 0: the two control cases of the contraction axis -/

/-- The first conditional of kernel 0 is taken exactly at the first step of the contraction axis. -/
theorem k0_cond1_iff (i : grid0.Coords) :
    (Scalar.cmpi .ne (Scalar.extui (Scalar.cmpi .eq (BitVec.ofNat 32 (i 2).val) 0#32)) 0#32 = 1#1) ↔ (i 2).val = 0 := by
  have h : ∀ k : Fin 2, (Scalar.cmpi .ne (Scalar.extui (Scalar.cmpi .eq (BitVec.ofNat 32 k.val) 0#32)) 0#32 = 1#1) ↔ k.val = 0 := by decide
  exact h (i 2)

/-- The last conditional of kernel 0 is taken exactly at the last step of the contraction axis. -/
theorem k0_cond2_iff (i : grid0.Coords) : k0_cond2 i = 1#1 ↔ (i 2).val = 1 := by
  have h : ∀ k : Fin 2, (Scalar.cmpi .ne (Scalar.extui (Scalar.cmpi .eq (BitVec.ofNat 32 k.val) 1#32)) 0#32 = 1#1) ↔ k.val = 1 := by decide
  exact h (i 2)

/-- What the accumulator holds after the first step: zeros plus the first partial product. -/
def acc0_first (x3 : Vec F S512x4096 .bf16) (x4 : Vec F S4096x512 .bf16) : Vec F S512x512 .f32 :=
  Gen.k0_pay2 (Gen.k0_pay1 (F := F)) x3 x4
/-- What the accumulator holds after a later step: the carried contents plus that step's partial product. -/
def acc0_step (s : Vec F S512x512 .f32) (x3 : Vec F S512x4096 .bf16) (x4 : Vec F S4096x512 .bf16) : Vec F S512x512 .f32 :=
  Gen.k0_pay2 s x3 x4
/-- What the last step writes to the output block: the indicator of a positive accumulated count plus the diagonal. -/
def out0_last (i : grid0.Coords) (s : Vec F S512x512 .f32) (x3 : Vec F S512x4096 .bf16) (x4 : Vec F S4096x512 .bf16) : Vec F S512x512 .bf16 :=
  Gen.k0_pay3 i (Gen.k0_pay2 s x3 x4)

theorem acc0_first_eq (x3 : Vec F S512x4096 .bf16) (x4 : Vec F S4096x512 .bf16) :
    acc0_first x3 x4 = Gen.k0_pay2 (Gen.k0_pay1 (F := F)) x3 x4 := rfl
theorem acc0_step_eq (s : Vec F S512x512 .f32) (x3 : Vec F S512x4096 .bf16) (x4 : Vec F S4096x512 .bf16) :
    acc0_step s x3 x4 = Gen.k0_pay2 s x3 x4 := rfl
theorem out0_last_eq (i : grid0.Coords) (s : Vec F S512x512 .f32) (x3 : Vec F S512x4096 .bf16) (x4 : Vec F S4096x512 .bf16) :
    out0_last i s x3 x4 = Gen.k0_pay3 i (Gen.k0_pay2 s x3 x4) := rfl

set_option maxHeartbeats 1000000 in
/-- The body at the first step of the contraction axis (k = 0): the accumulator, found at anything, is zeroed and
    then holds zeros plus the first partial product; the inputs and the output block are left as found. -/
theorem k0_first (c : Dev nD) (E : Set ℕ) (i : grid0.Coords) (hk : (i 2).val = 0)
    (arg3 : Memref sig .tc .vmem S512x4096 .bf16) (harg3 : arg3.IsWhole)
    (arg4 : Memref sig .tc .vmem S4096x512 .bf16) (harg4 : arg4.IsWhole)
    (arg5 : Memref sig .tc .vmem S512x512 .bf16) (harg5 : arg5.IsWhole)
    (arg6 : Memref sig .tc .vmem S512x512 .f32) (harg6 : arg6.IsWhole)
    (x3 : Vec F S512x4096 .bf16) (x4 : Vec F S4096x512 .bf16) (d5 : Vec F S512x512 .bf16) (K : PUnit → sProp 𝕄) :
    iprop(owns (c : Thread nD τ) arg3 fullShare x3 ∗ owns (c : Thread nD τ) arg4 fullShare x4 ∗ owns (c : Thread nD τ) arg5 fullShare d5
        ∗ (∃ d, owns (c : Thread nD τ) arg6 fullShare d)
        ∗ (iprop(owns (c : Thread nD τ) arg3 fullShare x3 ∗ owns (c : Thread nD τ) arg4 fullShare x4 ∗ owns (c : Thread nD τ) arg5 fullShare d5
                 ∗ owns (c : Thread nD τ) arg6 fullShare (acc0_first x3 x4)) -∗ K ⟨⟩))
      ⊢ wp frame (wpE (defs₀ (F := F)) Variants.none c none) E (cc0__a2hat_kernel i arg3 harg3 arg4 harg4 arg5 harg5 arg6 harg6) K := by
  have hc0 : (Scalar.cmpi .ne (Scalar.extui (Scalar.cmpi .eq (BitVec.ofNat 32 (i 2).val) 0#32)) 0#32 = 1#1) := (k0_cond1_iff i).mpr hk
  have hc1 : ¬ (k0_cond2 i = 1#1) := fun h => by have := (k0_cond2_iff i).mp h; omega
  simp only [cc0__a2hat_kernel_eq_skeleton]; unfold cc0__a2hat_kernel_skel
  unfold owns acc0_first
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_run_names
  refine (read_writes_whole _ _ zeros2 _ _ _).trans ?_
  rw [View.readCov_cons_toLoadRect, readAt_whole arg3 harg3 zeros2, readAt_whole arg4 harg4 zeros2]

set_option maxHeartbeats 1000000 in
/-- The body at the last step of the contraction axis (k = 1): the accumulator, carried at `s`, takes the last partial
    product, and the output block, found at anything, is written from the new accumulator; the inputs are left as found. -/
theorem k0_last (c : Dev nD) (E : Set ℕ) (i : grid0.Coords) (hk : (i 2).val = 1)
    (arg3 : Memref sig .tc .vmem S512x4096 .bf16) (harg3 : arg3.IsWhole)
    (arg4 : Memref sig .tc .vmem S4096x512 .bf16) (harg4 : arg4.IsWhole)
    (arg5 : Memref sig .tc .vmem S512x512 .bf16) (harg5 : arg5.IsWhole)
    (arg6 : Memref sig .tc .vmem S512x512 .f32) (harg6 : arg6.IsWhole)
    (x3 : Vec F S512x4096 .bf16) (x4 : Vec F S4096x512 .bf16) (s : Vec F S512x512 .f32) (K : PUnit → sProp 𝕄) :
    iprop(owns (c : Thread nD τ) arg3 fullShare x3 ∗ owns (c : Thread nD τ) arg4 fullShare x4 ∗ (∃ d, owns (c : Thread nD τ) arg5 fullShare d)
        ∗ owns (c : Thread nD τ) arg6 fullShare s
        ∗ (iprop(owns (c : Thread nD τ) arg3 fullShare x3 ∗ owns (c : Thread nD τ) arg4 fullShare x4
                 ∗ owns (c : Thread nD τ) arg5 fullShare (out0_last i s x3 x4)
                 ∗ owns (c : Thread nD τ) arg6 fullShare (acc0_step s x3 x4)) -∗ K ⟨⟩))
      ⊢ wp frame (wpE (defs₀ (F := F)) Variants.none c none) E (cc0__a2hat_kernel i arg3 harg3 arg4 harg4 arg5 harg5 arg6 harg6) K := by
  have hc0 : ¬ (Scalar.cmpi .ne (Scalar.extui (Scalar.cmpi .eq (BitVec.ofNat 32 (i 2).val) 0#32)) 0#32 = 1#1) :=
    fun h => by have := (k0_cond1_iff i).mp h; omega
  have hc1 : k0_cond2 i = 1#1 := (k0_cond2_iff i).mpr hk
  simp only [cc0__a2hat_kernel_eq_skeleton]; unfold cc0__a2hat_kernel_skel
  unfold owns out0_last acc0_step
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ zeros2 _ _ _).trans ?_
    rw [View.readCov_cons_toLoadRect, readAt_whole arg6 harg6 zeros2, readAt_whole arg3 harg3 zeros2, readAt_whole arg4 harg4 zeros2]
  iexists _; isplitr
  swap; · iexact H6
  ipureintro
  sl_unfold_run_names
  refine (read_writes_whole _ _ zeros2 _ _ _).trans ?_
  rw [readAt_whole arg6 harg6 zeros2, readAt_whole arg3 harg3 zeros2, readAt_whole arg4 harg4 zeros2]

end Cert.KernelIdeal.Body

end
-- ==== Proof.KIDat0.lean ====
/-
  The first grid (16 × 16 × 2 points): the block (i, j) of Â. What the accumulator holds after each point, what the output block
  holds after the second point of a pair, the invariant that carries the accumulator from a point to the next, and the body's
  obligation at every point from the two control cases of the body (the first point of a pair resets and accumulates, the second
  accumulates, compares with zero and adds the diagonal).
-/
import proofs.«124652_j14353780703440_1_alg».proof.Proof.Gen.KernelIdeal.Launch
import proofs.«124652_j14353780703440_1_alg».proof.Proof.Gen.KernelIdeal.Skeleton
import proofs.«124652_j14353780703440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124652_j14353780703440_1_alg».proof.Proof.KIBody0

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t` of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The point before `t` (itself at the first point). -/
def prev0 (t : Fin cfg0.N) : Fin cfg0.N := ⟨t.val - 1, lt_of_le_of_lt (Nat.sub_le _ _) t.isLt⟩

/-- What the accumulator holds after point `t`: at an even point (the first of a pair) zero plus the point's product of blocks,
    at an odd point that of the point before plus the point's own. -/
def acc0 (c : Dev nD) (t : Fin cfg0.N) : Vec F S512x512 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

/-- What the output block holds after an odd point: the comparison of the accumulator with zero plus the diagonal of the block's position. -/
def out0 (c : Dev nD) (t : Fin cfg0.N) : Vec F S512x512 .bf16 := k0_pay3 (grid0.coords t) (acc0 V c t)

end Region0

section Region0b

variable (V : (c : Dev nD) → (b : Ref sig .tc) → Buf (Elt F) ((c : Thread nD τ).loc b))

/-! ## The body's two control cases over the grid -/

/-- The third coordinate of a point of the first grid is its parity. -/
theorem k_of0 : ∀ t : Fin cfg0.N, ((grid0.coords t) 2).val = t.val % 2 :=
  (by decide +kernel : ∀ t : Fin grid0.N, ((grid0.coords t) 2).val = t.val % 2)
/-- The output window is idle, and not written back, at the even points; live at the odd ones. -/
theorem idle0_2_even : ∀ t : Fin cfg0.N, t.val % 2 = 0 → cfg0.idle 2 (grid0.coords t) = true :=
  (by decide +kernel : ∀ t : Fin grid0.N, t.val % 2 = 0 → cfg0.idle 2 (grid0.coords t) = true)
theorem noFlush0_2_even : ∀ t : Fin cfg0.N, t.val % 2 = 0 → (cfg0.win 2).flush t = false :=
  (by decide +kernel : ∀ t : Fin grid0.N, t.val % 2 = 0 → win0_2.flush t = false)
theorem live0_2_odd : ∀ t : Fin cfg0.N, ¬ t.val % 2 = 0 → cfg0.idle 2 (grid0.coords t) = false :=
  (by decide +kernel : ∀ t : Fin grid0.N, ¬ t.val % 2 = 0 → cfg0.idle 2 (grid0.coords t) = false)
theorem live0_0 : ∀ t : Fin cfg0.N, cfg0.idle 0 (grid0.coords t) = false := by decide +kernel
theorem live0_1 : ∀ t : Fin cfg0.N, cfg0.idle 1 (grid0.coords t) = false := by decide +kernel

/-! ## The invariant: the accumulator's contents carried from point to point -/

/-- The accumulator, a whole scoped buffer of the kernel's own. -/
abbrev scM0 : Memref sig .tc .vmem S512x512 .f32 := Memref.whole cc0_scratch0

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers the first grid never touches: the second grid's staging buffers and accumulator. -/
abbrev rest0 (c : Dev nD) : sProp 𝕄 :=
  iprop(anyBuf (F := F) c cc1_stg0_0 ∗ anyBuf (F := F) c cc1_stg0_1 ∗ anyBuf (F := F) c cc1_stg1_0 ∗ anyBuf (F := F) c cc1_stg1_1 ∗ anyBuf (F := F) c cc1_stg2_0
    ∗ anyBuf (F := F) c cc1_stg2_1 ∗ anyBuf (F := F) c cc1_stg3_0 ∗ anyBuf (F := F) c cc1_stg4_0 ∗ anyBuf (F := F) c cc1_stg4_1 ∗ anyBuf (F := F) c cc1_scratch0)

theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; simp only [scM0, owns_whole]; try rfl

/-- The invariant before position `n`: before the first point every scoped buffer at anything; afterwards the accumulator at what
    the point before left in it. -/
def Phi0 (c : Dev nD) : (n : ℕ) → n ≤ cfg0.N → sProp 𝕄
  | 0, _ => Pipeline.ΦA spec0 c
  | n + 1, hn => iprop(iprop(owns (c : Thread nD τ) scM0 fullShare (acc0 V c ⟨n, hn⟩) ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c ⟨n, hn⟩) ∗ rest0 (F := F) c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c ⟨n - 1, by omega⟩) ∗ rest0 (F := F) c) ∗ (∃ r, prngReg c r)) := by
  cases n with
  | zero => exact absurd rfl hz
  | succ n => rfl

/-! ## The proof data -/

/-- The first grid's proof data on core `c`: the arrays as the region finds them; each input's buffer left at its block, the
    output's at `out0`; the invariant `Phi0`; the array A read through two windows, half a share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem acc0_even (c : Dev nD) (t : Fin cfg0.N) (h : t.val % 2 = 0) :
    acc0 V c t = k0_pay2 (k0_pay1 (F := F)) (iblk0 V c 0 t) (iblk0 V c 1 t) := by
  unfold acc0; rw [if_pos h]
theorem acc0_odd (c : Dev nD) (t : Fin cfg0.N) (h : ¬ t.val % 2 = 0) :
    acc0 V c t = k0_pay2 (acc0 V c (prev0 t)) (iblk0 V c 0 t) (iblk0 V c 1 t) := by
  have hp : (prev0 t).val % 2 = 0 := by show (t.val - 1) % 2 = 0; omega
  rw [acc0_even V c (prev0 t) hp]; unfold acc0; rw [if_neg h]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h0 : t.val % 2 = 0
  · rw [Dat.leavesExact_idle (dat0 V c) 2 t (idle0_2_even t h0) (noFlush0_2_even t h0)]
    rw [acc0_even V c t h0]
    have hk : ((grid0.coords t) 2).val = 0 := (k_of0 t).trans h0
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (Body.k0_first c Set.univ (grid0.coords t) hk _ _ _ _ _ _ _ _ (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HR⟩, Hg⟩, Ho, ⟨%d0, H0⟩, ⟨%d1, H1⟩, ⟨%d2, H2⟩⟩
      iapply (Body.k0_first c Set.univ (grid0.coords t) hk _ _ _ _ _ _ _ _ (iblk0 V c 0 t) (iblk0 V c 1 t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · rw [show (dat0 V c).leavesExact 2 t = owns (c : Thread nD τ) (st0_2 t) fullShare ((dat0 V c).after 2 t) from by
      unfold Dat.leavesExact; rw [live0_2_odd t h0], after0_2]
    unfold out0
    rw [acc0_odd V c t h0]
    have hk : ((grid0.coords t) 2).val = 1 := (k_of0 t).trans (by omega)
    have hz : t.val ≠ 0 := fun h => h0 (by rw [h])
    rw [Phi0_castSucc V c t, Phi0_pos V c _ _ hz]
    iintro ⟨⟨⟨HS, HR⟩, Hg⟩, Ho, ⟨%d0, H0⟩, ⟨%d1, H1⟩, ⟨%d2, H2⟩⟩
    iapply (Body.k0_last c Set.univ (grid0.coords t) hk _ _ _ _ _ _ _ _ (iblk0 V c 0 t) (iblk0 V c 1 t) (acc0 V c (prev0 t)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

theorem hout0 (c : Dev nD) : (dat0 V c).Φ (Fin.last cfg0.N) ⊢ Pipeline.ΦA spec0 c := by
  have hN : cfg0.N = 512 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨⟨HS, HR⟩, Hg⟩
  isplitl [HS HR]
  · isplitl [HS]; · iexists _; iexact HS
    iexact HR
  iexact Hg

end Region0b

end Cert.KernelIdeal.Run

end
-- ==== Proof.KIBody1.lean ====
/-
  The body of the second kernel (the normalised aggregation over the thresholded adjacency, a row block at a time) at
  a grid point, in its two control cases over the reduction coordinate p: at p = 0 the accumulator is zeroed and takes
  the first half's partial aggregation; at p = 1 it takes the second half's and the output block is written as the
  normalising column times the accumulated sum plus the bias row. Each case is a triple over whole memrefs; what the
  accumulator and the output block end holding is named by the payload functions of the kernel's skeleton. Generic in
  the float instance.
-/
import proofs.«124652_j14353780703440_1_alg».proof.Proof.Gen.KernelIdeal.Skeleton
import proofs.«124652_j14353780703440_1_alg».proof.Proof.Gen.KernelIdeal.Points
import proofs.«124652_j14353780703440_1_alg».proof.Proof.KIBody0
import Idealize.ShloMosaic.Lib.Pipeline.FrameBody
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## Kernel 1: the two control cases of the reduction axis -/

/-- The first conditional of kernel 1 is taken exactly at the first half of the reduction axis. -/
theorem k1_cond1_iff (i : grid1.Coords) :
    (Scalar.cmpi .ne (Scalar.extui (Scalar.cmpi .eq (BitVec.ofNat 32 (i 1).val) 0#32)) 0#32 = 1#1) ↔ (i 1).val = 0 := by
  have h : ∀ k : Fin 2, (Scalar.cmpi .ne (Scalar.extui (Scalar.cmpi .eq (BitVec.ofNat 32 k.val) 0#32)) 0#32 = 1#1) ↔ k.val = 0 := by decide
  exact h (i 1)

/-- The last conditional of kernel 1 is taken exactly at the last half of the reduction axis. -/
theorem k1_cond2_iff (i : grid1.Coords) : k1_cond2 i = 1#1 ↔ (i 1).val = 1 := by
  have h : ∀ k : Fin 2, (Scalar.cmpi .ne (Scalar.extui (Scalar.cmpi .eq (BitVec.ofNat 32 k.val) 1#32)) 0#32 = 1#1) ↔ k.val = 1 := by decide
  exact h (i 1)

/-- What the accumulator holds after the first half: zeros plus the first partial aggregation. -/
def acc1_first (x2 : Vec F S4096x1024 .bf16) (x3 : Vec F S4096x128 .bf16) : Vec F S1024x128 .f32 :=
  Gen.k1_pay2 (Gen.k1_pay1 (F := F)) x2 x3
/-- What the accumulator holds after a later half: the carried contents plus that half's partial aggregation. -/
def acc1_step (s : Vec F S1024x128 .f32) (x2 : Vec F S4096x1024 .bf16) (x3 : Vec F S4096x128 .bf16) : Vec F S1024x128 .f32 :=
  Gen.k1_pay2 s x2 x3
/-- What the last half writes to the output block: the normalising column times the accumulated sum, plus the bias row. -/
def out1_last (s : Vec F S1024x128 .f32) (x2 : Vec F S4096x1024 .bf16) (x3 : Vec F S4096x128 .bf16)
    (x4 : Vec F S1024x1 .f32) (x5 : Vec F S1x128 .f32) : Vec F S1024x128 .f32 :=
  Gen.k1_pay3 x4 (Gen.k1_pay2 s x2 x3) x5

theorem acc1_first_eq (x2 : Vec F S4096x1024 .bf16) (x3 : Vec F S4096x128 .bf16) :
    acc1_first x2 x3 = Gen.k1_pay2 (Gen.k1_pay1 (F := F)) x2 x3 := rfl
theorem acc1_step_eq (s : Vec F S1024x128 .f32) (x2 : Vec F S4096x1024 .bf16) (x3 : Vec F S4096x128 .bf16) :
    acc1_step s x2 x3 = Gen.k1_pay2 s x2 x3 := rfl
theorem out1_last_eq (s : Vec F S1024x128 .f32) (x2 : Vec F S4096x1024 .bf16) (x3 : Vec F S4096x128 .bf16)
    (x4 : Vec F S1024x1 .f32) (x5 : Vec F S1x128 .f32) :
    out1_last s x2 x3 x4 x5 = Gen.k1_pay3 x4 (Gen.k1_pay2 s x2 x3) x5 := rfl

set_option maxHeartbeats 1000000 in
/-- The body at the first half of the reduction axis (p = 0): the accumulator, found at anything, is zeroed and then
    holds zeros plus the first partial aggregation; the inputs and the output block are left as found. -/
theorem k1_first (c : Dev nD) (E : Set ℕ) (i : grid1.Coords) (hp : (i 1).val = 0)
    (arg2 : Memref sig .tc .vmem S4096x1024 .bf16) (harg2 : arg2.IsWhole)
    (arg3 : Memref sig .tc .vmem S4096x128 .bf16) (harg3 : arg3.IsWhole)
    (arg4 : Memref sig .tc .vmem S1024x1 .f32) (harg4 : arg4.IsWhole)
    (arg5 : Memref sig .tc .vmem S1x128 .f32) (harg5 : arg5.IsWhole)
    (arg6 : Memref sig .tc .vmem S1024x128 .f32) (harg6 : arg6.IsWhole)
    (arg7 : Memref sig .tc .vmem S1024x128 .f32) (harg7 : arg7.IsWhole)
    (x2 : Vec F S4096x1024 .bf16) (x3 : Vec F S4096x128 .bf16) (x4 : Vec F S1024x1 .f32) (x5 : Vec F S1x128 .f32)
    (d6 : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare d6
        ∗ (∃ d, owns (c : Thread nD τ) arg7 fullShare d)
        ∗ (iprop(owns (c : Thread nD τ) arg2 fullShare x2 ∗ owns (c : Thread nD τ) arg3 fullShare x3 ∗ owns (c : Thread nD τ) arg4 fullShare x4
                 ∗ owns (c : Thread nD τ) arg5 fullShare x5 ∗ owns (c : Thread nD τ) arg6 fullShare d6
                 ∗ owns (c : Thread nD τ) arg7 fullShare (acc1_first x2 x3)) -∗ K ⟨⟩))
      ⊢ wp frame (wpE (defs₀ (F := F)) Variants.none c none) E
          (cc1__agg_kernel i arg2 harg2 arg3 harg3 arg4 harg4 arg5 harg5 arg6 harg6 arg7 harg7) K := by
  have hc0 : (Scalar.cmpi .ne (Scalar.extui (Scalar.cmpi .eq (BitVec.ofNat 32 (i 1).val) 0#32)) 0#32 = 1#1) := (k1_cond1_iff i).mpr hp
  have hc1 : ¬ (k1_cond2 i = 1#1) := fun h => by have := (k1_cond2_iff i).mp h; omega
  simp only [cc1__agg_kernel_eq_skeleton]; unfold cc1__agg_kernel_skel
  unfold owns acc1_first
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  refine (read_writes_whole _ _ zeros2 _ _ _).trans ?_
  rw [View.readCov_cons_toLoadRect, readAt_whole arg2 harg2 zeros2, readAt_whole arg3 harg3 zeros2]

set_option maxHeartbeats 1000000 in
/-- The body at the last half of the reduction axis (p = 1): the accumulator, carried at `s`, takes the last partial
    aggregation, and the output block, found at anything, is written from the new accumulator, the normalising column
    and the bias row; the inputs are left as found. -/
theorem k1_last (c : Dev nD) (E : Set ℕ) (i : grid1.Coords) (hp : (i 1).val = 1)
    (arg2 : Memref sig .tc .vmem S4096x1024 .bf16) (harg2 : arg2.IsWhole)
    (arg3 : Memref sig .tc .vmem S4096x128 .bf16) (harg3 : arg3.IsWhole)
    (arg4 : Memref sig .tc .vmem S1024x1 .f32) (harg4 : arg4.IsWhole)
    (arg5 : Memref sig .tc .vmem S1x128 .f32) (harg5 : arg5.IsWhole)
    (arg6 : Memref sig .tc .vmem S1024x128 .f32) (harg6 : arg6.IsWhole)
    (arg7 : Memref sig .tc .vmem S1024x128 .f32) (harg7 : arg7.IsWhole)
    (x2 : Vec F S4096x1024 .bf16) (x3 : Vec F S4096x128 .bf16) (x4 : Vec F S1024x1 .f32) (x5 : Vec F S1x128 .f32)
    (s : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ owns (c : Thread nD τ) arg7 fullShare s
        ∗ (iprop(owns (c : Thread nD τ) arg2 fullShare x2 ∗ owns (c : Thread nD τ) arg3 fullShare x3 ∗ owns (c : Thread nD τ) arg4 fullShare x4
                 ∗ owns (c : Thread nD τ) arg5 fullShare x5 ∗ owns (c : Thread nD τ) arg6 fullShare (out1_last s x2 x3 x4 x5)
                 ∗ owns (c : Thread nD τ) arg7 fullShare (acc1_step s x2 x3)) -∗ K ⟨⟩))
      ⊢ wp frame (wpE (defs₀ (F := F)) Variants.none c none) E
          (cc1__agg_kernel i arg2 harg2 arg3 harg3 arg4 harg4 arg5 harg5 arg6 harg6 arg7 harg7) K := by
  have hc0 : ¬ (Scalar.cmpi .ne (Scalar.extui (Scalar.cmpi .eq (BitVec.ofNat 32 (i 1).val) 0#32)) 0#32 = 1#1) :=
    fun h => by have := (k1_cond1_iff i).mp h; omega
  have hc1 : k1_cond2 i = 1#1 := (k1_cond2_iff i).mpr hp
  simp only [cc1__agg_kernel_eq_skeleton]; unfold cc1__agg_kernel_skel
  unfold owns out1_last acc1_step
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    refine (read_writes_whole _ _ zeros2 _ _ _).trans ?_
    rw [View.readCov_cons_toLoadRect, readAt_whole arg7 harg7 zeros2, readAt_whole arg2 harg2 zeros2, readAt_whole arg3 harg3 zeros2,
      readAt_whole arg4 harg4 zeros2, readAt_whole arg5 harg5 zeros2]
  iexists _; isplitr
  swap; · iexact H7
  ipureintro
  sl_unfold_run_names
  refine (read_writes_whole _ _ zeros2 _ _ _).trans ?_
  rw [readAt_whole arg7 harg7 zeros2, readAt_whole arg2 harg2 zeros2, readAt_whole arg3 harg3 zeros2]

end Cert.KernelIdeal.Body

end
-- ==== Proof.KIDat1.lean ====
/-
  The second grid (8 × 2 points): the block q of x2. What the accumulator holds after each point (the contraction of Â's block
  with v's block along Â's first axis, the second point of a pair on top of the first), what the output block holds after the
  second point of a pair (the accumulator scaled by the block's column of dinv, plus the bias row), the invariant that carries
  the accumulator, and the body's obligation at every point from the body's two control cases.
-/
import proofs.«124652_j14353780703440_1_alg».proof.Proof.Gen.KernelIdeal.Launch
import proofs.«124652_j14353780703440_1_alg».proof.Proof.Gen.KernelIdeal.Skeleton
import proofs.«124652_j14353780703440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124652_j14353780703440_1_alg».proof.Proof.KIBody1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t` of the second grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The point before `t` (itself at the first point). -/
def prev1 (t : Fin cfg1.N) : Fin cfg1.N := ⟨t.val - 1, lt_of_le_of_lt (Nat.sub_le _ _) t.isLt⟩

/-- What the accumulator holds after point `t`: at an even point zero plus the point's contraction of blocks, at an odd point that of
    the point before plus the point's own. -/
def acc1 (c : Dev nD) (t : Fin cfg1.N) : Vec F S1024x128 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-- What the output block holds after an odd point: the accumulator scaled row by row and shifted by the bias row. -/
def out1 (c : Dev nD) (t : Fin cfg1.N) : Vec F S1024x128 .f32 := k1_pay3 (iblk1 V c 2 t) (acc1 V c t) (iblk1 V c 3 t)

theorem p_of1 : ∀ t : Fin cfg1.N, ((grid1.coords t) 1).val = t.val % 2 :=
  (by decide +kernel : ∀ t : Fin grid1.N, ((grid1.coords t) 1).val = t.val % 2)
theorem idle1_4_even : ∀ t : Fin cfg1.N, t.val % 2 = 0 → cfg1.idle 4 (grid1.coords t) = true :=
  (by decide +kernel : ∀ t : Fin grid1.N, t.val % 2 = 0 → cfg1.idle 4 (grid1.coords t) = true)
theorem noFlush1_4_even : ∀ t : Fin cfg1.N, t.val % 2 = 0 → (cfg1.win 4).flush t = false :=
  (by decide +kernel : ∀ t : Fin grid1.N, t.val % 2 = 0 → win1_4.flush t = false)
theorem live1_4_odd : ∀ t : Fin cfg1.N, ¬ t.val % 2 = 0 → cfg1.idle 4 (grid1.coords t) = false :=
  (by decide +kernel : ∀ t : Fin grid1.N, ¬ t.val % 2 = 0 → cfg1.idle 4 (grid1.coords t) = false)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

abbrev scM1 : Memref sig .tc .vmem S1024x128 .f32 := Memref.whole cc1_scratch0

abbrev anyBuf1 (c : Dev nD) (b : Ref sig .tc) : sProp 𝕄 :=
  iprop(∃ f : Buf (Elt F) ((c : Thread nD τ).loc b), ((c : Thread nD τ).loc b) ↦{fullShare} f)

/-- The scoped buffers the second grid never touches (the first grid's staging buffers and accumulator), then `X`. -/
abbrev with1 (c : Dev nD) (X : sProp 𝕄) : sProp 𝕄 :=
  iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0
    ∗ anyBuf1 (F := F) c cc0_stg2_1 ∗ anyBuf1 (F := F) c cc0_scratch0 ∗ X)

theorem PhiA1_eq (c : Dev nD) :
    (Pipeline.ΦA spec1 c : sProp 𝕄)
      = iprop(with1 (F := F) c iprop(∃ d, owns (c : Thread nD τ) scM1 fullShare d) ∗ (∃ r, prngReg c r)) := by
  unfold Pipeline.ΦA; rw [scopedRest1_eq]; simp only [scM1, owns_whole]; try rfl

def Phi1 (c : Dev nD) : (n : ℕ) → n ≤ cfg1.N → sProp 𝕄
  | 0, _ => Pipeline.ΦA spec1 c
  | n + 1, hn => iprop(with1 (F := F) c (owns (c : Thread nD τ) scM1 fullShare (acc1 V c ⟨n, hn⟩)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(with1 (F := F) c (owns (c : Thread nD τ) scM1 fullShare (acc1 V c ⟨n, hn⟩)) ∗ (∃ r, prngReg c r)) := rfl
theorem Phi1_pos (c : Dev nD) (n : ℕ) (h : n ≤ cfg1.N) (hz : n ≠ 0) :
    Phi1 V c n h = iprop(with1 (F := F) c (owns (c : Thread nD τ) scM1 fullShare (acc1 V c ⟨n - 1, by omega⟩)) ∗ (∃ r, prngReg c r)) := by
  cases n with
  | zero => exact absurd rfl hz
  | succ n => rfl

/-- The second grid's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem acc1_even (c : Dev nD) (t : Fin cfg1.N) (h : t.val % 2 = 0) :
    acc1 V c t = k1_pay2 (k1_pay1 (F := F)) (iblk1 V c 0 t) (iblk1 V c 1 t) := by
  unfold acc1; rw [if_pos h]
theorem acc1_odd (c : Dev nD) (t : Fin cfg1.N) (h : ¬ t.val % 2 = 0) :
    acc1 V c t = k1_pay2 (acc1 V c (prev1 t)) (iblk1 V c 0 t) (iblk1 V c 1 t) := by
  have hp : (prev1 t).val % 2 = 0 := by show (t.val - 1) % 2 = 0; omega
  rw [acc1_even V c (prev1 t) hp]; unfold acc1; rw [if_neg h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  by_cases h0 : t.val % 2 = 0
  · rw [Dat.leavesExact_idle (dat1 V c) 4 t (idle1_4_even t h0) (noFlush1_4_even t h0)]
    rw [acc1_even V c t h0]
    have hp : ((grid1.coords t) 1).val = 0 := (p_of1 t).trans h0
    by_cases hz : t.val = 0
    · rw [Phi1_castSucc V c t, Phi1_zero V c _ _ hz, PhiA1_eq]
      iintro ⟨⟨⟨R1, R2, R3, R4, R5, R6, R7, HS⟩, Hg⟩, Ho, ⟨%d0, H0⟩, ⟨%d1, H1⟩, ⟨%d2, H2⟩, ⟨%d3, H3⟩, ⟨%d4, H4⟩⟩
      iapply (Body.k1_first c Set.univ (grid1.coords t) hp _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩⟩
      iapply (Body.k1_first c Set.univ (grid1.coords t) hp _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (st1_4 t) fullShare ((dat1 V c).after 4 t) from by
      unfold Dat.leavesExact; rw [live1_4_odd t h0], after1_4]
    unfold out1
    rw [acc1_odd V c t h0]
    have hp : ((grid1.coords t) 1).val = 1 := (p_of1 t).trans (by omega)
    have hz : t.val ≠ 0 := fun h => h0 (by rw [h])
    rw [Phi1_castSucc V c t, Phi1_pos V c _ _ hz]
    iintro ⟨⟨⟨R1, R2, R3, R4, R5, R6, R7, HS⟩, Hg⟩, Ho, ⟨%d0, H0⟩, ⟨%d1, H1⟩, ⟨%d2, H2⟩, ⟨%d3, H3⟩, ⟨%d4, H4⟩⟩
    iapply (Body.k1_last c Set.univ (grid1.coords t) hp _ _ _ _ _ _ _ _ _ _ _ _ (iblk1 V c 0 t) (iblk1 V c 1 t) (iblk1 V c 2 t) (iblk1 V c 3 t) (acc1 V c (prev1 t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [R1 R2 R3 R4 R5 R6 R7 HS Hg]
    · isplitl [R1 R2 R3 R4 R5 R6 R7 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ Pipeline.ΦA spec1 c := by
  have hN : cfg1.N = 16 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  iintro ⟨⟨R1, R2, R3, R4, R5, R6, R7, HS⟩, Hg⟩
  isplitl [R1 R2 R3 R4 R5 R6 R7 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Region1

end Cert.KernelIdeal.Run

end
-- ==== Proof.KIRun.lean ====
/-
  The kernel program's run, whole: @main is nine segments — three stretches of host operations (the edge lists, the sparse
  convolution x1, the edge-count matrix A), the first grid (Â from A, read through two windows of the one array), three stretches
  (the degrees, dinv, v), the second grid (x2), and the last stretch (the scaling and the concatenation). The contents of every
  unscoped buffer at each of the ten boundaries are a fold from the launch memory; a grid changes only its output array, to what
  its write-backs leave. Every weakly fair execution terminates with every unscoped buffer at the last boundary's contents; no
  stretch and no grid writes an argument, so the arguments end as launched.
-/
import proofs.«124652_j14353780703440_1_alg».proof.Proof.KIDat0
import proofs.«124652_j14353780703440_1_alg».proof.Proof.KIDat1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The first grid's entry contents, read at the TensorCore's references. -/
abbrev V3 : (c : Dev nD) → (b : Ref sig .tc) → Buf (Elt F) ((c : Thread nD τ).loc b) := fun c b => W3 m ρ c b
/-- At the first grid's exit: Â's array at what the write-backs leave, every other buffer as entered. -/
def W4 (c : Dev nD) : Valuation τ sig (Elt F) :=
  Function.update (W3 m ρ c) (Proc.devRef .tc main_v80) ((dat0 (V3 m ρ) c).arrAt 2 cfg0.N)
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
/-- The second grid's entry contents. -/
abbrev V7 : (c : Dev nD) → (b : Ref sig .tc) → Buf (Elt F) ((c : Thread nD τ).loc b) := fun c b => W7 m ρ c b
/-- At the second grid's exit. -/
def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
abbrev W9 : Dev nD → Valuation τ sig (Elt F) := fun c => StableHlo.after hostOps2 (W8 m ρ c)

theorem W4_v80 (c : Dev nD) : W4 m ρ c (Proc.devRef .tc main_v80) = (dat0 (V3 m ρ) c).arrAt 2 cfg0.N := by
  unfold W4; exact Function.update_self ..
theorem W4_of_ne (c : Dev nD) (b : Ref sig .tc) (hb : b ≠ main_v80) : W4 m ρ c (Proc.devRef .tc b) = W3 m ρ c (Proc.devRef .tc b) := by
  unfold W4; exact Function.update_of_ne (StableHlo.devRef_ne_of_ne hb) ..
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references `hostOps0`'s operations write. -/
abbrev hostOps0_W : List (Ref sig .tc) := [main_v0, main_v1, main_v2, main_v3, main_v4, main_cst, main_v5, main_c, main_v6, main_v7, main_c_0, main_v8, main_v9, main_v10, main_v11, main_cst_1, main_v12, main_v13, main_cst_2, main_v14, main_v15, main_cst_3, main_v16, main_v17, main_v18, main_cst_4, main_v19, main_v20, main_cst_5]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_1`'s operations write. -/
abbrev hostOps0_1_W : List (Ref sig .tc) := [main_call0_v0, main_call0_v1, main_v21]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_2`'s operations write. -/
abbrev hostOps0_2_W : List (Ref sig .tc) := [main_c_6, main_v22, main_v23, main_c_7, main_v24, main_v25, main_v26, main_v27, main_v28, main_c_8, main_v29, main_v30, main_c_9, main_v31, main_v32, main_v33, main_v34, main_v35, main_v36, main_cst_10, main_v37, main_v38, main_c_11, main_v39, main_v40, main_c_12, main_v41, main_v42, main_v43, main_v44, main_v45, main_v46, main_v47, main_c_13, main_v48, main_v49, main_c_14, main_v50, main_v51, main_v52, main_v53, main_v54, main_v55, main_v56, main_v57, main_v58, main_v59, main_v60, main_v61, main_v62, main_cst_15, main_v63, main_c_16, main_v64, main_v65, main_c_17, main_v66, main_v67, main_v68, main_c_18, main_v69, main_v70, main_c_19, main_v71, main_v72, main_v73, main_v74, main_v75, main_v76, main_cst_20, main_v77, main_v78, main_v79]
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1`'s operations write. -/
abbrev hostOps1_W : List (Ref sig .tc) := [main_v81, main_cst_21, main_v82, main_cst_22, main_v83, main_v84, main_v85, main_cst_23, main_v86, main_v87, main_cst_24]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_1`'s operations write. -/
abbrev hostOps1_1_W : List (Ref sig .tc) := [main_call1_v0, main_call1_v1, main_v88]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_2`'s operations write. -/
abbrev hostOps1_2_W : List (Ref sig .tc) := [main_v89, main_v90, main_v91, main_v92, main_v93, main_v94, main_v95]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps2`'s operations write. -/
abbrev hostOps2_W : List (Ref sig .tc) := [main_cst_25, main_v97, main_v98, main_cst_26, main_v99, main_v100, main_v101]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What no stretch and no grid writes ends as launched -/

theorem W9_of_kept (c : Dev nD) (r : Ref sig .tc) (h0 : r ∉ hostOps0_W) (h01 : r ∉ hostOps0_1_W) (h02 : r ∉ hostOps0_2_W)
    (h80 : r ≠ main_v80) (h1 : r ∉ hostOps1_W) (h11 : r ∉ hostOps1_1_W) (h12 : r ∉ hostOps1_2_W)
    (harr : ∀ w, Pipeline.arrRef spec1 w ≠ r) (h2 : r ∉ hostOps2_W) :
    W9 m ρ c (Proc.devRef .tc r) = m ((c : Thread nD τ).loc r) :=
  calc W9 m ρ c (Proc.devRef .tc r)
    _ = W8 m ρ c (Proc.devRef .tc r) := StableHlo.after_of_writes_sub hostOps2 _ hostOps2_writes h2
    _ = W7 m ρ c (Proc.devRef .tc r) := W8_of_ne m ρ c r harr
    _ = W6 m ρ c (Proc.devRef .tc r) := StableHlo.after_of_writes_sub hostOps1_2 _ hostOps1_2_writes h12
    _ = W5 m ρ c (Proc.devRef .tc r) := StableHlo.after_of_writes_sub hostOps1_1 _ hostOps1_1_writes h11
    _ = W4 m ρ c (Proc.devRef .tc r) := StableHlo.after_of_writes_sub hostOps1 _ hostOps1_writes h1
    _ = W3 m ρ c (Proc.devRef .tc r) := W4_of_ne m ρ c r h80
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

theorem W9_main_arg0 (c : Dev nD) : W9 m ρ c (Proc.devRef .tc main_arg0) = m ((c : Thread nD τ).loc main_arg0) :=
  W9_of_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_of_kept m ρ c main_arg5 (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The first grid's arrays in and out of the unscoped buffers: A is read through two windows, half a share each -/

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v79) ↦{fullShare} V' main_v79) ∗ (((c : Thread nD τ).loc main_v80) ↦{fullShare} V' main_v80)) := by
  unfold Pipeline.arrBufs
  rw [bigSep_eq_bigSepL_of_eq [main_v79, main_v80] (by decide) (by decide)]
  rfl

theorem arrays0_eq (c : Dev nD) (V : (c : Dev nD) → (b : Ref sig .tc) → Buf (Elt F) ((c : Thread nD τ).loc b))
    (Fa : (w : Fin cfg0.W) → Buf (Elt F) ((cfg0.win w).arr.view.loc (c : Thread nD τ))) :
    ((dat0 V c).arrays Fa : sProp 𝕄)
      = iprop((((c : Thread nD τ).loc main_v79) ↦{fullShare.left} Fa 0) ∗ (((c : Thread nD τ).loc main_v79) ↦{fullShare.right} Fa 1)
          ∗ (((c : Thread nD τ).loc main_v80) ↦{fullShare} Fa 2)) := by
  unfold Dat.arrays
  rw [bigSep_W0, (arr_whole0 0).set_eq_univ]
  rw [(arr_whole0 2).set_eq_univ]
  rfl

theorem hrest0 (c : Dev nD) : ∀ b, b ∉ Finset.univ.image (Pipeline.arrRef spec0) → V4 m ρ c b = V3 m ρ c b :=
  fun b hb => W4_of_ne m ρ c b fun e => hb (Finset.mem_image.mpr ⟨2, Finset.mem_univ _, e.symm⟩)

theorem entry0 (c : Dev nD) :
    (unscopedBufs (Ix := Unit) (Name := ℕ) (U := UR sig nD τ) (Lvl := ℕ) c (V3 m ρ c) : sProp 𝕄)
      ⊢ iprop((dat0 (V3 m ρ) c).arrays ((dat0 (V3 m ρ) c).arrAt · 0) ∗ Pipeline.unscopedRest spec0 c (V3 m ρ c)) := by
  rw [Pipeline.unscopedBufs_split₀ cfgs 0 winFacts₀0.arr_unscoped c (V3 m ρ c)]
  show iprop((Pipeline.arrBufs (Ix := Unit) (Name := ℕ) (U := UR sig nD τ) (Lvl := ℕ) spec0 c (V3 m ρ c) : sProp 𝕄) ∗ Pipeline.unscopedRest spec0 c (V3 m ρ c)) ⊢ _
  rw [arrBufs0_eq, arrays0_eq]
  iintro ⟨⟨H79, H80⟩, Hrest⟩
  ihave H := (pointsTo_share (PosShare.mem_left_op_right fullShare)).1 $$ H79
  icases H with ⟨Hl, Hr⟩
  isplitr [Hrest]
  · isplitl [Hl]; · iexact Hl
    isplitl [Hr]; · iexact Hr
    iexact H80
  iexact Hrest

theorem exit0 (c : Dev nD) :
    iprop((dat0 (V3 m ρ) c).arrays ((dat0 (V3 m ρ) c).arrAt · cfg0.N) ∗ Pipeline.unscopedRest spec0 c (V3 m ρ c))
      ⊢ (unscopedBufs (Ix := Unit) (Name := ℕ) (U := UR sig nD τ) (Lvl := ℕ) c (V4 m ρ c) : sProp 𝕄) := by
  have e0 : (dat0 (V3 m ρ) c).arrAt 0 cfg0.N = V4 m ρ c main_v79 :=
    ((dat0 (V3 m ρ) c).arrAt_in 0 rfl _).trans ((A_eq0 (V3 m ρ) c 0).trans (W4_of_ne m ρ c main_v79 (by decide)).symm)
  have e1 : (dat0 (V3 m ρ) c).arrAt 1 cfg0.N = V4 m ρ c main_v79 :=
    ((dat0 (V3 m ρ) c).arrAt_in 1 rfl _).trans ((A_eq0 (V3 m ρ) c 1).trans (W4_of_ne m ρ c main_v79 (by decide)).symm)
  have e2 : (dat0 (V3 m ρ) c).arrAt 2 cfg0.N = V4 m ρ c main_v80 := (W4_v80 m ρ c).symm
  rw [Pipeline.unscopedBufs_split₀ cfgs 0 winFacts₀0.arr_unscoped c (V4 m ρ c)]
  show _ ⊢ iprop((Pipeline.arrBufs (Ix := Unit) (Name := ℕ) (U := UR sig nD τ) (Lvl := ℕ) spec0 c (V4 m ρ c) : sProp 𝕄) ∗ Pipeline.unscopedRest spec0 c (V4 m ρ c))
  rw [arrBufs0_eq, arrays0_eq]
  rw [show (Pipeline.unscopedRest (Ix := Unit) (Name := ℕ) (U := UR sig nD τ) (Lvl := ℕ) spec0 c (V4 m ρ c) : sProp 𝕄)
      = Pipeline.unscopedRest spec0 c (V3 m ρ c) from by
    unfold Pipeline.unscopedRest
    exact bigSep_congr fun b hb => by rw [hrest0 m ρ c b (Finset.mem_sdiff.mp hb).2]]
  dsimp only
  rw [e0, e1, e2]
  iintro ⟨⟨Hl, Hr, H80⟩, Hrest⟩
  isplitr [Hrest]
  · isplitr [H80]
    · iapply (pointsTo_share (PosShare.mem_left_op_right fullShare)).2
      isplitl [Hl]; · iexact Hl
      iexact Hr
    iexact H80
  iexact Hrest

/-! ## The grids as segments -/

set_option backward.isDefEq.respectTransparency.types false in
/-- Grid 0 as a segment over the thread state: entered from every unscoped buffer at its entry contents, left at its exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := exit0 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Grid 1 as a segment over the thread state: entered from every unscoped buffer at its entry contents, left at its exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V7 m ρ) c)
    unfold Pipeline.ΦA
    iintro ⟨Hp, -, Hr⟩
    isplitl [Hr]; · iexact Hr
    iexact Hp
  hout c := by
    rw [Pipeline.ownSems0_none]
    refine BIBase.Entails.trans (hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)) ]

set_option maxHeartbeats 40000000 in
theorem main_run (c : Dev nD) : main (F := F) c = Pipeline.Seg.run (segs m ρ) := (main_chain c).trans (by chain_rfl)

set_option backward.isDefEq.respectTransparency.types false in
set_option maxHeartbeats 40000000 in
/-- THE RUN: from any memory with zero counters every weakly fair execution of @main terminates, and every unscoped buffer of
    every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl, fun c => ?_⟩
      show iprop(StableHlo.held (c : Thread nD τ) (Pipeline.ucRefs τ sig) (W9 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The frame, and the result's buffer -/

/-- The frame: every weakly fair execution of @main terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

/-- The run with the result named: the result's buffer ends at the last boundary's contents, the arguments as launched. -/
theorem run_result : θ_run defs (onTc (τ := τ) (main (F := F))) ⟨m, fun _ => 0, ρ⟩ (fun r => ∀ c : Dev nD,
      r.2.mem ((c.tc : Thread nD τ).loc main_v101) = W9 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v101 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

end Cert.KernelIdeal.Run

end
-- ==== Proof.KIHost.lean ====
/- The kernel program's host stretches, read back as pure operation terms.

   Between its two grids the kernel program runs plain host operations: first the sparse
   convolution x1 and the edge-count matrix A (narrowed to bf16 for the first grid); then, from the
   first grid's output Â, the column sums, dinv = [deg > 0] / sqrt deg, and v = dinv ⊙ (x · W2)
   narrowed to bf16, with the column dinv and the bias row laid out for the second grid; last the
   scaling 0.99 · x1, 0.01 · x2 and the concatenation.  Each stretch is a fold of one function per
   operation over the buffers' contents, so what a buffer holds afterwards is a term over the
   contents the stretch started from.  Below, for arbitrary starting contents `W`, each buffer the
   grids or the result read is computed as such a term, and the term is identified with the
   corresponding piece of the reference's result: x1 and A are the reference's own operation
   sequences, dinv is the reference's dinv of the widened array, and the last stretch is the
   reference's scaled concatenation.  The two programs name their shapes and dimension records
   separately; the names have equal values, so the identifications hold by unfolding. -/
import proofs.«124652_j14353780703440_1_alg».proof.Proof.Gen.KernelIdeal.Launch
import Idealize.ShloMosaic.Lib.StableHlo.Run
import proofs.«124652_j14353780703440_1_alg».proof.Proof.RefPieces

noncomputable section

namespace Cert.KernelIdeal.HostRead

open Idealize.ShloMosaic Idealize.ShloMosaic.TcCoe Idealize.SL.Sem
open Cert.KernelIdeal Cert.KernelIdeal.Gen

variable {F : FTy → Type} [FloatOps F]

/-! ## The last stretch: the scaled concatenation -/

/-- After the last stretch the result buffer holds 0.99 · (the sparse convolution's buffer) beside
   0.01 · (the second grid's output), whatever the buffers held before. -/
theorem hostOps2_v101 (W : Valuation τ sig (Elt F)) :
    StableHlo.after hostOps2 W (Proc.devRef .tc main_v101)
      = concatenate S8192x256 1
          [⟨S8192x128, mulf (broadcastInDim S8192x128 ![] bcast_S_S8192x128 (constant S_ .f32 0x3F7D70A4#32))
              (W (Proc.devRef .tc main_v62))⟩,
           ⟨S8192x128, mulf (broadcastInDim S8192x128 ![] bcast_S_S8192x128 (constant S_ .f32 0x3C23D70A#32))
              (W (Proc.devRef .tc main_v96))⟩]
          concatenates_S8192x128_S8192x128_S8192x256_d1 := by
  after_results_simp <;> rfl

/-- That term is the reference's last piece of the same two operands. -/
theorem hostOps2_v101_eq_ResR (W : Valuation τ sig (Elt F)) :
    StableHlo.after hostOps2 W (Proc.devRef .tc main_v101)
      = Cert.ReferenceIdeal.Pieces.ResR (F := F) (W (Proc.devRef .tc main_v62)) (W (Proc.devRef .tc main_v96)) := by
  rw [hostOps2_v101]
  rfl

/-! ## The middle stretches: the degrees, dinv, and the scaled dense product v -/

/-- dinv of a bf16 array Â as the kernel program computes it: widen to f32, sum each column, and
   where the sum is positive take one over its square root, zero elsewhere. -/
def dinvK (Ab : (⟨S8192x8192, .bf16⟩ : BufTy).Contents (Elt F)) : (⟨S8192, .f32⟩ : BufTy).Contents (Elt F) :=
  select
    (cmpf (F := F) .ogt
      (Host.reduceAdd (extf .f32 Ab bitsLt_bf16_f32) (constant S_ .f32 0x00000000#32) reducesTo_S8192x8192_S8192_d0 h_S_)
      (broadcastInDim S8192 ![] bcast_S_S8192 (constant S_ .f32 0x00000000#32)))
    (Host.divf (broadcastInDim S8192 ![] bcast_S_S8192 (constant S_ .f32 0x3F800000#32))
      (Host.sqrt
        (Host.reduceAdd (extf .f32 Ab bitsLt_bf16_f32) (constant S_ .f32 0x00000000#32) reducesTo_S8192x8192_S8192_d0 h_S_)))
    (broadcastInDim S8192 ![] bcast_S_S8192 (id (constant S_ .f32 0x00000000#32)))

/-- It is the reference's dinv of the widened array. -/
theorem dinvK_eq_DinvR (Ab : (⟨S8192x8192, .bf16⟩ : BufTy).Contents (Elt F)) :
    dinvK Ab = Cert.ReferenceIdeal.Pieces.DinvR (F := F) (extf .f32 Ab bitsLt_bf16_f32) := rfl

/-- The buffers after the three middle stretches, from contents `W`. -/
abbrev afterMid (W : Valuation τ sig (Elt F)) : Valuation τ sig (Elt F) :=
  StableHlo.after hostOps1_2 (StableHlo.after hostOps1_1 (StableHlo.after hostOps1 W))

/-- The middle stretches leave Â's array as it was. -/
theorem afterMid_v80 (W : Valuation τ sig (Elt F)) :
    afterMid W (Proc.devRef .tc main_v80) = W (Proc.devRef .tc main_v80) := by
  after_results_simp <;> rfl

/-- The column dinv the second grid reads. -/
theorem afterMid_v94 (W : Valuation τ sig (Elt F)) :
    afterMid W (Proc.devRef .tc main_v94)
      = broadcastInDim S8192x1 ![0] bcast_S8192_S8192x1_0 (dinvK (W (Proc.devRef .tc main_v80))) := by
  after_results_simp <;> rfl

/-- The bias row the second grid reads. -/
theorem afterMid_v95 (W : Valuation τ sig (Elt F)) :
    afterMid W (Proc.devRef .tc main_v95)
      = broadcastInDim S1x128 ![1] bcast_S128_S1x128_1 (W (Proc.devRef .tc main_arg5)) := by
  after_results_simp <;> rfl

/-- v = dinv ⊙ (x · W2), narrowed to bf16, which the second grid reads. -/
theorem afterMid_v93 (W : Valuation τ sig (Elt F)) :
    afterMid W (Proc.devRef .tc main_v93)
      = truncf .bf16
          (mulf
            (broadcastInDim S8192x128 ![0, 1] bcast_S8192x1_S8192x128_0_1
              (broadcastInDim S8192x1 ![0] bcast_S8192_S8192x1_0 (dinvK (W (Proc.devRef .tc main_v80)))))
            (Host.dotGeneral dot_S8192x512_S512x128_S8192x128_1_0_0_1_n_n none
              (W (Proc.devRef .tc main_arg0)) (W (Proc.devRef .tc main_arg4))))
          bitsLt_bf16_f32 := by
  after_results_simp <;> rfl

/-! ## The first stretches: the sparse convolution x1 and the edge-count matrix A -/

/-- The buffers after the three first stretches, from contents `W`. -/
abbrev afterFirst (W : Valuation τ sig (Elt F)) : Valuation τ sig (Elt F) :=
  StableHlo.after hostOps0_2 (StableHlo.after hostOps0_1 (StableHlo.after hostOps0 W))

set_option maxRecDepth 65536 in
set_option maxHeartbeats 4000000 in
/-- The sparse convolution's buffer holds the reference's x1 of the four arguments. -/
theorem afterFirst_v62 (W : Valuation τ sig (Elt F)) :
    afterFirst W (Proc.devRef .tc main_v62)
      = Cert.ReferenceIdeal.Pieces.X1R (F := F) (W (Proc.devRef .tc main_arg0)) (W (Proc.devRef .tc main_arg1))
          (W (Proc.devRef .tc main_arg2)) (W (Proc.devRef .tc main_arg3)) := by
  after_results_simp
  unfold Cert.ReferenceIdeal.Pieces.X1R
  rfl

set_option maxRecDepth 65536 in
set_option maxHeartbeats 4000000 in
/-- The first grid's input holds the reference's edge-count matrix A, narrowed to bf16. -/
theorem afterFirst_v79 (W : Valuation τ sig (Elt F)) :
    afterFirst W (Proc.devRef .tc main_v79)
      = truncf .bf16 (Cert.ReferenceIdeal.Pieces.AR (F := F) (W (Proc.devRef .tc main_arg1))) bitsLt_bf16_f32 := by
  after_results_simp
  unfold Cert.ReferenceIdeal.Pieces.AR
  rfl

/-! ## What the stretches leave alone -/

/-- The middle stretches do not write the sparse convolution's buffer. -/
theorem afterMid_v62 (W : Valuation τ sig (Elt F)) :
    afterMid W (Proc.devRef .tc main_v62) = W (Proc.devRef .tc main_v62) := by
  after_results_simp <;> rfl

/-- Nor the arguments the later segments read. -/
theorem afterMid_arg0 (W : Valuation τ sig (Elt F)) :
    afterMid W (Proc.devRef .tc main_arg0) = W (Proc.devRef .tc main_arg0) := by
  after_results_simp <;> rfl
theorem afterMid_arg4 (W : Valuation τ sig (Elt F)) :
    afterMid W (Proc.devRef .tc main_arg4) = W (Proc.devRef .tc main_arg4) := by
  after_results_simp <;> rfl
theorem afterMid_arg5 (W : Valuation τ sig (Elt F)) :
    afterMid W (Proc.devRef .tc main_arg5) = W (Proc.devRef .tc main_arg5) := by
  after_results_simp <;> rfl

/-- The first stretches write no argument. -/
theorem afterFirst_arg0 (W : Valuation τ sig (Elt F)) :
    afterFirst W (Proc.devRef .tc main_arg0) = W (Proc.devRef .tc main_arg0) := by
  after_results_simp <;> rfl
theorem afterFirst_arg1 (W : Valuation τ sig (Elt F)) :
    afterFirst W (Proc.devRef .tc main_arg1) = W (Proc.devRef .tc main_arg1) := by
  after_results_simp <;> rfl
theorem afterFirst_arg2 (W : Valuation τ sig (Elt F)) :
    afterFirst W (Proc.devRef .tc main_arg2) = W (Proc.devRef .tc main_arg2) := by
  after_results_simp <;> rfl
theorem afterFirst_arg3 (W : Valuation τ sig (Elt F)) :
    afterFirst W (Proc.devRef .tc main_arg3) = W (Proc.devRef .tc main_arg3) := by
  after_results_simp <;> rfl
theorem afterFirst_arg4 (W : Valuation τ sig (Elt F)) :
    afterFirst W (Proc.devRef .tc main_arg4) = W (Proc.devRef .tc main_arg4) := by
  after_results_simp <;> rfl
theorem afterFirst_arg5 (W : Valuation τ sig (Elt F)) :
    afterFirst W (Proc.devRef .tc main_arg5) = W (Proc.devRef .tc main_arg5) := by
  after_results_simp <;> rfl

end Cert.KernelIdeal.HostRead
-- ==== Proof.KIPay.lean ====
/- The arithmetic of the two kernels' bodies, read at one index, at the ideal values.

   Each payload below is a pure function of the blocks the body has loaded.  At the ideal values
   floats are extended reals, a format change is the identity, and a matmul is the exact sum of
   products over its contraction index, so each payload at an index (p, q) is a closed expression in
   the operands' entries:

   * the reset payloads are the constant 0;
   * the first kernel's accumulation step adds, to the accumulator's entry, the inner product of row
     p of the left block with column q of the right block (4096 terms);
   * the first kernel's final step writes [acc > 0] + [row id = column id], the ids being
     (block row) * 512 + p and (block column) * 512 + q, computed on 32-bit words that cannot wrap
     because the block coordinates are below 16 and p, q below 512;
   * the second kernel's accumulation step contracts the FIRST axis of both operands, so it adds the
     inner product of column r of the left block with column d of the right block;
   * the second kernel's final step scales the accumulator's row r by the column vector's entry r
     and adds the row vector's entry d. -/
import proofs.«124652_j14353780703440_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayAt

open Idealize.ShloMosaic Idealize.ShloMosaic.ValueIdx Cert.KernelIdeal Cert.KernelIdeal.Gen

/-! ## The reset payloads: the zero splat -/

/-- The first kernel's reset value is 0 at every index. -/
theorem k0_pay1_apply (j : S512x512.Idx) : Gen.k0_pay1 (F := Ideal) j = 0 :=
  Ideal.ofBits_zero_f32

/-- The second kernel's reset value is 0 at every index. -/
theorem k1_pay1_apply (j : S1024x128.Idx) : Gen.k1_pay1 (F := Ideal) j = 0 :=
  Ideal.ofBits_zero_f32

/-! ## The two contractions -/

/-- The first kernel's contraction: [512, 4096] times [4096, 512], over the left operand's second
   axis and the right operand's first. -/
abbrev D0 : DotDims S512x4096 S4096x512 S512x512 := dot_S512x4096_S4096x512_S512x512_1_0_0_1_n_n

/-- The second kernel's contraction: [4096, 1024] and [4096, 128] contracted over the FIRST axis of
   both, so the result's row index is the left operand's second coordinate. -/
abbrev D1 : DotDims S4096x1024 S4096x128 S1024x128 := dot_S4096x1024_S4096x128_S1024x128_0_0_1_1_n_n

/-! ### The operand indices of the two contractions, coordinate by coordinate -/

theorem D0_lhs_0 (i : S512x512.Idx) (c : D0.contr.Idx) : (D0.lhsIdx i c 0).val = (i 0).val := by
  unfold DotDims.lhsIdx
  rw [dif_neg (show ¬(0 : Fin S512x4096.rank) ∈ D0.lhsBatch by decide),
    dif_pos (show (0 : Fin S512x4096.rank) ∈ D0.lhsNonContracting by decide)]
  rfl
theorem D0_lhs_1 (i : S512x512.Idx) (c : D0.contr.Idx) : (D0.lhsIdx i c 1).val = (c ⟨0, by decide⟩).val :=
  D0.lhsIdx_val_of_single rfl i c
theorem D0_rhs_0 (i : S512x512.Idx) (c : D0.contr.Idx) : (D0.rhsIdx i c 0).val = (c ⟨0, by decide⟩).val :=
  D0.rhsIdx_val_of_single rfl i c
theorem D0_rhs_1 (i : S512x512.Idx) (c : D0.contr.Idx) : (D0.rhsIdx i c 1).val = (i 1).val := by
  unfold DotDims.rhsIdx
  rw [dif_neg (show ¬(1 : Fin S4096x512.rank) ∈ D0.rhsBatch by decide),
    dif_pos (show (1 : Fin S4096x512.rank) ∈ D0.rhsNonContracting by decide)]
  rfl

theorem D1_lhs_0 (i : S1024x128.Idx) (c : D1.contr.Idx) : (D1.lhsIdx i c 0).val = (c ⟨0, by decide⟩).val :=
  D1.lhsIdx_val_of_single rfl i c
theorem D1_lhs_1 (i : S1024x128.Idx) (c : D1.contr.Idx) : (D1.lhsIdx i c 1).val = (i 0).val := by
  unfold DotDims.lhsIdx
  rw [dif_neg (show ¬(1 : Fin S4096x1024.rank) ∈ D1.lhsBatch by decide),
    dif_pos (show (1 : Fin S4096x1024.rank) ∈ D1.lhsNonContracting by decide)]
  rfl
theorem D1_rhs_0 (i : S1024x128.Idx) (c : D1.contr.Idx) : (D1.rhsIdx i c 0).val = (c ⟨0, by decide⟩).val :=
  D1.rhsIdx_val_of_single rfl i c
theorem D1_rhs_1 (i : S1024x128.Idx) (c : D1.contr.Idx) : (D1.rhsIdx i c 1).val = (i 1).val := by
  unfold DotDims.rhsIdx
  rw [dif_neg (show ¬(1 : Fin S4096x128.rank) ∈ D1.rhsBatch by decide),
    dif_pos (show (1 : Fin S4096x128.rank) ∈ D1.rhsNonContracting by decide)]
  rfl

/-! ## The accumulation steps: accumulator plus an inner product -/

theorem k0_pay2_apply (s : Vec Ideal S512x512 .f32) (x3 : Vec Ideal S512x4096 .bf16) (x4 : Vec Ideal S4096x512 .bf16) (p q : Fin 512) :
    Gen.k0_pay2 (F := Ideal) s x3 x4 (ix2 p q) = s (ix2 p q) + ∑ k : Fin 4096, x3 (ix2 p k) * x4 (ix2 k q) := by
  unfold Gen.k0_pay2
  rw [shapeCast_self, shapeCast_self, shapeCast_self, addf_apply]
  refine congrArg (s (ix2 p q) + ·) ?_
  refine (Ideal.matmul_constant_zero_apply (φ₁ := .bf16) (φ₂ := .bf16) D0 none x3 x4 (ix2 p q)).trans ?_
  rw [← Equiv.sum_comp (contrEquiv1 D0 4096 rfl rfl).symm]
  refine Finset.sum_congr rfl fun k _ => ?_
  have hk := contrEquiv1_symm_val D0 4096 rfl rfl k
  have el : D0.lhsIdx (ix2 p q) ((contrEquiv1 D0 4096 rfl rfl).symm k) = ix2 p k :=
    funext fun a => Fin.ext (by
      match a with
      | ⟨0, _⟩ => exact D0_lhs_0 _ _
      | ⟨1, _⟩ => exact (D0_lhs_1 _ _).trans hk)
  have er : D0.rhsIdx (ix2 p q) ((contrEquiv1 D0 4096 rfl rfl).symm k) = ix2 k q :=
    funext fun a => Fin.ext (by
      match a with
      | ⟨0, _⟩ => exact (D0_rhs_0 _ _).trans hk
      | ⟨1, _⟩ => exact D0_rhs_1 _ _)
  rw [el, er]

theorem k1_pay2_apply (s : Vec Ideal S1024x128 .f32) (x2 : Vec Ideal S4096x1024 .bf16) (x3 : Vec Ideal S4096x128 .bf16) (r : Fin 1024) (d : Fin 128) :
    Gen.k1_pay2 (F := Ideal) s x2 x3 (ix2 r d) = s (ix2 r d) + ∑ p : Fin 4096, x2 (ix2 p r) * x3 (ix2 p d) := by
  unfold Gen.k1_pay2
  rw [shapeCast_self, shapeCast_self, shapeCast_self, addf_apply]
  refine congrArg (s (ix2 r d) + ·) ?_
  refine (Ideal.matmul_constant_zero_apply (φ₁ := .bf16) (φ₂ := .bf16) D1 none x2 x3 (ix2 r d)).trans ?_
  rw [← Equiv.sum_comp (contrEquiv1 D1 4096 rfl rfl).symm]
  refine Finset.sum_congr rfl fun k _ => ?_
  have hk := contrEquiv1_symm_val D1 4096 rfl rfl k
  have el : D1.lhsIdx (ix2 r d) ((contrEquiv1 D1 4096 rfl rfl).symm k) = ix2 k r :=
    funext fun a => Fin.ext (by
      match a with
      | ⟨0, _⟩ => exact (D1_lhs_0 _ _).trans hk
      | ⟨1, _⟩ => exact D1_lhs_1 _ _)
  have er : D1.rhsIdx (ix2 r d) ((contrEquiv1 D1 4096 rfl rfl).symm k) = ix2 k d :=
    funext fun a => Fin.ext (by
      match a with
      | ⟨0, _⟩ => exact (D1_rhs_0 _ _).trans hk
      | ⟨1, _⟩ => exact D1_rhs_1 _ _)
  rw [el, er]

/-! ## The second kernel's final step: scale by the column vector, add the row vector -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k1_pay3_apply (x4 : Vec Ideal S1024x1 .f32) (a : Vec Ideal S1024x128 .f32) (x5 : Vec Ideal S1x128 .f32) (r : Fin 1024) (d : Fin 128) :
    Gen.k1_pay3 (F := Ideal) x4 a x5 (ix2 r d) = x4 (ix2 r 0) * a (ix2 r d) + x5 (ix2 0 d) := by
  unfold Gen.k1_pay3
  rw [shapeCast_self, shapeCast_self, addf_apply, mulf_apply, broadcastTo_1b_ab_apply, broadcastTo_a1_ab_apply]

/-! ## The first kernel's final step: two indicators -/

/-- A one-bit word widened to 32 bits and read as a signed integer, as an extended real: one for a
   set bit, zero for a clear one. -/
theorem sitofp_extui_ofBool (b : Bool) :
    FloatOps.sitofp (F := Ideal) .f32 ((BitVec.ofBool b).setWidth 32) = if b then (1 : EReal) else 0 := by
  cases b
  · show ((((BitVec.ofBool false).setWidth 32).toInt : ℝ) : EReal) = _
    rw [show ((BitVec.ofBool false).setWidth 32).toInt = 0 by decide]
    simp
  · show ((((BitVec.ofBool true).setWidth 32).toInt : ℝ) : EReal) = _
    rw [show ((BitVec.ofBool true).setWidth 32).toInt = 1 by decide]
    simp

/-- Two 32-bit words `g * 512 + p` with `g < 16` and `p < 512` do not wrap: they are equal exactly
   when the natural numbers are. -/
theorem word_eq_iff (g g' p q : ℕ) (hg : g < 16) (hg' : g' < 16) (hp : p < 512) (hq : q < 512) :
    (BitVec.ofNat 32 g * 512#32 + BitVec.ofNat 32 p = BitVec.ofNat 32 g' * 512#32 + BitVec.ofNat 32 q)
      ↔ g * 512 + p = g' * 512 + q := by
  rw [← BitVec.toNat_inj]
  simp only [BitVec.toNat_add, BitVec.toNat_mul, BitVec.toNat_ofNat]
  omega

theorem k0_pay3_apply (i : grid0.Coords) (a : Vec Ideal S512x512 .f32) (p q : Fin 512) :
    Gen.k0_pay3 (F := Ideal) i a (ix2 p q) = (if 0 < a (ix2 p q) then (1 : EReal) else 0)
      + (if (i 0).val * 512 + p.val = (i 1).val * 512 + q.val then (1 : EReal) else 0) := by
  have h0 : (i 0).val < 16 := (i 0).isLt
  have h1 : (i 1).val < 16 := (i 1).isLt
  unfold Gen.k0_pay3
  rw [truncf_apply, addf_apply, sitofp_apply, sitofp_apply, extui_apply, extui_apply, cmpf_apply, broadcast_apply]
  show FloatOps.sitofp (F := Ideal) .f32 ((Ideal.cmp .ogt (a (ix2 p q)) (Ideal.ofBits .f32 0x00000000#32)).setWidth 32)
      + FloatOps.sitofp (F := Ideal) .f32
        ((BitVec.ofBool
          (BitVec.ofNat 32 (i 0).val * 512#32 + iota Kind.tc S512x512 32 [0] iota_S512x512_d0_w32 (ix2 p q)
            == BitVec.ofNat 32 (i 1).val * 512#32 + iota Kind.tc S512x512 32 [1] iota_S512x512_d1_w32 (ix2 p q))).setWidth 32) = _
  rw [iota_single_apply, iota_single_apply, Ideal.ofBits_zero_f32]
  show FloatOps.sitofp (F := Ideal) .f32 ((BitVec.ofBool (decide (0 < a (ix2 p q)))).setWidth 32)
      + FloatOps.sitofp (F := Ideal) .f32
        ((BitVec.ofBool
          (BitVec.ofNat 32 (i 0).val * 512#32 + BitVec.ofNat 32 p.val
            == BitVec.ofNat 32 (i 1).val * 512#32 + BitVec.ofNat 32 q.val)).setWidth 32) = _
  rw [sitofp_extui_ofBool, sitofp_extui_ofBool]
  congr 1
  · by_cases h : 0 < a (ix2 p q) <;> simp [h]
  · by_cases h : (i 0).val * 512 + p.val = (i 1).val * 512 + q.val
    · rw [if_pos h, if_pos]
      exact beq_iff_eq.mpr ((word_eq_iff _ _ _ _ h0 h1 p.isLt q.isLt).mpr h)
    · rw [if_neg h, if_neg]
      exact fun hb => h ((word_eq_iff _ _ _ _ h0 h1 p.isLt q.isLt).mp (beq_iff_eq.mp hb))

end Cert.KernelIdeal.PayAt
-- ==== Proof.KIVal0.lean ====
/-
  The first grid, from blocks to the array. The grid has 16 × 16 × 2 points; point t = (i·16 + j)·2 + k works on block (i, j)
  of the output, a 512 × 512 tile of an 8192 × 8192 array, and at its two points k = 0, 1 multiplies rows i·512 … of A, columns
  k·4096 …, with rows k·4096 … of A, columns j·512 …. The tile is written back at k = 1 only, and the 256 tiles cover the array.
  So the output array ends holding ONE function of A, index by index: at (r, q), with i = r / 512, j = q / 512, the final
  payload of block (i, j) at (r mod 512, q mod 512).
-/
import proofs.«124652_j14353780703440_1_alg».proof.Proof.KIDat0
import proofs.«124652_j14353780703440_1_alg».proof.Proof.KIPay
import Idealize.ShloMosaic.Lib.Pipeline.Value
import Idealize.ShloMosaic.Lib.ValueIdx

set_option maxRecDepth 16384

noncomputable section

namespace Cert.KernelIdeal.Run

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-! ## Rows, tiles and points -/

/-- Row (or column) p of tile i of an axis of 8192 cut into 16 tiles of 512. -/
def gIdx (i : Fin 16) (p : Fin 512) : Fin 8192 := ⟨i.val * 512 + p.val, by have := i.isLt; have := p.isLt; omega⟩
/-- The tile a row is in. -/
def blkOf (r : Fin 8192) : Fin 16 := ⟨r.val / 512, by have := r.isLt; omega⟩
/-- The row's place inside its tile. -/
def inBlk (r : Fin 8192) : Fin 512 := ⟨r.val % 512, by omega⟩

theorem blkOf_gIdx (i : Fin 16) (p : Fin 512) : blkOf (gIdx i p) = i :=
  Fin.ext (by show (i.val * 512 + p.val) / 512 = i.val; have := p.isLt; omega)
theorem inBlk_gIdx (i : Fin 16) (p : Fin 512) : inBlk (gIdx i p) = p :=
  Fin.ext (by show (i.val * 512 + p.val) % 512 = p.val; have := p.isLt; omega)
theorem gIdx_blkOf_inBlk (r : Fin 8192) : gIdx (blkOf r) (inBlk r) = r :=
  Fin.ext (by show r.val / 512 * 512 + r.val % 512 = r.val; omega)

/-- The second point of the pair of points that work on tile (i, j): the one that writes it back. -/
def pt0 (i j : Fin 16) : Fin cfg0.N :=
  ⟨(i.val * 16 + j.val) * 2 + 1, by have := i.isLt; have := j.isLt; have hN : grid0.N = 512 := N_0; show _ < grid0.N; omega⟩

/-- Rows i·512 … and columns k·4096 … of an 8192 × 8192 array, as a 512 × 4096 block. -/
def rowBlk (A : Vec F S8192x8192 .bf16) (i : Fin 16) (k : Fin 2) : Vec F S512x4096 .bf16 := fun y =>
  A (ix2 (⟨i.val * 512 + (y 0).val, by have := i.isLt; have := idx2_lt0 y; omega⟩ : Fin 8192)
    (⟨k.val * 4096 + (y 1).val, by have := k.isLt; have := idx2_lt1 y; omega⟩ : Fin 8192))

/-- Rows k·4096 … and columns j·512 … of an 8192 × 8192 array, as a 4096 × 512 block. -/
def colBlk (A : Vec F S8192x8192 .bf16) (k : Fin 2) (j : Fin 16) : Vec F S4096x512 .bf16 := fun y =>
  A (ix2 (⟨k.val * 4096 + (y 0).val, by have := k.isLt; have := idx2_lt0 y; omega⟩ : Fin 8192)
    (⟨j.val * 512 + (y 1).val, by have := j.isLt; have := idx2_lt1 y; omega⟩ : Fin 8192))

/-- Tile (i, j) of the output: the two products accumulated from zero, compared with zero, plus the diagonal of the tile's place. -/
def Ahat0Blk (A : Vec F S8192x8192 .bf16) (i j : Fin 16) : Vec F S512x512 .bf16 :=
  k0_pay3 (grid0.coords (pt0 i j))
    (k0_pay2 (k0_pay2 (k0_pay1 (F := F)) (rowBlk A i 0) (colBlk A 0 j)) (rowBlk A i 1) (colBlk A 1 j))

/-- THE OUTPUT ARRAY as one function of A: at (r, q) the tile (r / 512, q / 512) at (r mod 512, q mod 512). -/
def Ahat0 (A : Vec F S8192x8192 .bf16) : Vec F S8192x8192 .bf16 := fun x =>
  Ahat0Blk A (blkOf (x 0)) (blkOf (x 1)) (ix2 (inBlk (x 0)) (inBlk (x 1)))

theorem Ahat0_at (A : Vec F S8192x8192 .bf16) (i j : Fin 16) (p q : Fin 512) :
    Ahat0 A (ix2 (gIdx i p) (gIdx j q)) = Ahat0Blk A i j (ix2 p q) := by
  show Ahat0Blk A (blkOf (gIdx i p)) (blkOf (gIdx j q)) (ix2 (inBlk (gIdx i p)) (inBlk (gIdx j q))) = _
  rw [blkOf_gIdx, blkOf_gIdx, inBlk_gIdx, inBlk_gIdx]

/-! ## The printed index maps, decided over the grid -/

/-- At point t = (i·16 + j)·2 + k: the rows' window sits at block (i, k), the columns' at (k, j), the output's at (i, j). -/
theorem idx0 : ∀ t : Fin cfg0.N,
    win0_0.index t (0 : Fin 2) = t.val / 32 ∧ win0_0.index t (1 : Fin 2) = t.val % 2
    ∧ win0_1.index t (0 : Fin 2) = t.val % 2 ∧ win0_1.index t (1 : Fin 2) = t.val / 2 % 16
    ∧ win0_2.index t (0 : Fin 2) = t.val / 32 ∧ win0_2.index t (1 : Fin 2) = t.val / 2 % 16 :=
  (by decide +kernel : ∀ t : Fin grid0.N, _)

section Blocks

variable (V : (c : Dev nD) → (b : Ref sig .tc) → Buf (Elt F) ((c : Thread nD τ).loc b))

/-- The rows' window at a point reads its block of A. -/
theorem iblk0_0_at (c : Dev nD) (t : Fin cfg0.N) (i : Fin 16) (k : Fin 2) (hi : i.val = t.val / 32) (hk : k.val = t.val % 2) :
    (iblk0 V c 0 t : Vec F S512x4096 .bf16) = rowBlk (V c main_v79) i k := by
  obtain ⟨e0, e1, -, -, -, -⟩ := idx0 t
  funext y
  show V c main_v79 (((cfg0.win 0).blk t).view.emb y) = V c main_v79 _
  refine congrArg (V c main_v79) ?_
  funext a; apply Fin.ext
  match a with
  | ⟨0, _⟩ => show win0_0.index t (0 : Fin 2) * 512 + 1 * (y 0).val = i.val * 512 + (y 0).val; rw [e0, hi]; omega
  | ⟨1, _⟩ => show win0_0.index t (1 : Fin 2) * 4096 + 1 * (y 1).val = k.val * 4096 + (y 1).val; rw [e1, hk]; omega

/-- The columns' window at a point reads its block of A. -/
theorem iblk0_1_at (c : Dev nD) (t : Fin cfg0.N) (k : Fin 2) (j : Fin 16) (hk : k.val = t.val % 2) (hj : j.val = t.val / 2 % 16) :
    (iblk0 V c 1 t : Vec F S4096x512 .bf16) = colBlk (V c main_v79) k j := by
  obtain ⟨-, -, e0, e1, -, -⟩ := idx0 t
  funext y
  show V c main_v79 (((cfg0.win 1).blk t).view.emb y) = V c main_v79 _
  refine congrArg (V c main_v79) ?_
  funext a; apply Fin.ext
  match a with
  | ⟨0, _⟩ => show win0_1.index t (0 : Fin 2) * 4096 + 1 * (y 0).val = k.val * 4096 + (y 0).val; rw [e0, hk]; omega
  | ⟨1, _⟩ => show win0_1.index t (1 : Fin 2) * 512 + 1 * (y 1).val = j.val * 512 + (y 1).val; rw [e1, hj]; omega

theorem k0_pay2_congr {s s' : Vec F S512x512 .f32} {a a' : Vec F S512x4096 .bf16} {b b' : Vec F S4096x512 .bf16}
    (hs : s = s') (ha : a = a') (hb : b = b') : k0_pay2 s a b = k0_pay2 s' a' b' := by subst hs ha hb; rfl

/-- What the output's buffer holds after the second point of a pair: the tile of the point's place. -/
theorem out0_odd (c : Dev nD) (t : Fin cfg0.N) (h : t.val % 2 = 1) (i j : Fin 16) (hi : i.val = t.val / 32) (hj : j.val = t.val / 2 % 16) :
    out0 V c t = Ahat0Blk (V c main_v79) i j := by
  have hN : grid0.N = 512 := N_0
  have htl : t.val < 512 := hN ▸ t.isLt
  have ht : pt0 i j = t := Fin.ext (by show (i.val * 16 + j.val) * 2 + 1 = t.val; omega)
  have hp : (prev0 t).val = t.val - 1 := rfl
  unfold out0 Ahat0Blk
  rw [ht]
  refine congrArg (k0_pay3 (grid0.coords t)) ?_
  unfold acc0
  rw [if_neg (by omega)]
  exact k0_pay2_congr
    (k0_pay2_congr rfl (iblk0_0_at V c (prev0 t) i 0 (by rw [hp, hi]; omega) (by rw [hp]; show 0 = _; omega))
      (iblk0_1_at V c (prev0 t) 0 j (by rw [hp]; show 0 = _; omega) (by rw [hp, hj]; omega)))
    (iblk0_0_at V c t i 1 hi (by show 1 = _; omega)) (iblk0_1_at V c t 1 j (by show 1 = _; omega) hj)

/-! ## From the tiles to the array -/

/-- WHAT POINT t WRITES BACK is block t of Ahat0 of A as the region finds it. -/
theorem flushed0_eq (c : Dev nD) (t : Fin cfg0.N) (hf : (cfg0.win 2).flush t = true) :
    (dat0 V c).flushed 2 t = ((cfg0.win 2).blk t).view.read (Elt F) (Ahat0 (V c main_v79)) := by
  have hodd : t.val % 2 = 1 := (flush0_2 t).mp hf
  have hN : grid0.N = 512 := N_0
  have htl : t.val < 512 := hN ▸ t.isLt
  obtain ⟨-, -, -, -, e0, e1⟩ := idx0 t
  show (cfg0.win 2).cut (grid0.coords t) ((dat0 V c).after 2 t) = _
  rw [after0_2]
  funext y
  have hy0 : (y 0).val < 512 := (y 0).isLt
  have hy1 : (y 1).val < 512 := (y 1).isLt
  let i : Fin 16 := ⟨t.val / 32, by omega⟩
  let j : Fin 16 := ⟨t.val / 2 % 16, by omega⟩
  let p : Fin 512 := ⟨(y 0).val, hy0⟩
  let q : Fin 512 := ⟨(y 1).val, hy1⟩
  rw [out0_odd V c t hodd i j rfl rfl]
  show Ahat0Blk (V c main_v79) i j _ = Ahat0 (V c main_v79) (((cfg0.win 2).blk t).view.emb y)
  have hemb : ((cfg0.win 2).blk t).view.emb y = ix2 (gIdx i p) (gIdx j q) := by
    funext a; apply Fin.ext
    match a with
    | ⟨0, _⟩ => show win0_2.index t (0 : Fin 2) * 512 + 1 * (y 0).val = t.val / 32 * 512 + (y 0).val; rw [e0]; omega
    | ⟨1, _⟩ => show win0_2.index t (1 : Fin 2) * 512 + 1 * (y 1).val = t.val / 2 % 16 * 512 + (y 1).val; rw [e1]; omega
  rw [hemb, Ahat0_at]
  refine congrArg (Ahat0Blk (V c main_v79) i j) ?_
  funext a
  match a with
  | ⟨0, _⟩ => rfl
  | ⟨1, _⟩ => rfl

/-- An index of the array is in point t's block iff each coordinate is in the block's range on its axis. -/
theorem mem_blk0 (t : Fin cfg0.N) (x : S8192x8192.Idx) :
    x ∈ ((cfg0.win 2).blk t).view.set ↔ ∀ a : Fin 2, win0_2.index t a * S512x512.size a ≤ (x a).val ∧ (x a).val < win0_2.index t a * S512x512.size a + S512x512.size a := by
  show x ∈ ((View.whole main_v80).slice (win0_2.rect t)).set ↔ _
  rw [View.set_slice_whole, Rect.mem_set_unit]
  exact Iff.rfl

/-- Every index of the array is in the block of a point that writes back: the second point of its tile's pair. -/
theorem cover0 (x : S8192x8192.Idx) : ∃ t : Fin cfg0.N, (cfg0.win 2).flush t = true ∧ x ∈ ((cfg0.win 2).blk t).view.set := by
  have h0 : (x 0).val < 8192 := (x 0).isLt
  have h1 : (x 1).val < 8192 := (x 1).isLt
  have hv : (pt0 (blkOf (x 0)) (blkOf (x 1))).val = ((x 0).val / 512 * 16 + (x 1).val / 512) * 2 + 1 := rfl
  obtain ⟨-, -, -, -, e0, e1⟩ := idx0 (pt0 (blkOf (x 0)) (blkOf (x 1)))
  refine ⟨pt0 (blkOf (x 0)) (blkOf (x 1)), (flush0_2 _).mpr (by rw [hv]; omega), ?_⟩
  rw [mem_blk0]
  intro a
  match a with
  | ⟨0, _⟩ =>
    show win0_2.index (pt0 (blkOf (x 0)) (blkOf (x 1))) (0 : Fin 2) * 512 ≤ (x 0).val ∧ (x 0).val < win0_2.index (pt0 (blkOf (x 0)) (blkOf (x 1))) (0 : Fin 2) * 512 + 512
    rw [e0, hv]; omega
  | ⟨1, _⟩ =>
    show win0_2.index (pt0 (blkOf (x 0)) (blkOf (x 1))) (1 : Fin 2) * 512 ≤ (x 1).val ∧ (x 1).val < win0_2.index (pt0 (blkOf (x 0)) (blkOf (x 1))) (1 : Fin 2) * 512 + 512
    rw [e1, hv]; omega

/-- THE ARRAY after the first grid: Ahat0 of A as the region finds it. -/
theorem final0_any (c : Dev nD) : (dat0 V c).arrAt 2 cfg0.N = Ahat0 (V c main_v79) :=
  (dat0 V c).arrAt_eq_of_cover 2 (Ahat0 (V c main_v79)) (fun t hf => flushed0_eq V c t hf) cover0

end Blocks

/-- The same at the ideal values. -/
theorem final0 (V : (c : Dev nD) → (b : Ref sig .tc) → Buf (Elt Ideal) ((c : Thread nD τ).loc b)) (c : Dev nD) :
    (dat0 (F := Ideal) V c).arrAt 2 cfg0.N = Ahat0 (V c main_v79) := final0_any V c

/-! ## The output array, read at an index at the ideal values -/

/-- The coordinates of a point of the first grid: t = (i·16 + j)·2 + k has i = t / 32 and j = t / 2 mod 16. -/
theorem crd0 : ∀ t : Fin cfg0.N, ((grid0.coords t) 0).val = t.val / 32 ∧ ((grid0.coords t) 1).val = t.val / 2 % 16 :=
  (by decide +kernel : ∀ t : Fin grid0.N, _)

theorem rowBlk_lo (A : Vec F S8192x8192 .bf16) (i : Fin 16) (p : Fin 512) (m : Fin 4096) :
    rowBlk A i 0 (ix2 p m) = A (ix2 (gIdx i p) (⟨m.val, by omega⟩ : Fin 8192)) := by
  show A (ix2 _ _) = A (ix2 _ _)
  refine congrArg A ?_
  funext a; apply Fin.ext
  match a with
  | ⟨0, _⟩ => rfl
  | ⟨1, _⟩ => show 0 * 4096 + m.val = m.val; omega
theorem rowBlk_hi (A : Vec F S8192x8192 .bf16) (i : Fin 16) (p : Fin 512) (m : Fin 4096) :
    rowBlk A i 1 (ix2 p m) = A (ix2 (gIdx i p) (⟨4096 + m.val, by omega⟩ : Fin 8192)) := by
  show A (ix2 _ _) = A (ix2 _ _)
  refine congrArg A ?_
  funext a; apply Fin.ext
  match a with
  | ⟨0, _⟩ => rfl
  | ⟨1, _⟩ => show 1 * 4096 + m.val = 4096 + m.val; omega
theorem colBlk_lo (A : Vec F S8192x8192 .bf16) (j : Fin 16) (m : Fin 4096) (q : Fin 512) :
    colBlk A 0 j (ix2 m q) = A (ix2 (⟨m.val, by omega⟩ : Fin 8192) (gIdx j q)) := by
  show A (ix2 _ _) = A (ix2 _ _)
  refine congrArg A ?_
  funext a; apply Fin.ext
  match a with
  | ⟨0, _⟩ => show 0 * 4096 + m.val = m.val; omega
  | ⟨1, _⟩ => rfl
theorem colBlk_hi (A : Vec F S8192x8192 .bf16) (j : Fin 16) (m : Fin 4096) (q : Fin 512) :
    colBlk A 1 j (ix2 m q) = A (ix2 (⟨4096 + m.val, by omega⟩ : Fin 8192) (gIdx j q)) := by
  show A (ix2 _ _) = A (ix2 _ _)
  refine congrArg A ?_
  funext a; apply Fin.ext
  match a with
  | ⟨0, _⟩ => show 1 * 4096 + m.val = 4096 + m.val; omega
  | ⟨1, _⟩ => rfl

/-- THE OUTPUT ARRAY AT (r, q), at the ideal values: one where the two half inner products of row r and column q of A,
    accumulated from zero, are positive, plus one on the diagonal. -/
theorem Ahat0_apply (A : Vec Ideal S8192x8192 .bf16) (r q : Fin 8192) :
    Ahat0 A (ix2 r q) =
      (if 0 < (0 + ∑ k : Fin 4096, A (ix2 r (⟨k.val, by omega⟩ : Fin 8192)) * A (ix2 (⟨k.val, by omega⟩ : Fin 8192) q))
            + ∑ k : Fin 4096, A (ix2 r (⟨4096 + k.val, by omega⟩ : Fin 8192)) * A (ix2 (⟨4096 + k.val, by omega⟩ : Fin 8192) q)
        then (1 : EReal) else 0) + (if r = q then (1 : EReal) else 0) := by
  obtain ⟨i, p, rfl⟩ : ∃ i p, r = gIdx i p := ⟨blkOf r, inBlk r, (gIdx_blkOf_inBlk r).symm⟩
  obtain ⟨j, s, rfl⟩ : ∃ j s, q = gIdx j s := ⟨blkOf q, inBlk q, (gIdx_blkOf_inBlk q).symm⟩
  rw [Ahat0_at]
  unfold Ahat0Blk
  rw [PayAt.k0_pay3_apply, PayAt.k0_pay2_apply, PayAt.k0_pay2_apply, PayAt.k0_pay1_apply]
  have hS0 : ∑ k : Fin 4096, rowBlk A i 0 (ix2 p k) * colBlk A 0 j (ix2 k s)
      = ∑ k : Fin 4096, A (ix2 (gIdx i p) (⟨k.val, by omega⟩ : Fin 8192)) * A (ix2 (⟨k.val, by omega⟩ : Fin 8192) (gIdx j s)) :=
    Finset.sum_congr rfl fun k _ => by rw [rowBlk_lo, colBlk_lo]
  have hS1 : ∑ k : Fin 4096, rowBlk A i 1 (ix2 p k) * colBlk A 1 j (ix2 k s)
      = ∑ k : Fin 4096, A (ix2 (gIdx i p) (⟨4096 + k.val, by omega⟩ : Fin 8192)) * A (ix2 (⟨4096 + k.val, by omega⟩ : Fin 8192) (gIdx j s)) :=
    Finset.sum_congr rfl fun k _ => by rw [rowBlk_hi, colBlk_hi]
  rw [hS0, hS1]
  congr 1
  obtain ⟨c0, c1⟩ := crd0 (pt0 i j)
  have hv : (pt0 i j).val = (i.val * 16 + j.val) * 2 + 1 := rfl
  have hi := i.isLt; have hj := j.isLt; have hp := p.isLt; have hs := s.isLt
  refine if_congr ?_ rfl rfl
  have h1 : ((i.val * 16 + j.val) * 2 + 1) / 32 = i.val := by omega
  have h2 : ((i.val * 16 + j.val) * 2 + 1) / 2 % 16 = j.val := by omega
  rw [c0, c1, hv, h1, h2, Fin.ext_iff]
  exact Iff.rfl

end Cert.KernelIdeal.Run

end
-- ==== Proof.KIVal1.lean ====
/-
  The second grid, from blocks to the array. The grid has 8 × 2 points; point t = q·2 + p works on block q of the output, rows
  q·1024 … of an 8192 × 128 array, and at its two points p = 0, 1 contracts rows p·4096 … of the 8192 × 8192 array, columns
  q·1024 …, with rows p·4096 … of the 8192 × 128 array, along the first axis of both. At p = 1 the block is written back as
  the accumulator scaled row by row by rows q·1024 … of the column vector, plus the bias row; the eight blocks cover the array.
  So the output array ends holding ONE function of the four input arrays, index by index: at (r, d), with q = r / 1024, the
  final payload of block q at (r mod 1024, d).
-/
import proofs.«124652_j14353780703440_1_alg».proof.Proof.KIDat1
import proofs.«124652_j14353780703440_1_alg».proof.Proof.KIPay
import Idealize.ShloMosaic.Lib.Pipeline.Value
import Idealize.ShloMosaic.Lib.ValueIdx

set_option maxRecDepth 16384

noncomputable section

namespace Cert.KernelIdeal.Run

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-! ## Rows, blocks and points -/

/-- Row s of block q of an axis of 8192 cut into 8 blocks of 1024. -/
def gIdx1 (q : Fin 8) (s : Fin 1024) : Fin 8192 := ⟨q.val * 1024 + s.val, by have := q.isLt; have := s.isLt; omega⟩
/-- The block a row is in. -/
def blkOf1 (r : Fin 8192) : Fin 8 := ⟨r.val / 1024, by have := r.isLt; omega⟩
/-- The row's place inside its block. -/
def inBlk1 (r : Fin 8192) : Fin 1024 := ⟨r.val % 1024, by omega⟩

theorem blkOf1_gIdx1 (q : Fin 8) (s : Fin 1024) : blkOf1 (gIdx1 q s) = q :=
  Fin.ext (by show (q.val * 1024 + s.val) / 1024 = q.val; have := s.isLt; omega)
theorem inBlk1_gIdx1 (q : Fin 8) (s : Fin 1024) : inBlk1 (gIdx1 q s) = s :=
  Fin.ext (by show (q.val * 1024 + s.val) % 1024 = s.val; have := s.isLt; omega)
theorem gIdx1_blkOf1_inBlk1 (r : Fin 8192) : gIdx1 (blkOf1 r) (inBlk1 r) = r :=
  Fin.ext (by show r.val / 1024 * 1024 + r.val % 1024 = r.val; omega)

/-- The second point of the pair of points that work on block q: the one that writes it back. -/
def pt1 (q : Fin 8) : Fin cfg1.N :=
  ⟨q.val * 2 + 1, by have := q.isLt; have hN : grid1.N = 16 := N_1; show _ < grid1.N; omega⟩

/-- Rows p·4096 … and columns q·1024 … of an 8192 × 8192 array, as a 4096 × 1024 block. -/
def ahBlk (Ah : Vec F S8192x8192 .bf16) (p : Fin 2) (q : Fin 8) : Vec F S4096x1024 .bf16 := fun y =>
  Ah (ix2 (⟨p.val * 4096 + (y 0).val, by have := p.isLt; have := idx2_lt0 y; omega⟩ : Fin 8192)
    (⟨q.val * 1024 + (y 1).val, by have := q.isLt; have := idx2_lt1 y; omega⟩ : Fin 8192))

/-- Rows p·4096 … of an 8192 × 128 array, as a 4096 × 128 block. -/
def vBlk (v : Vec F S8192x128 .bf16) (p : Fin 2) : Vec F S4096x128 .bf16 := fun y =>
  v (ix2 (⟨p.val * 4096 + (y 0).val, by have := p.isLt; have := idx2_lt0 y; omega⟩ : Fin 8192)
    (⟨(y 1).val, idx2_lt1 y⟩ : Fin 128))

/-- Rows q·1024 … of an 8192 × 1 column, as a 1024 × 1 block. -/
def dnBlk (dn : Vec F S8192x1 .f32) (q : Fin 8) : Vec F S1024x1 .f32 := fun y =>
  dn (ix2 (⟨q.val * 1024 + (y 0).val, by have := q.isLt; have := idx2_lt0 y; omega⟩ : Fin 8192)
    (⟨(y 1).val, idx2_lt1 y⟩ : Fin 1))

/-- Block q of the output: the two contractions accumulated from zero, scaled by the block's rows of the column, plus the bias row. -/
def X2Blk (Ah : Vec F S8192x8192 .bf16) (v : Vec F S8192x128 .bf16) (dn : Vec F S8192x1 .f32) (b : Vec F S1x128 .f32) (q : Fin 8) :
    Vec F S1024x128 .f32 :=
  k1_pay3 (dnBlk dn q) (k1_pay2 (k1_pay2 (k1_pay1 (F := F)) (ahBlk Ah 0 q) (vBlk v 0)) (ahBlk Ah 1 q) (vBlk v 1)) b

/-- THE OUTPUT ARRAY as one function of the four inputs: at (r, d) the block r / 1024 at (r mod 1024, d). -/
def X2 (Ah : Vec F S8192x8192 .bf16) (v : Vec F S8192x128 .bf16) (dn : Vec F S8192x1 .f32) (b : Vec F S1x128 .f32) :
    Vec F S8192x128 .f32 := fun x =>
  X2Blk Ah v dn b (blkOf1 (x 0)) (ix2 (inBlk1 (x 0)) (⟨(x 1).val, idx2_lt1 x⟩ : Fin 128))

theorem X2_at (Ah : Vec F S8192x8192 .bf16) (v : Vec F S8192x128 .bf16) (dn : Vec F S8192x1 .f32) (b : Vec F S1x128 .f32)
    (q : Fin 8) (s : Fin 1024) (d : Fin 128) :
    X2 Ah v dn b (ix2 (gIdx1 q s) d) = X2Blk Ah v dn b q (ix2 s d) := by
  show X2Blk Ah v dn b (blkOf1 (gIdx1 q s)) (ix2 (inBlk1 (gIdx1 q s)) d) = _
  rw [blkOf1_gIdx1, inBlk1_gIdx1]

/-! ## The printed index maps, decided over the grid -/

/-- At point t = q·2 + p: the square array's window sits at block (p, q), the tall array's at (p, 0), the column's and the
    output's at (q, 0), the bias row's at (0, 0). -/
theorem idx1 : ∀ t : Fin cfg1.N,
    win1_0.index t (0 : Fin 2) = t.val % 2 ∧ win1_0.index t (1 : Fin 2) = t.val / 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = 0 ∧ win1_3.index t (1 : Fin 2) = 0
    ∧ win1_4.index t (0 : Fin 2) = t.val / 2 ∧ win1_4.index t (1 : Fin 2) = 0 :=
  (by decide +kernel : ∀ t : Fin grid1.N, _)

section Blocks

variable (V : (c : Dev nD) → (b : Ref sig .tc) → Buf (Elt F) ((c : Thread nD τ).loc b))

/-- The square array's window at a point reads its block. -/
theorem iblk1_0_at (c : Dev nD) (t : Fin cfg1.N) (p : Fin 2) (q : Fin 8) (hp : p.val = t.val % 2) (hq : q.val = t.val / 2) :
    (iblk1 V c 0 t : Vec F S4096x1024 .bf16) = ahBlk (V c main_v80) p q := by
  obtain ⟨e0, e1, -⟩ := idx1 t
  funext y
  show V c main_v80 (((cfg1.win 0).blk t).view.emb y) = V c main_v80 _
  refine congrArg (V c main_v80) ?_
  funext a; apply Fin.ext
  match a with
  | ⟨0, _⟩ => show win1_0.index t (0 : Fin 2) * 4096 + 1 * (y 0).val = p.val * 4096 + (y 0).val; rw [e0, hp]; omega
  | ⟨1, _⟩ => show win1_0.index t (1 : Fin 2) * 1024 + 1 * (y 1).val = q.val * 1024 + (y 1).val; rw [e1, hq]; omega

/-- The tall array's window at a point reads its block. -/
theorem iblk1_1_at (c : Dev nD) (t : Fin cfg1.N) (p : Fin 2) (hp : p.val = t.val % 2) :
    (iblk1 V c 1 t : Vec F S4096x128 .bf16) = vBlk (V c main_v93) p := by
  obtain ⟨-, -, e0, e1, -⟩ := idx1 t
  funext y
  show V c main_v93 (((cfg1.win 1).blk t).view.emb y) = V c main_v93 _
  refine congrArg (V c main_v93) ?_
  funext a; apply Fin.ext
  match a with
  | ⟨0, _⟩ => show win1_1.index t (0 : Fin 2) * 4096 + 1 * (y 0).val = p.val * 4096 + (y 0).val; rw [e0, hp]; omega
  | ⟨1, _⟩ => show win1_1.index t (1 : Fin 2) * 128 + 1 * (y 1).val = (y 1).val; rw [e1]; omega

/-- The column's window at a point reads its block. -/
theorem iblk1_2_at (c : Dev nD) (t : Fin cfg1.N) (q : Fin 8) (hq : q.val = t.val / 2) :
    (iblk1 V c 2 t : Vec F S1024x1 .f32) = dnBlk (V c main_v94) q := by
  obtain ⟨-, -, -, -, e0, e1, -⟩ := idx1 t
  funext y
  show V c main_v94 (((cfg1.win 2).blk t).view.emb y) = V c main_v94 _
  refine congrArg (V c main_v94) ?_
  funext a; apply Fin.ext
  match a with
  | ⟨0, _⟩ => show win1_2.index t (0 : Fin 2) * 1024 + 1 * (y 0).val = q.val * 1024 + (y 0).val; rw [e0, hq]; omega
  | ⟨1, _⟩ => show win1_2.index t (1 : Fin 2) * 1 + 1 * (y 1).val = (y 1).val; rw [e1]; omega

/-- The bias row's window at every point reads the whole row. -/
theorem iblk1_3_at (c : Dev nD) (t : Fin cfg1.N) : (iblk1 V c 3 t : Vec F S1x128 .f32) = V c main_v95 := by
  obtain ⟨-, -, -, -, -, -, e0, e1, -⟩ := idx1 t
  funext y
  show V c main_v95 (((cfg1.win 3).blk t).view.emb y) = V c main_v95 y
  refine congrArg (V c main_v95) ?_
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem k1_pay2_congr {s s' : Vec F S1024x128 .f32} {a a' : Vec F S4096x1024 .bf16} {b b' : Vec F S4096x128 .bf16}
    (hs : s = s') (ha : a = a') (hb : b = b') : k1_pay2 s a b = k1_pay2 s' a' b' := by subst hs ha hb; rfl
theorem k1_pay3_congr {x x' : Vec F S1024x1 .f32} {a a' : Vec F S1024x128 .f32} {b b' : Vec F S1x128 .f32}
    (hx : x = x') (ha : a = a') (hb : b = b') : k1_pay3 x a b = k1_pay3 x' a' b' := by subst hx ha hb; rfl

/-- What the output's buffer holds after the second point of a pair: the block of the point's place. -/
theorem out1_odd (c : Dev nD) (t : Fin cfg1.N) (h : t.val % 2 = 1) (q : Fin 8) (hq : q.val = t.val / 2) :
    out1 V c t = X2Blk (V c main_v80) (V c main_v93) (V c main_v94) (V c main_v95) q := by
  have hN : grid1.N = 16 := N_1
  have htl : t.val < 16 := hN ▸ t.isLt
  have hp : (prev1 t).val = t.val - 1 := rfl
  unfold out1 X2Blk
  refine k1_pay3_congr (iblk1_2_at V c t q hq) ?_ (iblk1_3_at V c t)
  unfold acc1
  rw [if_neg (by omega)]
  exact k1_pay2_congr
    (k1_pay2_congr rfl (iblk1_0_at V c (prev1 t) 0 q (by rw [hp]; show 0 = _; omega) (by rw [hp, hq]; omega))
      (iblk1_1_at V c (prev1 t) 0 (by rw [hp]; show 0 = _; omega)))
    (iblk1_0_at V c t 1 q (by show 1 = _; omega) hq) (iblk1_1_at V c t 1 (by show 1 = _; omega))

/-! ## From the blocks to the array -/

/-- WHAT POINT t WRITES BACK is block t of X2 of the input arrays as the region finds them. -/
theorem flushed1_eq (c : Dev nD) (t : Fin cfg1.N) (hf : (cfg1.win 4).flush t = true) :
    (dat1 V c).flushed 4 t
      = ((cfg1.win 4).blk t).view.read (Elt F) (X2 (V c main_v80) (V c main_v93) (V c main_v94) (V c main_v95)) := by
  have hodd : t.val % 2 = 1 := (flush1_4 t).mp hf
  have hN : grid1.N = 16 := N_1
  have htl : t.val < 16 := hN ▸ t.isLt
  obtain ⟨-, -, -, -, -, -, -, -, e0, e1⟩ := idx1 t
  show (cfg1.win 4).cut (grid1.coords t) ((dat1 V c).after 4 t) = _
  rw [after1_4]
  funext y
  have hy0 : (y 0).val < 1024 := (y 0).isLt
  have hy1 : (y 1).val < 128 := (y 1).isLt
  let q : Fin 8 := ⟨t.val / 2, by omega⟩
  let s : Fin 1024 := ⟨(y 0).val, hy0⟩
  let d : Fin 128 := ⟨(y 1).val, hy1⟩
  rw [out1_odd V c t hodd q rfl]
  show X2Blk (V c main_v80) (V c main_v93) (V c main_v94) (V c main_v95) q _
    = X2 (V c main_v80) (V c main_v93) (V c main_v94) (V c main_v95) (((cfg1.win 4).blk t).view.emb y)
  have hemb : ((cfg1.win 4).blk t).view.emb y = ix2 (gIdx1 q s) d := by
    funext a; apply Fin.ext
    match a with
    | ⟨0, _⟩ => show win1_4.index t (0 : Fin 2) * 1024 + 1 * (y 0).val = t.val / 2 * 1024 + (y 0).val; rw [e0]; omega
    | ⟨1, _⟩ => show win1_4.index t (1 : Fin 2) * 128 + 1 * (y 1).val = (y 1).val; rw [e1]; omega
  rw [hemb, X2_at]
  refine congrArg (X2Blk (V c main_v80) (V c main_v93) (V c main_v94) (V c main_v95) q) ?_
  funext a
  match a with
  | ⟨0, _⟩ => rfl
  | ⟨1, _⟩ => rfl

/-- An index of the array is in point t's block iff each coordinate is in the block's range on its axis. -/
theorem mem_blk1 (t : Fin cfg1.N) (x : S8192x128.Idx) :
    x ∈ ((cfg1.win 4).blk t).view.set ↔ ∀ a : Fin 2, win1_4.index t a * S1024x128.size a ≤ (x a).val ∧ (x a).val < win1_4.index t a * S1024x128.size a + S1024x128.size a := by
  show x ∈ ((View.whole main_v96).slice (win1_4.rect t)).set ↔ _
  rw [View.set_slice_whole, Rect.mem_set_unit]
  exact Iff.rfl

/-- Every index of the array is in the block of a point that writes back: the second point of its block's pair. -/
theorem cover1 (x : S8192x128.Idx) : ∃ t : Fin cfg1.N, (cfg1.win 4).flush t = true ∧ x ∈ ((cfg1.win 4).blk t).view.set := by
  have h0 : (x 0).val < 8192 := (x 0).isLt
  have h1 : (x 1).val < 128 := (x 1).isLt
  have hv : (pt1 (blkOf1 (x 0))).val = (x 0).val / 1024 * 2 + 1 := rfl
  obtain ⟨-, -, -, -, -, -, -, -, e0, e1⟩ := idx1 (pt1 (blkOf1 (x 0)))
  refine ⟨pt1 (blkOf1 (x 0)), (flush1_4 _).mpr (by rw [hv]; omega), ?_⟩
  rw [mem_blk1]
  intro a
  match a with
  | ⟨0, _⟩ =>
    show win1_4.index (pt1 (blkOf1 (x 0))) (0 : Fin 2) * 1024 ≤ (x 0).val ∧ (x 0).val < win1_4.index (pt1 (blkOf1 (x 0))) (0 : Fin 2) * 1024 + 1024
    rw [e0, hv]; omega
  | ⟨1, _⟩ =>
    show win1_4.index (pt1 (blkOf1 (x 0))) (1 : Fin 2) * 128 ≤ (x 1).val ∧ (x 1).val < win1_4.index (pt1 (blkOf1 (x 0))) (1 : Fin 2) * 128 + 128
    rw [e1]; omega

/-- THE ARRAY after the second grid: X2 of the input arrays as the region finds them. -/
theorem final1_any (c : Dev nD) :
    (dat1 V c).arrAt 4 cfg1.N = X2 (V c main_v80) (V c main_v93) (V c main_v94) (V c main_v95) :=
  (dat1 V c).arrAt_eq_of_cover 4 (X2 (V c main_v80) (V c main_v93) (V c main_v94) (V c main_v95))
    (fun t hf => flushed1_eq V c t hf) cover1

end Blocks

/-- The same at the ideal values. -/
theorem final1 (V : (c : Dev nD) → (b : Ref sig .tc) → Buf (Elt Ideal) ((c : Thread nD τ).loc b)) (c : Dev nD) :
    (dat1 (F := Ideal) V c).arrAt 4 cfg1.N = X2 (V c main_v80) (V c main_v93) (V c main_v94) (V c main_v95) := final1_any V c

/-! ## The output array, read at an index at the ideal values -/

theorem ahBlk_lo (Ah : Vec F S8192x8192 .bf16) (q : Fin 8) (m : Fin 4096) (s : Fin 1024) :
    ahBlk Ah 0 q (ix2 m s) = Ah (ix2 (⟨m.val, by omega⟩ : Fin 8192) (gIdx1 q s)) := by
  show Ah (ix2 _ _) = Ah (ix2 _ _)
  refine congrArg Ah ?_
  funext a; apply Fin.ext
  match a with
  | ⟨0, _⟩ => show 0 * 4096 + m.val = m.val; omega
  | ⟨1, _⟩ => rfl
theorem ahBlk_hi (Ah : Vec F S8192x8192 .bf16) (q : Fin 8) (m : Fin 4096) (s : Fin 1024) :
    ahBlk Ah 1 q (ix2 m s) = Ah (ix2 (⟨4096 + m.val, by omega⟩ : Fin 8192) (gIdx1 q s)) := by
  show Ah (ix2 _ _) = Ah (ix2 _ _)
  refine congrArg Ah ?_
  funext a; apply Fin.ext
  match a with
  | ⟨0, _⟩ => show 1 * 4096 + m.val = 4096 + m.val; omega
  | ⟨1, _⟩ => rfl
theorem vBlk_lo (v : Vec F S8192x128 .bf16) (m : Fin 4096) (d : Fin 128) :
    vBlk v 0 (ix2 m d) = v (ix2 (⟨m.val, by omega⟩ : Fin 8192) d) := by
  show v (ix2 _ _) = v (ix2 _ _)
  refine congrArg v ?_
  funext a; apply Fin.ext
  match a with
  | ⟨0, _⟩ => show 0 * 4096 + m.val = m.val; omega
  | ⟨1, _⟩ => rfl
theorem vBlk_hi (v : Vec F S8192x128 .bf16) (m : Fin 4096) (d : Fin 128) :
    vBlk v 1 (ix2 m d) = v (ix2 (⟨4096 + m.val, by omega⟩ : Fin 8192) d) := by
  show v (ix2 _ _) = v (ix2 _ _)
  refine congrArg v ?_
  funext a; apply Fin.ext
  match a with
  | ⟨0, _⟩ => show 1 * 4096 + m.val = 4096 + m.val; omega
  | ⟨1, _⟩ => rfl
theorem dnBlk_apply (dn : Vec F S8192x1 .f32) (q : Fin 8) (s : Fin 1024) :
    dnBlk dn q (ix2 s (0 : Fin 1)) = dn (ix2 (gIdx1 q s) (0 : Fin 1)) := by
  show dn (ix2 _ _) = dn (ix2 _ _)
  refine congrArg dn ?_
  funext a; apply Fin.ext
  match a with
  | ⟨0, _⟩ => rfl
  | ⟨1, _⟩ => rfl

/-- THE OUTPUT ARRAY AT (r, d), at the ideal values: the column's entry of row r times the two half inner products, accumulated
    from zero, of column r of the square array with column d of the tall one, plus the bias row's entry d. -/
theorem X2_apply (Ah : Vec Ideal S8192x8192 .bf16) (v : Vec Ideal S8192x128 .bf16) (dn : Vec Ideal S8192x1 .f32)
    (b : Vec Ideal S1x128 .f32) (r : Fin 8192) (d : Fin 128) :
    X2 Ah v dn b (ix2 r d) =
      dn (ix2 r (0 : Fin 1))
          * ((0 + ∑ p : Fin 4096, Ah (ix2 (⟨p.val, by omega⟩ : Fin 8192) r) * v (ix2 (⟨p.val, by omega⟩ : Fin 8192) d))
            + ∑ p : Fin 4096, Ah (ix2 (⟨4096 + p.val, by omega⟩ : Fin 8192) r) * v (ix2 (⟨4096 + p.val, by omega⟩ : Fin 8192) d))
        + b (ix2 (0 : Fin 1) d) := by
  obtain ⟨q, s, rfl⟩ : ∃ q s, r = gIdx1 q s := ⟨blkOf1 r, inBlk1 r, (gIdx1_blkOf1_inBlk1 r).symm⟩
  rw [X2_at]
  unfold X2Blk
  rw [PayAt.k1_pay3_apply, PayAt.k1_pay2_apply, PayAt.k1_pay2_apply, PayAt.k1_pay1_apply, dnBlk_apply]
  have hS0 : ∑ p : Fin 4096, ahBlk Ah 0 q (ix2 p s) * vBlk v 0 (ix2 p d)
      = ∑ p : Fin 4096, Ah (ix2 (⟨p.val, by omega⟩ : Fin 8192) (gIdx1 q s)) * v (ix2 (⟨p.val, by omega⟩ : Fin 8192) d) :=
    Finset.sum_congr rfl fun p _ => by rw [ahBlk_lo, vBlk_lo]
  have hS1 : ∑ p : Fin 4096, ahBlk Ah 1 q (ix2 p s) * vBlk v 1 (ix2 p d)
      = ∑ p : Fin 4096, Ah (ix2 (⟨4096 + p.val, by omega⟩ : Fin 8192) (gIdx1 q s)) * v (ix2 (⟨4096 + p.val, by omega⟩ : Fin 8192) d) :=
    Finset.sum_congr rfl fun p _ => by rw [ahBlk_hi, vBlk_hi]
  rw [hS0, hS1]

end Cert.KernelIdeal.Run

end
-- ==== Proof.LibScatterDiag.lean ====
/-
  A scatter that adds one update per row of an index table of pairs, read at an entry.

  The operand is a matrix of N0 × N1 entries, the index table has M rows of two signed words, and the
  updates are M values: update k is added to the operand at the entry (table(k, 0), table(k, 1)), the two
  words read as signed integers, and is dropped when that entry lies outside the matrix. The first lemma
  says at which entry update k lands. The second reads the result when row k of the table is the pair
  (k, k): the update k is added on the diagonal at (k, k), and nothing else is touched — distinct updates
  land at distinct entries, so over the extended reals the result at (r, c) is the operand there plus the
  update r when r = c.
-/
import Idealize.ShloMosaic.PureOps.Ideal.Laws
import Idealize.ShloMosaic.Lib.ValueIdx

namespace Cert.LibScatterDiag

open Idealize.ShloMosaic Idealize.ShloMosaic.ValueIdx
open scoped BigOperators

/-- The dimension numbers of a scatter of M scalar updates into an N0 × N1 matrix at the index pairs held by
    the rows of an M × 2 table: no window axis, both operand axes inserted, component a of a pair going to
    operand axis a, the pair laid along the table's axis 1. -/
abbrev pairDims (N0 N1 M : Nat)
    (wf : ScatterDims.WF ⟨2, ![N0, N1]⟩ ⟨2, ![M, 2]⟩ ⟨1, ![M]⟩ [] [0, 1] [0, 1] 1) :
    ScatterDims ⟨2, ![N0, N1]⟩ ⟨2, ![M, 2]⟩ ⟨1, ![M]⟩ where
  updateWindowDims := []
  insertedWindowDims := [0, 1]
  scatterDimsToOperandDims := [0, 1]
  indexVectorDim := 1
  wf := wf

variable {N0 N1 M w : Nat}
  (wf : ScatterDims.WF ⟨2, ![N0, N1]⟩ ⟨2, ![M, 2]⟩ ⟨1, ![M]⟩ [] [0, 1] [0, 1] 1)

/-- No operand axis carries a window coordinate. -/
theorem window_eq (k : Fin M) (a : Fin 2) : (pairDims N0 N1 M wf).window (ix1 k) a = 0 := by
  have hk : ∀ b : Fin 2, b ∉ (List.finRange 2).filter (fun x => x ∉ ([0, 1] : List (Fin 2))) := by decide
  unfold ScatterDims.window
  exact dif_neg (hk a)

/-- The start of update k on operand axis a is the table's word (k, a), read signed. -/
theorem start_eq (k : Fin M) (idx : IVec ⟨2, ![M, 2]⟩ w) (a : Fin 2) :
    (pairDims N0 N1 M wf).start (ix1 k) idx a = (idx (ix2 k a)).toInt := by
  have hm : ∀ b : Fin 2, b ∈ ([0, 1] : List (Fin 2)) := by decide
  unfold ScatterDims.start
  match a with
  | ⟨0, _⟩ =>
    rw [dif_pos (hm ⟨0, by decide⟩)]
    refine congrArg (fun z => (idx z).toInt) (funext fun b => Fin.ext ?_)
    match b with
    | ⟨0, _⟩ => rfl
    | ⟨1, _⟩ => rfl
  | ⟨1, _⟩ =>
    rw [dif_pos (hm ⟨1, by decide⟩)]
    refine congrArg (fun z => (idx z).toInt) (funext fun b => Fin.ext ?_)
    match b with
    | ⟨0, _⟩ => rfl
    | ⟨1, _⟩ => rfl

/-- Where update k lands: at the entry i exactly when the two signed words of row k of the table are the
    two coordinates of i. (A row naming an entry outside the matrix lands nowhere.) -/
theorem resultIdx?_eq_some_iff (k : Fin M) (idx : IVec ⟨2, ![M, 2]⟩ w) (i : (⟨2, ![N0, N1]⟩ : Shape).Idx) :
    (pairDims N0 N1 M wf).resultIdx? (ix1 k) idx = some i
      ↔ ∀ a : Fin 2, (idx (ix2 k a)).toInt = ((i a).val : Int) := by
  have hloc : ∀ a : Fin 2, (pairDims N0 N1 M wf).start (ix1 k) idx a
      + (((pairDims N0 N1 M wf).window (ix1 k) a : Nat) : Int) = (idx (ix2 k a)).toInt := fun a => by
    rw [start_eq, window_eq]; simp
  unfold ScatterDims.resultIdx?
  split
  · rename_i h
    constructor
    · intro e a
      have ea : ((pairDims N0 N1 M wf).start (ix1 k) idx a
          + (((pairDims N0 N1 M wf).window (ix1 k) a : Nat) : Int)).toNat = (i a).val :=
        congrArg (fun f : (⟨2, ![N0, N1]⟩ : Shape).Idx => (f a).val) (Option.some.inj e)
      have h0 := (h a).1
      rw [hloc a] at ea h0
      omega
    · intro e
      refine congrArg some (funext fun a => Fin.ext ?_)
      show ((pairDims N0 N1 M wf).start (ix1 k) idx a
          + (((pairDims N0 N1 M wf).window (ix1 k) a : Nat) : Int)).toNat = (i a).val
      rw [hloc a, e a]
      exact Int.toNat_natCast _
  · rename_i h
    constructor
    · intro e; cases e
    · intro e
      refine absurd (fun a => ?_) h
      rw [hloc a, e a]
      exact ⟨Int.natCast_nonneg _, Int.ofNat_lt.2 (i a).isLt⟩

/-- THE DIAGONAL SCATTER. When row k of the index table is the pair (k, k) (both words read signed), the
    scatter-add of N updates into an N × N matrix adds update r at the diagonal entry (r, r) and leaves every
    other entry as it was: over the extended reals, the result at (r, c) is the operand at (r, c) plus the
    update r when r = c. -/
theorem scatterAdd_diag_apply {N : Nat} {φ : FTy}
    (wfN : ScatterDims.WF ⟨2, ![N, N]⟩ ⟨2, ![N, 2]⟩ ⟨1, ![N]⟩ [] [0, 1] [0, 1] 1)
    (x : FVec Ideal ⟨2, ![N, N]⟩ φ) (idx : IVec ⟨2, ![N, 2]⟩ w) (upd : FVec Ideal ⟨1, ![N]⟩ φ)
    (hidx : ∀ (k : Fin N) (a : Fin 2), (idx (ix2 k a)).toInt = (k.val : Int)) (r c : Fin N) :
    Host.scatterAdd (F := Ideal) (pairDims N N N wfN) x idx upd (ix2 r c)
      = x (ix2 r c) + (if r = c then upd (ix1 r) else 0) := by
  show Ideal.hostScatterAdd (pairDims N N N wfN) x idx upd (ix2 r c) = _
  unfold Ideal.hostScatterAdd
  refine congrArg (x (ix2 r c) + ·) ?_
  -- an update that lands at (r, c) is update r, and then r = c
  have hland : ∀ j : (⟨1, ![N]⟩ : Shape).Idx,
      (pairDims N N N wfN).resultIdx? j idx = some (ix2 r c) → j = ix1 r ∧ r = c := by
    intro j hj
    obtain ⟨k, rfl⟩ : ∃ k : Fin N, j = ix1 k := ⟨j 0, eq_ix1 j⟩
    have h := (resultIdx?_eq_some_iff wfN k idx (ix2 r c)).1 hj
    have h0 := h 0
    have h1 := h 1
    rw [hidx] at h0 h1
    have e0 : k.val = r.val := Int.ofNat_inj.1 h0
    have e1 : k.val = c.val := Int.ofNat_inj.1 h1
    have : k = r := Fin.ext e0
    subst this
    exact ⟨rfl, Fin.ext e1⟩
  by_cases hrc : r = c
  · subst hrc
    rw [if_pos rfl]
    refine Finset.sum_eq_single_of_mem (ix1 r) (Finset.mem_filter.2 ⟨Finset.mem_univ _, ?_⟩) fun j hj hne => ?_
    · refine (resultIdx?_eq_some_iff wfN r idx (ix2 r r)).2 fun a => ?_
      rw [hidx]
      match a with
      | ⟨0, _⟩ => rfl
      | ⟨1, _⟩ => rfl
    · exact absurd (hland j (Finset.mem_filter.1 hj).2).1 hne
  · rw [if_neg hrc]
    exact Finset.sum_eq_zero fun j hj => absurd (hland j (Finset.mem_filter.1 hj).2).2 hrc

end Cert.LibScatterDiag
-- ==== Proof.RefRead.lean ====
/-
  The reference's special stages read at an index, over the extended reals: the thresholded square of the
  edge-count matrix, the diagonal added by a scatter of ones, the column sums, and the normalised product
  with the bias added. Each statement is about pure functions of arrays; no program is run here.
-/
import proofs.«124652_j14353780703440_1_alg».proof.Proof.Gen.ReferenceIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«124652_j14353780703440_1_alg».proof.Proof.LibScatterDiag

noncomputable section

namespace Cert.ReferenceIdeal.ReadAt

open Cert.ReferenceIdeal Cert.ReferenceIdeal.Gen Idealize.ShloMosaic Idealize.ShloMosaic.ValueIdx
open scoped BigOperators

/-! ## A product of two matrices at an entry -/

/-- The contraction index of the square product is its one coordinate, below 8192. -/
def contrSq : (dot_S8192x8192_S8192x8192_S8192x8192_1_0_0_1_n_n).contr.Idx ≃ Fin 8192 :=
  contrEquiv1 dot_S8192x8192_S8192x8192_S8192x8192_1_0_0_1_n_n 8192 rfl rfl

/-- The product of two 8192 × 8192 matrices at (r, c) is the sum over k of L(r, k) · R(k, c). -/
theorem dotSq_apply (Lm Rm : FVec Ideal S8192x8192 .f32) (r c : Fin 8192) :
    Host.dotGeneral dot_S8192x8192_S8192x8192_S8192x8192_1_0_0_1_n_n none Lm Rm (ix2 r c)
      = ∑ k : Fin 8192, Lm (ix2 r k) * Rm (ix2 k c) := by
  unfold Host.dotGeneral
  rw [Ideal.dotGeneral_apply]
  rw [← Equiv.sum_comp contrSq.symm]
  refine Finset.sum_congr rfl fun k _ => ?_
  have hl : (dot_S8192x8192_S8192x8192_S8192x8192_1_0_0_1_n_n).lhsIdx (ix2 r c) (contrSq.symm k) = ix2 r k := by
    funext a
    match a with
    | ⟨0, _⟩ => rfl
    | ⟨1, _⟩ => rfl
  have hr : (dot_S8192x8192_S8192x8192_S8192x8192_1_0_0_1_n_n).rhsIdx (ix2 r c) (contrSq.symm k) = ix2 k c := by
    funext a
    match a with
    | ⟨0, _⟩ => rfl
    | ⟨1, _⟩ => rfl
  rw [hl, hr]

/-- The thresholded square: 1 where the (r, c) entry of A · A is positive, 0 elsewhere. -/
theorem a2_apply (A : FVec Ideal S8192x8192 .f32) (r c : Fin 8192) :
    uitofp (F := Ideal) .f32 (cmpf (F := Ideal) .ogt
        (Host.dotGeneral dot_S8192x8192_S8192x8192_S8192x8192_1_0_0_1_n_n none A A)
        (broadcastInDim S8192x8192 ![] bcast_S_S8192x8192 (constant S_ .f32 0x00000000#32))) (ix2 r c)
      = (if 0 < ∑ k : Fin 8192, A (ix2 r k) * A (ix2 k c) then (1 : EReal) else 0) := by
  show (((Ideal.cmp .ogt
      (Host.dotGeneral dot_S8192x8192_S8192x8192_S8192x8192_1_0_0_1_n_n none A A (ix2 r c))
      (broadcastInDim S8192x8192 ![] bcast_S_S8192x8192 (constant (F := Ideal) S_ .f32 0x00000000#32) (ix2 r c))).toNat : ℝ) : EReal) = _
  rw [dotSq_apply, broadcastInDim_scalar_apply, constant_apply, Ideal.ofBits_zero_f32]
  unfold Ideal.cmp
  by_cases h : 0 < ∑ k : Fin 8192, A (ix2 r k) * A (ix2 k c)
  · rw [if_pos h]; simp [h]
  · rw [if_neg h]; simp [h]

/-! ## The column sums -/

/-- The sum over the rows of an 8192 × 8192 matrix, from the initial value zero, at column c. -/
theorem deg_apply (Ahat : FVec Ideal S8192x8192 .f32) (c : Fin 8192) :
    Host.reduceAdd (F := Ideal) Ahat (constant S_ .f32 0x00000000#32) reducesTo_S8192x8192_S8192_d0 h_S_ (ix1 c)
      = 0 + ∑ r : Fin 8192, Ahat (ix2 r c) := by
  rw [hostReduceAdd_apply]
  have hR : S8192x8192.Reduces [0] S8192 := by decide
  rw [Ideal.hostReduceAdd_single reducesTo_S8192x8192_S8192_d0 hR, constant_apply, Ideal.ofBits_zero_f32]
  refine congrArg (0 + ·) (Finset.sum_congr rfl fun k _ => congrArg Ahat ?_)
  funext a
  match a with
  | ⟨0, _⟩ => rfl
  | ⟨1, _⟩ => rfl

/-! ## The normalised product with the bias -/

/-- A vector laid along the rows and repeated over 128 columns reads, at (q, d), its entry q. -/
theorem colBcast_apply (v : FVec Ideal S8192 .f32) (q : Fin 8192) (d : Fin 128) :
    broadcastInDim S8192x128 ![0, 1] bcast_S8192x1_S8192x128_0_1
        (broadcastInDim S8192x1 ![0] bcast_S8192_S8192x1_0 v) (ix2 q d) = v (ix1 q) := by
  refine (broadcastInDim_apply _ _ _ (ix2 q d) (ix2 q (0 : Fin 1)) fun a => ?_).trans ?_
  · match a with
    | ⟨0, _⟩ => rfl
    | ⟨1, _⟩ => rfl
  · refine broadcastInDim_apply _ _ _ (ix2 q (0 : Fin 1)) (ix1 q) fun a => ?_
    match a with
    | ⟨0, _⟩ => rfl

/-- A vector of 128 entries laid along the columns and repeated over the rows reads, at (q, d), its entry d. -/
theorem rowBcast_apply (b : FVec Ideal S128 .f32) (q : Fin 8192) (d : Fin 128) :
    broadcastInDim S8192x128 ![0, 1] bcast_S1x128_S8192x128_0_1
        (broadcastInDim S1x128 ![1] bcast_S128_S1x128_1 b) (ix2 q d) = b (ix1 d) := by
  refine (broadcastInDim_apply _ _ _ (ix2 q d) (ix2 (0 : Fin 1) d) fun a => ?_).trans ?_
  · match a with
    | ⟨0, _⟩ => rfl
    | ⟨1, _⟩ => rfl
  · refine broadcastInDim_apply _ _ _ (ix2 (0 : Fin 1) d) (ix1 d) fun a => ?_
    match a with
    | ⟨0, _⟩ => rfl

/-- The contraction index of the 8192 × 8192 by 8192 × 128 product is its one coordinate, below 8192. -/
def contrWide : (dot_S8192x8192_S8192x128_S8192x128_1_0_0_1_n_n).contr.Idx ≃ Fin 8192 :=
  contrEquiv1 dot_S8192x8192_S8192x128_S8192x128_1_0_0_1_n_n 8192 rfl rfl

/-- The product of an 8192 × 8192 matrix with an 8192 × 128 matrix at (q, d). -/
theorem dotWide_apply (Lm : FVec Ideal S8192x8192 .f32) (Rm : FVec Ideal S8192x128 .f32) (q : Fin 8192) (d : Fin 128) :
    Host.dotGeneral dot_S8192x8192_S8192x128_S8192x128_1_0_0_1_n_n none Lm Rm (ix2 q d)
      = ∑ p : Fin 8192, Lm (ix2 q p) * Rm (ix2 p d) := by
  unfold Host.dotGeneral
  rw [Ideal.dotGeneral_apply]
  rw [← Equiv.sum_comp contrWide.symm]
  refine Finset.sum_congr rfl fun k _ => ?_
  have hl : (dot_S8192x8192_S8192x128_S8192x128_1_0_0_1_n_n).lhsIdx (ix2 q d) (contrWide.symm k) = ix2 q k := by
    funext a
    match a with
    | ⟨0, _⟩ => rfl
    | ⟨1, _⟩ => rfl
  have hr : (dot_S8192x8192_S8192x128_S8192x128_1_0_0_1_n_n).rhsIdx (ix2 q d) (contrWide.symm k) = ix2 k d := by
    funext a
    match a with
    | ⟨0, _⟩ => rfl
    | ⟨1, _⟩ => rfl
  rw [hl, hr]

/-- The last stage: the entry (q, d) is dinv(q) times the sum over p of Â(p, q) · (dinv(p) · h(p, d)), plus b(d);
    the transpose makes the contraction run over the first axis of Â. -/
theorem x2_apply (Ahat : FVec Ideal S8192x8192 .f32) (dinv : FVec Ideal S8192 .f32) (h : FVec Ideal S8192x128 .f32)
    (b : FVec Ideal S128 .f32) (q : Fin 8192) (d : Fin 128) :
    addf (mulf (broadcastInDim S8192x128 ![0, 1] bcast_S8192x1_S8192x128_0_1 (broadcastInDim S8192x1 ![0] bcast_S8192_S8192x1_0 dinv))
          (Host.dotGeneral dot_S8192x8192_S8192x128_S8192x128_1_0_0_1_n_n none
            (transpose S8192x8192 [1, 0] Ahat transposes_S8192x8192_S8192x8192_1_0)
            (mulf (broadcastInDim S8192x128 ![0, 1] bcast_S8192x1_S8192x128_0_1 (broadcastInDim S8192x1 ![0] bcast_S8192_S8192x1_0 dinv)) h)))
        (broadcastInDim S8192x128 ![0, 1] bcast_S1x128_S8192x128_0_1 (broadcastInDim S1x128 ![1] bcast_S128_S1x128_1 b)) (ix2 q d)
      = dinv (ix1 q) * (∑ p : Fin 8192, Ahat (ix2 p q) * (dinv (ix1 p) * h (ix2 p d))) + b (ix1 d) := by
  rw [addf_apply, mulf_apply, colBcast_apply, rowBcast_apply, dotWide_apply]
  refine congrArg (fun z => dinv (ix1 q) * z + b (ix1 d)) (Finset.sum_congr rfl fun p _ => ?_)
  rw [transpose_ix2_apply, mulf_apply, colBcast_apply]

/-! ## The diagonal added by a scatter of ones -/

/-- The row numbers 0 … 8191 as 32-bit words, after the wrap of negative indices (none is negative). -/
def wrapIota : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The index table of the diagonal scatter: row n is the pair (n, n). -/
def idxTerm : IVec S8192x2 32 :=
  concatenate S8192x2 1
    [⟨S8192x1, broadcastInDim S8192x1 ![0] bcast_S8192_S8192x1_0 wrapIota⟩,
     ⟨S8192x1, broadcastInDim S8192x1 ![0] bcast_S8192_S8192x1_0 wrapIota⟩]
    concatenates_S8192x1_S8192x1_S8192x2_d1

/-- The updates of the diagonal scatter: 8192 ones. -/
def onesTerm : FVec Ideal S8192 .f32 :=
  broadcastInDim S8192 ![] bcast_S_S8192 (constant (F := Ideal) S_ .f32 0x3F800000#32)

/-- A number below 2³¹ written as a 32-bit word and read back signed is itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- The wrapped row number n is the word n. -/
theorem wrapIota_apply (n : Fin 8192) : wrapIota (ix1 n) = BitVec.ofNat 32 n.val := by
  have hlt : (IntOp.cmpi .slt (BitVec.ofNat 32 n.val) (0#32 : BitVec 32)) = 0#1 := by
    show BitVec.ofBool ((BitVec.ofNat 32 n.val).slt 0#32) = 0#1
    have : (BitVec.ofNat 32 n.val).slt 0#32 = false := by
      rw [BitVec.slt_eq_decide, toInt_ofNat_small n.val (by omega)]
      simp
    rw [this]; rfl
  show Scalar.select (IntOp.cmpi .slt (BitVec.ofNat 32 n.val) (0#32 : BitVec 32)) _ (BitVec.ofNat 32 n.val) = _
  rw [hlt, select_zero]

/-- Row n of the index table is (n, n): both words are n. -/
theorem idxTerm_apply (n : Fin 8192) (a : Fin 2) : idxTerm (ix2 n a) = BitVec.ofNat 32 n.val := by
  have hb : broadcastInDim S8192x1 ![0] bcast_S8192_S8192x1_0 wrapIota (ix2 n (0 : Fin 1)) = wrapIota (ix1 n) :=
    broadcastInDim_apply _ _ _ (ix2 n (0 : Fin 1)) (ix1 n) fun b => match b with | ⟨0, _⟩ => rfl
  unfold idxTerm
  match a with
  | ⟨0, _⟩ =>
    refine (concatenate_pair_apply_left (t := S8192x2) (s₁ := S8192x1) (s₂ := S8192x1) (1 : Fin 2) _ _ concatenates_S8192x1_S8192x1_S8192x2_d1 (ix2 n (0 : Fin 2)) rfl
      (ix2 n (0 : Fin 1)) fun b => ?_).trans (hb.trans (wrapIota_apply n))
    match b with
    | ⟨0, _⟩ => rfl
    | ⟨1, _⟩ => rfl
  | ⟨1, _⟩ =>
    refine (concatenate_pair_apply_right (t := S8192x2) (s₁ := S8192x1) (s₂ := S8192x1) (1 : Fin 2) _ _ concatenates_S8192x1_S8192x1_S8192x2_d1 (ix2 n (1 : Fin 2)) rfl rfl
      (ix2 n (0 : Fin 1)) (fun b hne => ?_) rfl).trans (hb.trans (wrapIota_apply n))
    match b with
    | ⟨0, _⟩ => rfl
    | ⟨1, _⟩ => exact absurd rfl hne

/-- THE DIAGONAL: the scatter of ones at the pairs (n, n) adds 1 on the diagonal and nothing elsewhere. -/
theorem diag_scatter_apply (A2 : FVec Ideal S8192x8192 .f32) (r c : Fin 8192) :
    Host.scatterAdd (F := Ideal) scatter_S8192x8192_S8192x2_S8192_n_01_01_1 A2 idxTerm onesTerm (ix2 r c)
      = A2 (ix2 r c) + (if r = c then (1 : EReal) else 0) := by
  have hidx : ∀ (k : Fin 8192) (a : Fin 2), (idxTerm (ix2 k a)).toInt = (k.val : Int) := fun k a => by
    rw [idxTerm_apply, toInt_ofNat_small k.val (by omega)]
  have hone : onesTerm (ix1 r) = 1 := by
    unfold onesTerm
    rw [broadcastInDim_scalar_apply, constant_apply, Ideal.ofBits_one_f32]
  have h := Cert.LibScatterDiag.scatterAdd_diag_apply (N := 8192) scatter_S8192x8192_S8192x2_S8192_n_01_01_1_wf
    A2 idxTerm onesTerm hidx r c
  rw [hone] at h
  exact h

end Cert.ReferenceIdeal.ReadAt

end
-- ==== Proof.LibHalves.lean ====
/- A finite sum over an index range of even length, collected half by half.

   A contraction of length n + n that is accumulated in two steps into a cell which is first
   reset to zero reads  (0 + (sum over the first half)) + (sum over the second half).  The lemma
   below says that this is the whole sum; it is Mathlib's `Fin.sum_univ_add` with the leading
   zero of the reset kept in place.  A second form states the same at 8192 = 4096 + 4096 with the
   two halves' indices written by explicit constructors. -/
import Mathlib.Algebra.BigOperators.Fin

namespace Cert.LibHalves

open Finset

/-- The sum over `Fin (n + n)` is the sum over the first half (after a zero) plus the sum over
   the second half. -/
theorem sum_halves {M : Type*} [AddCommMonoid M] (n : ℕ) (f : Fin (n + n) → M) :
    ∑ k, f k = (0 + ∑ k : Fin n, f (Fin.castAdd n k)) + ∑ k : Fin n, f (Fin.natAdd n k) := by
  rw [zero_add, Fin.sum_univ_add]

/-- The same at 8192 = 4096 + 4096, the indices of the halves written out: the first half is
   `k`, the second `4096 + k`, for `k < 4096`. -/
theorem sum_halves_8192 {M : Type*} [AddCommMonoid M] (f : Fin 8192 → M) :
    ∑ k, f k = (0 + ∑ k : Fin 4096, f ⟨k.val, by omega⟩)
      + ∑ k : Fin 4096, f ⟨4096 + k.val, by omega⟩ := by
  have h := sum_halves (M := M) 4096 f
  refine h.trans ?_
  rfl

end Cert.LibHalves
-- ==== Proof.AhatBridge.lean ====
/-
  The reference's Â and its dense convolution x2, read at an entry in the form the kernel program computes
  them: the contractions of length 8192 collected in two halves of 4096 after a zero.
-/
import proofs.«124652_j14353780703440_1_alg».proof.Proof.RefRead
import proofs.«124652_j14353780703440_1_alg».proof.Proof.LibHalves
import proofs.«124652_j14353780703440_1_alg».proof.Proof.RefPieces

noncomputable section

namespace Cert.Bridge.Ahat

open Cert.ReferenceIdeal Cert.ReferenceIdeal.Gen Cert.ReferenceIdeal.ReadAt Idealize.ShloMosaic Idealize.ShloMosaic.ValueIdx
open scoped BigOperators

/-! ## Â at an entry -/

/-- Â at (r, q): one where the (r, q) entry of A · A — its contraction collected in two halves of 4096, after
    a zero — is positive, zero elsewhere; plus one on the diagonal. -/
theorem ahat_bridge (A : FVec Ideal S8192x8192 .f32) (r q : Fin 8192) :
    Cert.ReferenceIdeal.Pieces.AhatR (F := Ideal) A (ix2 r q)
      = (if 0 < (0 + ∑ k : Fin 4096, A (ix2 r ⟨k.val, by omega⟩) * A (ix2 ⟨k.val, by omega⟩ q))
            + ∑ k : Fin 4096, A (ix2 r ⟨4096 + k.val, by omega⟩) * A (ix2 ⟨4096 + k.val, by omega⟩ q)
          then (1 : EReal) else 0)
        + (if r = q then (1 : EReal) else 0) := by
  refine (diag_scatter_apply _ r q).trans ?_
  rw [a2_apply, Cert.LibHalves.sum_halves_8192]

/-! ## The dense convolution at an entry -/

/-- x2 at (q, d): dinv(q) times the sum over p — collected in two halves of 4096, after a zero — of
    Â(p, q) · (dinv(p) · (x · W2)(p, d)), plus b2(d). -/
theorem x2_bridge (Ah : FVec Ideal S8192x8192 .f32) (a0 : FVec Ideal S8192x512 .f32) (a4 : FVec Ideal S512x128 .f32)
    (a5 : FVec Ideal S128 .f32) (q : Fin 8192) (d : Fin 128) :
    Cert.ReferenceIdeal.Pieces.X2R (F := Ideal) Ah a0 a4 a5 (ix2 q d)
      = Cert.ReferenceIdeal.Pieces.DinvR (F := Ideal) Ah (ix1 q)
          * ((0 + ∑ p : Fin 4096, Ah (ix2 ⟨p.val, by omega⟩ q)
                * (Cert.ReferenceIdeal.Pieces.DinvR (F := Ideal) Ah (ix1 ⟨p.val, by omega⟩)
                    * Host.dotGeneral dot_S8192x512_S512x128_S8192x128_1_0_0_1_n_n none a0 a4 (ix2 ⟨p.val, by omega⟩ d)))
            + ∑ p : Fin 4096, Ah (ix2 ⟨4096 + p.val, by omega⟩ q)
                * (Cert.ReferenceIdeal.Pieces.DinvR (F := Ideal) Ah (ix1 ⟨4096 + p.val, by omega⟩)
                    * Host.dotGeneral dot_S8192x512_S512x128_S8192x128_1_0_0_1_n_n none a0 a4 (ix2 ⟨4096 + p.val, by omega⟩ d)))
        + a5 (ix1 d) := by
  refine (x2_apply Ah (Cert.ReferenceIdeal.Pieces.DinvR (F := Ideal) Ah)
    (Host.dotGeneral dot_S8192x512_S512x128_S8192x128_1_0_0_1_n_n none a0 a4) a5 q d).trans ?_
  rw [Cert.LibHalves.sum_halves_8192]

end Cert.Bridge.Ahat

end
-- ==== Proof.KIRead.lean ====
/-
  What the arrays handed to the second grid hold, read at an index over the extended reals: a vector laid out as a
  one-column matrix, a vector laid out as a one-row matrix, the row-scaled feature matrix (a column of scale factors
  repeated across 128 columns, times the features, then narrowed in format), and the two changes of format of the
  8192 × 8192 matrix, which are the identity on extended reals. Each statement is about pure functions of arrays; no
  program is run here.
-/
import proofs.«124652_j14353780703440_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.ReadK

open Idealize.ShloMosaic Idealize.ShloMosaic.ValueIdx Cert.KernelIdeal Cert.KernelIdeal.Gen

/-- A vector of 8192 entries laid out as an 8192 × 1 matrix reads, at (r, 0), its entry r. -/
theorem col_apply (v : FVec Ideal S8192 .f32) (r : Fin 8192) :
    broadcastInDim S8192x1 ![0] bcast_S8192_S8192x1_0 v (ix2 r (0 : Fin 1)) = v (ix1 r) := by
  refine broadcastInDim_apply _ _ _ (ix2 r (0 : Fin 1)) (ix1 r) fun a => ?_
  match a with
  | ⟨0, _⟩ => rfl

/-- A vector of 128 entries laid out as a 1 × 128 matrix reads, at (0, d), its entry d. -/
theorem row_apply (b : FVec Ideal S128 .f32) (d : Fin 128) :
    broadcastInDim S1x128 ![1] bcast_S128_S1x128_1 b (ix2 (0 : Fin 1) d) = b (ix1 d) := by
  refine broadcastInDim_apply _ _ _ (ix2 (0 : Fin 1) d) (ix1 d) fun a => ?_
  match a with
  | ⟨0, _⟩ => rfl

/-- A vector laid along the rows and repeated over 128 columns reads, at (p, d), its entry p. -/
theorem colRep_apply (v : FVec Ideal S8192 .f32) (p : Fin 8192) (d : Fin 128) :
    broadcastInDim S8192x128 ![0, 1] bcast_S8192x1_S8192x128_0_1
        (broadcastInDim S8192x1 ![0] bcast_S8192_S8192x1_0 v) (ix2 p d) = v (ix1 p) := by
  refine (broadcastInDim_apply _ _ _ (ix2 p d) (ix2 p (0 : Fin 1)) fun a => ?_).trans (col_apply v p)
  match a with
  | ⟨0, _⟩ => rfl
  | ⟨1, _⟩ => rfl

/-- The row-scaled features, narrowed in format: the entry (p, d) is v(p) · h(p, d). -/
theorem v_apply (v : FVec Ideal S8192 .f32) (h : FVec Ideal S8192x128 .f32) (p : Fin 8192) (d : Fin 128) :
    (truncf .bf16 (mulf (broadcastInDim S8192x128 ![0, 1] bcast_S8192x1_S8192x128_0_1
        (broadcastInDim S8192x1 ![0] bcast_S8192_S8192x1_0 v)) h) bitsLt_bf16_f32) (ix2 p d) = v (ix1 p) * h (ix2 p d) := by
  rw [truncf_apply, mulf_apply, colRep_apply]

/-- Widening the format of the 8192 × 8192 matrix changes no entry. -/
theorem extf_a (Ab : FVec Ideal S8192x8192 .bf16) (i : S8192x8192.Idx) :
    (extf .f32 Ab bitsLt_bf16_f32) i = Ab i := rfl

/-- Narrowing the format of the 8192 × 8192 matrix changes no entry. -/
theorem truncf_a (A : FVec Ideal S8192x8192 .f32) (i : S8192x8192.Idx) :
    (truncf .bf16 A bitsLt_bf16_f32) i = A i := rfl

end Cert.KernelIdeal.ReadK

end
-- ==== Proof.X2Final.lean ====
/-
  The second grid's result is the reference's dense convolution x2: the kernel program's output array, as a
  function of the narrowed Â, the features and the bias, agrees entry by entry with the reference's x2 of the
  widened Â.
-/
import proofs.«124652_j14353780703440_1_alg».proof.Proof.AhatBridge
import proofs.«124652_j14353780703440_1_alg».proof.Proof.KIVal1
import proofs.«124652_j14353780703440_1_alg».proof.Proof.KIRead
import proofs.«124652_j14353780703440_1_alg».proof.Proof.KIHost

noncomputable section

namespace Cert.Bridge.X2

open Idealize.ShloMosaic Idealize.ShloMosaic.ValueIdx Cert.KernelIdeal Cert.KernelIdeal.Gen
open scoped BigOperators

/-- The second grid's result, as one function of Â (in the narrow format), x, W2 and b2, is the reference's
    dense convolution x2 of the widened Â: at every (q, d) both are dinv(q) times the two half sums over p of
    Â(p, q) · (dinv(p) · (x · W2)(p, d)), accumulated from zero, plus b2(d). -/
theorem x2_final (Ahb : FVec Ideal S8192x8192 .bf16) (a0 : FVec Ideal S8192x512 .f32) (a4 : FVec Ideal S512x128 .f32)
    (a5 : FVec Ideal S128 .f32) :
    Cert.KernelIdeal.Run.X2 Ahb
        (truncf .bf16 (mulf (broadcastInDim S8192x128 ![0, 1] bcast_S8192x1_S8192x128_0_1
            (broadcastInDim S8192x1 ![0] bcast_S8192_S8192x1_0 (Cert.KernelIdeal.HostRead.dinvK Ahb)))
          (Host.dotGeneral dot_S8192x512_S512x128_S8192x128_1_0_0_1_n_n none a0 a4)) bitsLt_bf16_f32)
        (broadcastInDim S8192x1 ![0] bcast_S8192_S8192x1_0 (Cert.KernelIdeal.HostRead.dinvK Ahb))
        (broadcastInDim S1x128 ![1] bcast_S128_S1x128_1 a5)
      = Cert.ReferenceIdeal.Pieces.X2R (F := Ideal) (extf .f32 Ahb bitsLt_bf16_f32) a0 a4 a5 := by
  funext i
  obtain ⟨q, d, rfl⟩ : ∃ (q : Fin 8192) (d : Fin 128), i = ix2 q d := ⟨i 0, i 1, eq_ix2 i⟩
  refine (Cert.KernelIdeal.Run.X2_apply _ _ _ _ q d).trans ?_
  refine Eq.trans ?_ (Cert.Bridge.Ahat.x2_bridge _ a0 a4 a5 q d).symm
  rw [Cert.KernelIdeal.ReadK.col_apply, Cert.KernelIdeal.ReadK.row_apply, Cert.KernelIdeal.HostRead.dinvK_eq_DinvR]
  refine congrArg₂ (fun s1 s2 : EReal => Cert.ReferenceIdeal.Pieces.DinvR (F := Ideal) (extf .f32 Ahb bitsLt_bf16_f32) (ix1 q)
      * ((0 + s1) + s2) + a5 (ix1 d)) (Finset.sum_congr rfl fun p _ => ?_) (Finset.sum_congr rfl fun p _ => ?_)
  · rw [Cert.KernelIdeal.ReadK.v_apply]; rfl
  · rw [Cert.KernelIdeal.ReadK.v_apply]; rfl

end Cert.Bridge.X2

end
-- ==== Proof.AhatFinal.lean ====
/-
  The first grid's result is the reference's Â. The kernel program narrows the edge-count matrix in format, computes
  tile by tile the indicator of a positive entry of its square plus the identity, and widens the result again; over the
  extended reals both changes of format are the identity, and the tiles' entries — the contraction collected in two
  halves of 4096 after a zero — are the entries of the reference's Â, which adds the diagonal by a scatter of ones.
-/
import proofs.«124652_j14353780703440_1_alg».proof.Proof.KIVal0
import proofs.«124652_j14353780703440_1_alg».proof.Proof.AhatBridge
import proofs.«124652_j14353780703440_1_alg».proof.Proof.KIRead

noncomputable section

namespace Cert.Bridge.AhatK

open Idealize.ShloMosaic Idealize.ShloMosaic.ValueIdx
open scoped BigOperators

/-- Entry by entry: the widened result of the first grid on the narrowed matrix is the reference's Â of the matrix. -/
theorem ahat_final (A32 : FVec Ideal Cert.KernelIdeal.S8192x8192 .f32) :
    (extf (F := Ideal) .f32 (Cert.KernelIdeal.Run.Ahat0 (F := Ideal) (truncf (F := Ideal) .bf16 A32 Cert.KernelIdeal.Gen.bitsLt_bf16_f32))
        Cert.KernelIdeal.Gen.bitsLt_bf16_f32 : FVec Ideal Cert.KernelIdeal.S8192x8192 .f32)
      = Cert.ReferenceIdeal.Pieces.AhatR (F := Ideal) A32 := by
  funext i
  obtain ⟨r, q, rfl⟩ : ∃ r q : Fin 8192, i = ix2 r q := ⟨i 0, i 1, eq_ix2 i⟩
  rw [Cert.KernelIdeal.ReadK.extf_a, Cert.KernelIdeal.Run.Ahat0_apply]
  simp only [Cert.KernelIdeal.ReadK.truncf_a]
  exact (Cert.Bridge.Ahat.ahat_bridge A32 r q).symm

end Cert.Bridge.AhatK

end
-- ==== Proof.KIBridge.lean ====
/-
  The kernel program's result over the extended reals is the reference's term of the arguments. The result's buffer is the scaled
  concatenation of two buffers: the sparse convolution's, untouched since the third stretch of host operations, which is the same
  operations as the reference's x1; and the second grid's output array, which is x2 of what the second grid reads — Â as the first
  grid left it, v and the column of dinv computed from Â by the middle stretches, the bias row — and Â as the first grid left it is
  the reference's Â of the reference's A, the first grid reading A as the first stretches wrote it.
-/
import proofs.«124652_j14353780703440_1_alg».proof.Proof.KIRun
import proofs.«124652_j14353780703440_1_alg».proof.Proof.KIHost
import proofs.«124652_j14353780703440_1_alg».proof.Proof.KIVal0
import proofs.«124652_j14353780703440_1_alg».proof.Proof.KIVal1
import proofs.«124652_j14353780703440_1_alg».proof.Proof.X2Final
import proofs.«124652_j14353780703440_1_alg».proof.Proof.AhatFinal

set_option maxRecDepth 16384

noncomputable section

namespace Cert.KernelIdeal.Bridge

open Idealize.ShloMosaic Idealize.ShloMosaic.TcCoe Idealize.SL.Sem
open Cert.KernelIdeal Cert.KernelIdeal.Gen Cert.KernelIdeal.Run Cert.KernelIdeal.HostRead
open Cert.ReferenceIdeal.Pieces

variable {F : FTy → Type} [FloatOps F]
variable (m : (ℓ : Loc nD τ sig) → Buf (Elt F) ℓ) (ρ : Dev nD → PrngReg)

/-- The arguments are read unchanged at the first grid's exit. -/
theorem W4_arg (c : Dev nD) (r : Ref sig .tc) (h0 : r ∉ hostOps0_W) (h01 : r ∉ hostOps0_1_W) (h02 : r ∉ hostOps0_2_W) (h80 : r ≠ main_v80) :
    W4 m ρ c (Proc.devRef .tc r) = m ((c : Thread nD τ).loc r) :=
  calc W4 m ρ c (Proc.devRef .tc r)
    _ = W3 m ρ c (Proc.devRef .tc r) := W4_of_ne m ρ c r h80
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-- The sparse convolution's buffer is untouched from the third stretch to the end: it holds the reference's x1 of the arguments. -/
theorem W8_v62 (c : Dev nD) :
    W8 m ρ c (Proc.devRef .tc main_v62)
      = X1R (F := F) (m ((c : Thread nD τ).loc main_arg0)) (m ((c : Thread nD τ).loc main_arg1)) (m ((c : Thread nD τ).loc main_arg2)) (m ((c : Thread nD τ).loc main_arg3)) :=
  calc W8 m ρ c (Proc.devRef .tc main_v62)
    _ = W7 m ρ c (Proc.devRef .tc main_v62) := W8_of_ne m ρ c main_v62 (by decide)
    _ = W4 m ρ c (Proc.devRef .tc main_v62) := afterMid_v62 (W4 m ρ c)
    _ = W3 m ρ c (Proc.devRef .tc main_v62) := W4_of_ne m ρ c main_v62 (by decide)
    _ = _ := afterFirst_v62 (W0 m ρ c)

/-- The result's buffer: the scaled concatenation of x1 and of what the second grid wrote. -/
theorem W9_v101 (c : Dev nD) :
    W9 m ρ c (Proc.devRef .tc main_v101)
      = ResR (F := F) (X1R (m ((c : Thread nD τ).loc main_arg0)) (m ((c : Thread nD τ).loc main_arg1)) (m ((c : Thread nD τ).loc main_arg2)) (m ((c : Thread nD τ).loc main_arg3)))
          ((dat1 (V7 m ρ) c).arrAt 4 cfg1.N) := by
  rw [show W9 m ρ c = StableHlo.after hostOps2 (W8 m ρ c) from rfl, hostOps2_v101_eq_ResR, W8_v62]
  exact congrArg _ (W8_arr m ρ c 4)

/-- What the first grid reads: A, converted. -/
theorem V3_v79 (c : Dev nD) : V3 m ρ c main_v79 = truncf .bf16 (AR (F := F) (m ((c : Thread nD τ).loc main_arg1))) bitsLt_bf16_f32 :=
  afterFirst_v79 (W0 m ρ c)

/-- What the second grid reads. -/
theorem V7_v80 (c : Dev nD) : V7 m ρ c main_v80 = (dat0 (V3 m ρ) c).arrAt 2 cfg0.N :=
  (afterMid_v80 (W4 m ρ c)).trans (W4_v80 m ρ c)
theorem V7_v94 (c : Dev nD) : V7 m ρ c main_v94 = broadcastInDim S8192x1 ![0] bcast_S8192_S8192x1_0 (dinvK (V7 m ρ c main_v80)) := by
  rw [show V7 m ρ c main_v94 = afterMid (W4 m ρ c) (Proc.devRef .tc main_v94) from rfl, afterMid_v94]
  rw [show V7 m ρ c main_v80 = afterMid (W4 m ρ c) (Proc.devRef .tc main_v80) from rfl, afterMid_v80]
theorem V7_v95 (c : Dev nD) : V7 m ρ c main_v95 = broadcastInDim S1x128 ![1] bcast_S128_S1x128_1 (m ((c : Thread nD τ).loc main_arg5)) := by
  rw [show V7 m ρ c main_v95 = afterMid (W4 m ρ c) (Proc.devRef .tc main_v95) from rfl, afterMid_v95, W4_arg m ρ c main_arg5 (by decide) (by decide) (by decide) (by decide)]
theorem V7_v93 (c : Dev nD) : V7 m ρ c main_v93 = truncf .bf16 (mulf (broadcastInDim S8192x128 ![0, 1] bcast_S8192x1_S8192x128_0_1 (broadcastInDim S8192x1 ![0] bcast_S8192_S8192x1_0 (dinvK (V7 m ρ c main_v80)))) (Host.dotGeneral dot_S8192x512_S512x128_S8192x128_1_0_0_1_n_n none (m ((c : Thread nD τ).loc main_arg0)) (m ((c : Thread nD τ).loc main_arg4)))) bitsLt_bf16_f32 := by
  rw [show V7 m ρ c main_v93 = afterMid (W4 m ρ c) (Proc.devRef .tc main_v93) from rfl, afterMid_v93, W4_arg m ρ c main_arg0 (by decide) (by decide) (by decide) (by decide), W4_arg m ρ c main_arg4 (by decide) (by decide) (by decide) (by decide)]
  rw [show V7 m ρ c main_v80 = afterMid (W4 m ρ c) (Proc.devRef .tc main_v80) from rfl, afterMid_v80]

end Cert.KernelIdeal.Bridge

namespace Cert.KernelIdeal.Bridge

open Idealize.ShloMosaic Idealize.ShloMosaic.TcCoe Idealize.SL.Sem
open Cert.KernelIdeal Cert.KernelIdeal.Gen Cert.KernelIdeal.Run Cert.KernelIdeal.HostRead
open Cert.ReferenceIdeal.Pieces

variable (m : (ℓ : Loc nD τ sig) → Buf (Elt Ideal) ℓ) (ρ : Dev nD → PrngReg)

/-- Over the extended reals the result's buffer ends at the reference's term of the arguments: x1 is the same operations; the second
    grid's array is x2 of the first grid's array, which is Â of A. -/
theorem result_eq (c : Dev nD) :
    W9 m ρ c (Proc.devRef .tc main_v101)
      = ResR (F := Ideal) (X1R (m ((c : Thread nD τ).loc main_arg0)) (m ((c : Thread nD τ).loc main_arg1)) (m ((c : Thread nD τ).loc main_arg2)) (m ((c : Thread nD τ).loc main_arg3)))
          (X2R (AhatR (AR (m ((c : Thread nD τ).loc main_arg1)))) (m ((c : Thread nD τ).loc main_arg0)) (m ((c : Thread nD τ).loc main_arg4)) (m ((c : Thread nD τ).loc main_arg5))) := by
  rw [W9_v101 m ρ c, final1 (V7 m ρ) c, V7_v93 m ρ c, V7_v94 m ρ c, V7_v95 m ρ c, Cert.Bridge.X2.x2_final]
  refine congrArg (fun A => ResR (F := Ideal) _ (X2R A _ _ _)) ?_
  rw [V7_v80 m ρ c, final0 (V3 m ρ) c, V3_v79 m ρ c]
  exact Cert.Bridge.AhatK.ahat_final _

end Cert.KernelIdeal.Bridge

end
-- ==== Proof.lean ====
/-
  The claim: a two-hop graph block. Both programs build, from the edge list, the edge-count matrix A (a scatter-add of ones),
  a sparse convolution x1 from host gathers and scatter-adds, and a dense two-hop convolution x2 over
  Â = [A·A > 0] + I:  deg_c = Σ_r Â[r,c],  dinv = [deg > 0] / √deg,  v = dinv ⊙ (x·W2),
  x2[q,d] = dinv_q · Σ_p Â[p,q] · v[p,d] + b2[d];  the result is 0.99·x1 beside 0.01·x2.

  The kernel computes Â in a first grid of 16 × 16 × 2 points — the product A·A in blocks of 512 × 512, each the sum of two
  contractions over 4096 kept in a scratch accumulator that the first of the two points resets, the comparison with zero and the
  diagonal (row index = column index, from the point's block offsets) added at the second —, and x2 in a second grid of 8 × 2
  points — Σ_p over two halves of 4096 rows of Â, contracted along its FIRST axis, again in a scratch accumulator, scaled by the
  block's dinv column and shifted by b2 at the second point. The reference writes the diagonal by a scatter-add of ones at the
  index pairs (i, i) and takes both products whole. Over the extended reals a change of float format is the identity and a
  sum may be regrouped freely (addition is associative and commutative there, infinities included), so the two sides are
  one function of the arguments: no step cancels, distributes or divides across the two sides, and finiteness of the inputs is
  not needed for the equality. Everything outside the two grids (A, x1, the degrees, x·W2, the final scaling and the
  concatenation) is the same sequence of host operations in both programs.

  The kernel programs' run is Proof/KIRun.lean (and Proof/KRun.lean, the same text at the word-level program), over the two grids'
  proof data (Proof/KIDat0.lean, Proof/KIDat1.lean) and the bodies' runs (Proof/KIBody0.lean, Proof/KIBody1.lean); the reference's
  run is Proof/RefRun2.lean over the pieces of its term (Proof/RefPieces.lean); the equality of results is Proof/KIBridge.lean over the
  grids' arrays as whole-array functions (Proof/KIVal0.lean, Proof/KIVal1.lean), the host stretches read back (Proof/KIHost.lean) and
  the two equalities Â and x2 (Proof/AhatFinal.lean, Proof/X2Final.lean).
-/
import proofs.«124652_j14353780703440_1_alg».proof.Defs
import proofs.«124652_j14353780703440_1_alg».proof.Proof.Gen.Kernel
import proofs.«124652_j14353780703440_1_alg».proof.Proof.Gen.Kernel.Skeleton
import proofs.«124652_j14353780703440_1_alg».proof.Proof.Gen.Kernel.Launch
import proofs.«124652_j14353780703440_1_alg».proof.Proof.Gen.Kernel.Regions
import proofs.«124652_j14353780703440_1_alg».proof.Proof.Gen.Kernel.Points
import proofs.«124652_j14353780703440_1_alg».proof.Proof.Gen.KernelIdeal
import proofs.«124652_j14353780703440_1_alg».proof.Proof.Gen.KernelIdeal.Skeleton
import proofs.«124652_j14353780703440_1_alg».proof.Proof.Gen.KernelIdeal.Launch
import proofs.«124652_j14353780703440_1_alg».proof.Proof.Gen.KernelIdeal.Regions
import proofs.«124652_j14353780703440_1_alg».proof.Proof.Gen.KernelIdeal.Points
import proofs.«124652_j14353780703440_1_alg».proof.Proof.Gen.ReferenceIdeal
import proofs.«124652_j14353780703440_1_alg».proof.Proof.Gen.Pre_finite_inputs
import proofs.«124652_j14353780703440_1_alg».proof.Proof.RefFrame
import proofs.«124652_j14353780703440_1_alg».proof.Proof.KRun
import proofs.«124652_j14353780703440_1_alg».proof.Proof.KIRun
import proofs.«124652_j14353780703440_1_alg».proof.Proof.KIBridge
import Idealize.ShloMosaic.Adequacy
import Idealize.ShloMosaic.Init

noncomputable section

namespace Cert.Proof

open Idealize.ShloMosaic Idealize.SL.Sem Cert.Kernel

/-- The word-level kernel program runs to its end, faults nowhere and leaves its six arguments as given: its run segment by segment
    (host operations, the first grid, host operations, the second grid, host operations), no segment writing an argument. -/
theorem frame_k : Cert.frame_Kernel := fun m ρ _ => Cert.Kernel.Run.frame m ρ

/-- The same of the idealized kernel program: the same run, read at the extended reals. -/
theorem frame_ki : Cert.frame_KernelIdeal := fun m ρ _ => Cert.KernelIdeal.Run.frame m ρ

/-- The ideal pass rewrote no operation. -/
theorem preserves : Cert.preserves_Kernel_KernelIdeal := trivial

/-- Over the extended reals the idealized kernel program and the reference end with equal results: the kernel program's result
    buffer ends at the reference's own term of the arguments (the block sums of the two grids regrouped into the whole contractions,
    the diagonal written by comparison of indices against the scatter-add of ones at (i, i)), and the reference's run ends at that
    term of its arguments, which agree. -/
theorem algebraic : Cert.algebraic_KernelIdeal_ReferenceIdeal := by
  intro m ρ m' ρ' _ hagree
  refine ⟨fun c => Cert.ReferenceIdeal.Pieces.ResR (F := Ideal)
      (Cert.ReferenceIdeal.Pieces.X1R (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.ReferenceIdeal.Pieces.X2R (Cert.ReferenceIdeal.Pieces.AhatR (Cert.ReferenceIdeal.Pieces.AR
          (m ((c.tc : Thread Cert.KernelIdeal.nD Cert.KernelIdeal.τ).loc Cert.KernelIdeal.main_arg1))))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))), ?_, ?_⟩
  · exact (θ_run (Cert.KernelIdeal.defs (F := Ideal)) _ _).mono
      (fun _ h c => ⟨(h c).1.trans (Cert.KernelIdeal.Bridge.result_eq m ρ c), (h c).2⟩) (Cert.KernelIdeal.Run.run_result (F := Ideal) m ρ)
  · refine (θ_run (Cert.ReferenceIdeal.defs (F := Ideal)) _ _).mono (fun _ h c => ⟨(h c).1.trans ?_, (h c).2⟩)
      (Cert.ReferenceIdeal.Run2.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.Claims.frame_ri, preserves, algebraic⟩

end Cert.Proof

end
